-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S500 : Shape := ⟨1, ![500]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S1x64 .f32) (main_arg11 : FVec F S1 .f32) (main_v33 : IVec S_ 1) : IVec S_ 1 :=
  let main_v34 : FVec F S1x64 .f32 := Host.absf main_arg10
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S64x64 .f32) (main_arg8 : FVec F S64x64 .f32) (main_arg9 : FVec F S64 .f32) (main_arg10 : FVec F S1x64 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_v33

def fn {F : FTy → Type} [FloatOps F] (main_arg0 : FVec F S50000x128 .f32) (main_arg1 : IVec S2x800000 32) (main_arg2 : IVec S50000 32) (main_arg3 : IVec S500 32) (main_arg4 : FVec F S64x128 .f32) (main_arg5 : FVec F S64x128 .f32) (main_arg6 : FVec F S64 .f32) (main_arg7 : FVec F S64x64 .f32) (main_arg8 : FVec F S64x64 .f32) (main_arg9 : FVec F S64 .f32) (main_arg10 : FVec F S1x64 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S500 : Shape := ⟨1, ![500]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S128x64 : Shape := ⟨2, ![128, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S500x1 : Shape := ⟨2, ![500, 1]⟩
abbrev S500x64 : Shape := ⟨2, ![500, 64]⟩
abbrev S64x1 : Shape := ⟨2, ![64, 1]⟩
abbrev S1x1 : Shape := ⟨2, ![1, 1]⟩

abbrev nBuf : Space → Nat
  | .hbm => 107
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S500, .i32⟩
  | .hbm, ⟨4, _⟩ => ⟨S64x128, .f32⟩
  | .hbm, ⟨5, _⟩ => ⟨S64x128, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S128x64, .f32⟩
  | .hbm, ⟨30, _⟩ => ⟨S128x64, .f32⟩
  | .hbm, ⟨31, _⟩ => ⟨S64x64, .f32⟩
  | .hbm, ⟨32, _⟩ => ⟨S64x64, .f32⟩
  | .hbm, ⟨33, _⟩ => ⟨S50000x64, .f32⟩
  | .hbm, ⟨34, _⟩ => ⟨S50000x64, .bf16⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .bf16⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S50000x64, .bf16⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .bf16⟩
  | .hbm, ⟨62, _⟩ => ⟨S800000x64, .f32⟩
  | .hbm, ⟨63, _⟩ => ⟨S_, .f32⟩
  | .hbm, ⟨64, _⟩ => ⟨S50000x64, .f32⟩
  | .hbm, ⟨65, _⟩ => ⟨S800000x1, .i32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .i32⟩
  | .hbm, ⟨71, _⟩ => ⟨S500, .i32⟩
  | .hbm, ⟨72, _⟩ => ⟨S_, .i32⟩
  | .hbm, ⟨73, _⟩ => ⟨S_, .i32⟩
  | .hbm, ⟨74, _⟩ => ⟨S50000, .i32⟩
  | .hbm, ⟨75, _⟩ => ⟨S50000, .i32⟩
  | .hbm, ⟨76, _⟩ => ⟨S_, .i32⟩
  | .hbm, ⟨77, _⟩ => ⟨S50000, .i32⟩
  | .hbm, ⟨78, _⟩ => ⟨S50000, .i1⟩
  | .hbm, ⟨79, _⟩ => ⟨S_, .i32⟩
  | .hbm, ⟨80, _⟩ => ⟨S50000, .i32⟩
  | .hbm, ⟨81, _⟩ => ⟨S50000, .i32⟩
  | .hbm, ⟨82, _⟩ => ⟨S50000, .i32⟩
  | .hbm, ⟨83, _⟩ => ⟨S50000x1, .i32⟩
  | .hbm, ⟨84, _⟩ => ⟨S_, .i32⟩
  | .hbm, ⟨85, _⟩ => ⟨S50000, .i32⟩
  | .hbm, ⟨86, _⟩ => ⟨S500, .i32⟩
  | .hbm, ⟨87, _⟩ => ⟨S_, .i32⟩
  | .hbm, ⟨88, _⟩ => ⟨S_, .i32⟩
  | .hbm, ⟨89, _⟩ => ⟨S500, .i32⟩
  | .hbm, ⟨90, _⟩ => ⟨S500, .i32⟩
  | .hbm, ⟨91, _⟩ => ⟨S500, .i32⟩
  | .hbm, ⟨92, _⟩ => ⟨S_, .i32⟩
  | .hbm, ⟨93, _⟩ => ⟨S500, .i32⟩
  | .hbm, ⟨94, _⟩ => ⟨S500, .i1⟩
  | .hbm, ⟨95, _⟩ => ⟨S_, .i32⟩
  | .hbm, ⟨96, _⟩ => ⟨S500, .i32⟩
  | .hbm, ⟨97, _⟩ => ⟨S500, .i32⟩
  | .hbm, ⟨98, _⟩ => ⟨S500, .i32⟩
  | .hbm, ⟨99, _⟩ => ⟨S500x1, .i32⟩
  | .hbm, ⟨100, _⟩ => ⟨S500x64, .f32⟩
  | .hbm, ⟨101, _⟩ => ⟨S64x1, .f32⟩
  | .hbm, ⟨102, _⟩ => ⟨S500x1, .f32⟩
  | .hbm, ⟨103, _⟩ => ⟨S1x1, .f32⟩
  | .hbm, ⟨104, _⟩ => ⟨S500x1, .f32⟩
  | .hbm, ⟨105, _⟩ => ⟨S500x1, .f32⟩
  | .hbm, ⟨106, _⟩ => ⟨S500, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x128, .f32⟩
  | .local _ .vmem, ⟨8, _⟩ => ⟨S5000x128, .f32⟩
  | .local _ .vmem, ⟨9, _⟩ => ⟨S128x64, .f32⟩
  | .local _ .vmem, ⟨10, _⟩ => ⟨S64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_c_9 : Ref sig .tc := ⟨.hbm, 72, rfl⟩
abbrev main_call0_v0 : Ref sig .tc := ⟨.hbm, 73, rfl⟩
abbrev main_call0_v1 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_call1_call0_c : Ref sig .tc := ⟨.hbm, 87, rfl⟩
abbrev main_call1_call0_v0 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  transposes_S64x128_S128x64_1_0 : S64x128.Transposes [1, 0] S128x64
  transposes_S64x64_S64x64_1_0 : S64x64.Transposes [1, 0] S64x64
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S500 : S_.BroadcastsInDim S500 (![] : Fin 0 → Fin S500.rank)
  bcast_S50000_S50000x1_0 : S50000.BroadcastsInDim S50000x1 (![0] : Fin 1 → Fin S50000x1.rank)
  bcast_S_S_ : S_.BroadcastsInDim S_ (![] : Fin 0 → Fin S_.rank)
  reduceWindows_S500_S500_w500s1p499_0 : S500.ReduceWindows (![500] : Fin 1 → Nat) ![1] ![499] ![0] S500
  h_S_ : 0 < S_.numel
  bcast_S500_S500x1_0 : S500.BroadcastsInDim S500x1 (![0] : Fin 1 → Fin S500x1.rank)
  transposes_S1x64_S64x1_1_0 : S1x64.Transposes [1, 0] S64x1
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  shapeCasts_S500x1_S500 : S500x1.ShapeCasts S500
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S500_S50000x1_S50000_n_0_0_1_wf : ScatterDims.WF S500 S50000x1 S50000 [] [0] [0] 1
  gather_S50000x64_S500x1_S500x64_1_0_n_n_0_1_164_wf : GatherDims.WF S50000x64 S500x1 S500x64 [1] [0] [] [0] [] 1 ![1, 64]
  dot_S500x64_S64x1_S500x1_1_0_0_1_n_n_wf : DotDims.WF S500x64 S64x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x64_S500x1_S500x64_1_0_n_n_0_1_164 : GatherDims S50000x64 S500x1 S500x64 where
  offsetDims := [1]
  collapsedSliceDims := [0]
  operandBatchingDims := []
  startIndicesBatchingDims := []
  startIndexMap := [0]
  indexVectorDim := 1
  sliceSizes := ![1, 64]
  wf := gather_S50000x64_S500x1_S500x64_1_0_n_n_0_1_164_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S500 : Shape := ⟨1, ![500]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S128x64 : Shape := ⟨2, ![128, 64]⟩
abbrev S50000x64 : Shape := ⟨2, ![50000, 64]⟩
abbrev S800000x64 : Shape := ⟨2, ![800000, 64]⟩
abbrev S500x1 : Shape := ⟨2, ![500, 1]⟩
abbrev S500x64 : Shape := ⟨2, ![500, 64]⟩
abbrev S64x1 : Shape := ⟨2, ![64, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S500, .i32⟩
  | .hbm, ⟨4, _⟩ => ⟨S64x128, .f32⟩
  | .hbm, ⟨5, _⟩ => ⟨S64x128, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S128x64, .f32⟩
  | .hbm, ⟨42, _⟩ => ⟨S50000x64, .f32⟩
  | .hbm, ⟨43, _⟩ => ⟨S128x64, .f32⟩
  | .hbm, ⟨44, _⟩ => ⟨S50000x64, .f32⟩
  | .hbm, ⟨45, _⟩ => ⟨S50000x64, .f32⟩
  | .hbm, ⟨46, _⟩ => ⟨S1x64, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x64, .f32⟩
  | .hbm, ⟨76, _⟩ => ⟨S50000x64, .f32⟩
  | .hbm, ⟨77, _⟩ => ⟨S64x64, .f32⟩
  | .hbm, ⟨78, _⟩ => ⟨S50000x64, .f32⟩
  | .hbm, ⟨79, _⟩ => ⟨S64x64, .f32⟩
  | .hbm, ⟨80, _⟩ => ⟨S50000x64, .f32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S50000x64, .f32⟩
  | .hbm, ⟨87, _⟩ => ⟨S50000x64, .f32⟩
  | .hbm, ⟨88, _⟩ => ⟨S_, .i32⟩
  | .hbm, ⟨89, _⟩ => ⟨S500, .i32⟩
  | .hbm, ⟨90, _⟩ => ⟨S_, .i32⟩
  | .hbm, ⟨91, _⟩ => ⟨S_, .i32⟩
  | .hbm, ⟨92, _⟩ => ⟨S50000, .i32⟩
  | .hbm, ⟨93, _⟩ => ⟨S50000, .i32⟩
  | .hbm, ⟨94, _⟩ => ⟨S_, .i32⟩
  | .hbm, ⟨95, _⟩ => ⟨S50000, .i32⟩
  | .hbm, ⟨96, _⟩ => ⟨S50000, .i1⟩
  | .hbm, ⟨97, _⟩ => ⟨S_, .i32⟩
  | .hbm, ⟨98, _⟩ => ⟨S50000, .i32⟩
  | .hbm, ⟨99, _⟩ => ⟨S50000, .i32⟩
  | .hbm, ⟨100, _⟩ => ⟨S50000, .i32⟩
  | .hbm, ⟨101, _⟩ => ⟨S50000x1, .i32⟩
  | .hbm, ⟨102, _⟩ => ⟨S_, .i32⟩
  | .hbm, ⟨103, _⟩ => ⟨S50000, .i32⟩
  | .hbm, ⟨104, _⟩ => ⟨S500, .i32⟩
  | .hbm, ⟨105, _⟩ => ⟨S_, .i32⟩
  | .hbm, ⟨106, _⟩ => ⟨S_, .i32⟩
  | .hbm, ⟨107, _⟩ => ⟨S500, .i32⟩
  | .hbm, ⟨108, _⟩ => ⟨S500, .i32⟩
  | .hbm, ⟨109, _⟩ => ⟨S500, .i32⟩
  | .hbm, ⟨110, _⟩ => ⟨S_, .i32⟩
  | .hbm, ⟨111, _⟩ => ⟨S500, .i32⟩
  | .hbm, ⟨112, _⟩ => ⟨S500, .i1⟩
  | .hbm, ⟨113, _⟩ => ⟨S_, .i32⟩
  | .hbm, ⟨114, _⟩ => ⟨S500, .i32⟩
  | .hbm, ⟨115, _⟩ => ⟨S500, .i32⟩
  | .hbm, ⟨116, _⟩ => ⟨S500, .i32⟩
  | .hbm, ⟨117, _⟩ => ⟨S500x1, .i32⟩
  | .hbm, ⟨118, _⟩ => ⟨S500x64, .f32⟩
  | .hbm, ⟨119, _⟩ => ⟨S64x1, .f32⟩
  | .hbm, ⟨120, _⟩ => ⟨S500x1, .f32⟩
  | .hbm, ⟨121, _⟩ => ⟨S1x1, .f32⟩
  | .hbm, ⟨122, _⟩ => ⟨S500x1, .f32⟩
  | .hbm, ⟨123, _⟩ => ⟨S500x1, .f32⟩
  | .hbm, ⟨124, _⟩ => ⟨S500, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_c_11 : Ref sig .tc := ⟨.hbm, 90, rfl⟩
abbrev main_call2_v0 : Ref sig .tc := ⟨.hbm, 91, rfl⟩
abbrev main_call2_v1 : Ref sig .tc := ⟨.hbm, 92, rfl⟩
abbrev main_v61 : Ref sig .tc := ⟨.hbm, 93, rfl⟩
abbrev main_c_12 : Ref sig .tc := ⟨.hbm, 94, rfl⟩
abbrev main_v62 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_call3_call0_c : Ref sig .tc := ⟨.hbm, 105, rfl⟩
abbrev main_call3_call0_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_15 : Ref sig .tc := ⟨.hbm, 110, rfl⟩
abbrev main_v73 : Ref sig .tc := ⟨.hbm, 111, rfl⟩
abbrev main_v74 : Ref sig .tc := ⟨.hbm, 112, rfl⟩
abbrev main_c_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S64x64_S64x64_1_0 : S64x64.Transposes [1, 0] S64x64
  bcast_S_S500 : S_.BroadcastsInDim S500 (![] : Fin 0 → Fin S500.rank)
  bcast_S_S_ : S_.BroadcastsInDim S_ (![] : Fin 0 → Fin S_.rank)
  reduceWindows_S500_S500_w500s1p499_0 : S500.ReduceWindows (![500] : Fin 1 → Nat) ![1] ![499] ![0] S500
  h_S_ : 0 < S_.numel
  bcast_S500_S500x1_0 : S500.BroadcastsInDim S500x1 (![0] : Fin 1 → Fin S500x1.rank)
  transposes_S1x64_S64x1_1_0 : S1x64.Transposes [1, 0] S64x1
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  shapeCasts_S500x1_S500 : S500x1.ShapeCasts S500
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S500_S50000x1_S50000_n_0_0_1_wf : ScatterDims.WF S500 S50000x1 S50000 [] [0] [0] 1
  gather_S50000x64_S500x1_S500x64_1_0_n_n_0_1_164_wf : GatherDims.WF S50000x64 S500x1 S500x64 [1] [0] [] [0] [] 1 ![1, 64]
  dot_S500x64_S64x1_S500x1_1_0_0_1_n_n_wf : DotDims.WF S500x64 S64x1 S500x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x64_S500x1_S500x64_1_0_n_n_0_1_164 : GatherDims S50000x64 S500x1 S500x64 where
  offsetDims := [1]
  collapsedSliceDims := [0]
  operandBatchingDims := []
  startIndicesBatchingDims := []
  startIndexMap := [0]
  indexVectorDim := 1
  sliceSizes := ![1, 64]
  wf := gather_S50000x64_S500x1_S500x64_1_0_n_n_0_1_164_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

class Facts : Prop extends Facts₀ where

variable [Facts]
-- ==== Proof.KernelRun.lean ====
/-
  The idealized kernel program's run with its result named.

  The program is three pipelined regions among stretches of host operations.  Every weakly fair execution from
  any launch memory terminates without a fault, the twelve argument arrays end as launched, and the result
  buffer ends at the contents the last segment boundary assigns to it: the fold of the host stretches and of the
  three regions' write-backs over the launch memory (`Gen.W11`).  The later modules read that fold as a function
  of the arguments.
-/
import proofs.«145191_j28020366639688_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer holds the last boundary's contents and the
    arguments are unchanged. -/
theorem run_main : θ_run defs (onTc (τ := τ) (main (F := F))) ⟨m, fun _ => 0, ρ⟩ (fun r => ∀ c : Dev nD,
      r.2.mem ((c.tc : Thread nD τ).loc main_v73) = W11 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v73 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.Run

end
-- ==== Proof.RefRun.lean ====
/-
  The reference program's @main as the list of its host operations, and its run read back.

  @main is a straight line of 113 StableHLO operations: its own, and, at the place of each of its four calls
  (@relu twice, @clip, @cumsum, which itself calls @cumsum_0), the three operations of the callee's body over the
  buffers of that call's record: a call means the callee's body run on the operands. The list is cut in three
  consecutive stretches: 'opsL1' up to and including the first @relu (its result main_v31), 'opsL2' up to and
  including the second @relu (its result main_v59), 'opsT' the rest (its result main_v85); 'ops' is their
  concatenation in that order, so the contents after 'ops' are those after 'opsT' of those after 'opsL2' of those
  after 'opsL1' ('after_ops').

  'main_eq': @main is the sequence of these operations, the functions' bodies unfolded at their calls and the
  sequencing re-associated. 'run_main': from any memory with zero counters every weakly fair execution terminates,
  and each buffer ends at the fold of the operations' results over the launch contents. Each operation writes
  exactly one buffer, a value of @main or of one of its calls ('written' lists them in order); no argument of @main
  is among them, so the fold leaves every argument as it was ('arg0_eq' ... 'arg11_eq'), and the arguments end
  unchanged ('frame'). Nothing here looks inside an operation's function: every fact is about which buffers the
  operations name.
-/
import proofs.«145191_j28020366639688_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The first 40 operations: the first graph-convolution layer, up to and including the first @relu (main_v31). -/
abbrev opsL1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    StableHlo.unary main_arg4 main_v23 ((transpose S128x64 [1, 0] · transposes_S64x128_S128x64_1_0) : (⟨S64x128, .f32⟩ : BufTy).Contents (Elt F) → (⟨S128x64, .f32⟩ : BufTy).Contents (Elt F)),
    StableHlo.binary main_v22 main_v23 main_v24 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v25 ((transpose S128x64 [1, 0] · transposes_S64x128_S128x64_1_0) : (⟨S64x128, .f32⟩ : BufTy).Contents (Elt F) → (⟨S128x64, .f32⟩ : BufTy).Contents (Elt F)),
    StableHlo.binary main_arg0 main_v25 main_v26 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v24 main_v26 main_v27 (addf : (⟨S50000x64, .f32⟩ : BufTy).Contents (Elt F) → (⟨S50000x64, .f32⟩ : BufTy).Contents (Elt F) → (⟨S50000x64, .f32⟩ : BufTy).Contents (Elt F)),
    StableHlo.unary main_arg6 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S50000x64 ![0, 1] bcast_S1x64_S50000x64_0_1 : (⟨S1x64, .f32⟩ : BufTy).Contents (Elt F) → (⟨S50000x64, .f32⟩ : BufTy).Contents (Elt F)),
    StableHlo.binary main_v27 main_v29 main_v30 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v30 : StableHlo.TRef sig ⟨S50000x64, .f32⟩) main_call0.v0 main_call0.v1 maximumf ]

/-- The next 36: the second layer, up to and including the second @relu (main_v59). -/
abbrev opsL2 : List (HloOp τ sig (Elt F)) :=
  [ StableHlo.nullary main_c_4 (constantI S_ 32 0#32),
    StableHlo.unary main_c_4 main_v32 (broadcastInDim S800000 ![] bcast_S_S800000 : (⟨S_, .i32⟩ : BufTy).Contents (Elt F) → (⟨S800000, .i32⟩ : BufTy).Contents (Elt F)),
    StableHlo.binary main_v1 main_v32 main_v33 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v34 (broadcastInDim S800000 ![] bcast_S_S800000 : (⟨S_, .i32⟩ : BufTy).Contents (Elt F) → (⟨S800000, .i32⟩ : BufTy).Contents (Elt F)),
    StableHlo.binary main_v1 main_v34 main_v35 (addi : (⟨S800000, .i32⟩ : BufTy).Contents (Elt F) → (⟨S800000, .i32⟩ : BufTy).Contents (Elt F) → (⟨S800000, .i32⟩ : BufTy).Contents (Elt F)),
    StableHlo.ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v36 main_v37 (broadcastInDim S800000x1 ![0] bcast_S800000_S800000x1_0 : (⟨S800000, .i32⟩ : BufTy).Contents (Elt F) → (⟨S800000x1, .i32⟩ : BufTy).Contents (Elt F)),
    StableHlo.binary main_v31 main_v37 main_v38 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_6 (constant S_ .f32 0x00000000#32),
    StableHlo.unary main_cst_6 main_v39 (broadcastInDim S50000x64 ![] bcast_S_S50000x64 : (⟨S_, .f32⟩ : BufTy).Contents (Elt F) → (⟨S50000x64, .f32⟩ : BufTy).Contents (Elt F)),
    StableHlo.unary main_v3 main_v40 (broadcastInDim S800000x1 ![0] bcast_S800000_S800000x1_0 : (⟨S800000, .i32⟩ : BufTy).Contents (Elt F) → (⟨S800000x1, .i32⟩ : BufTy).Contents (Elt F)),
    StableHlo.ternary main_v39 main_v40 main_v38 main_v41 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_7 (constant S_ .f32 0x3F800000#32),
    StableHlo.unary main_cst_7 main_v42 (broadcastInDim S800000 ![] bcast_S_S800000 : (⟨S_, .f32⟩ : BufTy).Contents (Elt F) → (⟨S800000, .f32⟩ : BufTy).Contents (Elt F)),
    StableHlo.nullary main_cst_8 (constant S_ .f32 0x00000000#32),
    StableHlo.unary main_cst_8 main_v43 (broadcastInDim S50000 ![] bcast_S_S50000 : (⟨S_, .f32⟩ : BufTy).Contents (Elt F) → (⟨S50000, .f32⟩ : BufTy).Contents (Elt F)),
    StableHlo.unary main_v3 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_9 (constant S_ .f32 0x3F800000#32),
    StableHlo.unary main_cst_9 main_v46 (broadcastInDim S50000 ![] bcast_S_S50000 : (⟨S_, .f32⟩ : BufTy).Contents (Elt F) → (⟨S50000, .f32⟩ : BufTy).Contents (Elt F)),
    StableHlo.binary main_v45 main_v46 main_v47 (maximumf : (⟨S50000, .f32⟩ : BufTy).Contents (Elt F) → (⟨S50000, .f32⟩ : BufTy).Contents (Elt F) → (⟨S50000, .f32⟩ : BufTy).Contents (Elt F)),
    StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.unary main_v48 main_v49 (broadcastInDim S50000x64 ![0, 1] bcast_S50000x1_S50000x64_0_1 : (⟨S50000x1, .f32⟩ : BufTy).Contents (Elt F) → (⟨S50000x64, .f32⟩ : BufTy).Contents (Elt F)),
    StableHlo.binary main_v41 main_v49 main_v50 (Host.divf : (⟨S50000x64, .f32⟩ : BufTy).Contents (Elt F) → (⟨S50000x64, .f32⟩ : BufTy).Contents (Elt F) → (⟨S50000x64, .f32⟩ : BufTy).Contents (Elt F)),
    StableHlo.unary main_arg7 main_v51 ((transpose S64x64 [1, 0] · transposes_S64x64_S64x64_1_0) : (⟨S64x64, .f32⟩ : BufTy).Contents (Elt F) → (⟨S64x64, .f32⟩ : BufTy).Contents (Elt F)),
    StableHlo.binary main_v50 main_v51 main_v52 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v53 ((transpose S64x64 [1, 0] · transposes_S64x64_S64x64_1_0) : (⟨S64x64, .f32⟩ : BufTy).Contents (Elt F) → (⟨S64x64, .f32⟩ : BufTy).Contents (Elt F)),
    StableHlo.binary main_v31 main_v53 main_v54 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.binary main_v52 main_v54 main_v55 (addf : (⟨S50000x64, .f32⟩ : BufTy).Contents (Elt F) → (⟨S50000x64, .f32⟩ : BufTy).Contents (Elt F) → (⟨S50000x64, .f32⟩ : BufTy).Contents (Elt F)),
    StableHlo.unary main_arg9 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S50000x64 ![0, 1] bcast_S1x64_S50000x64_0_1 : (⟨S1x64, .f32⟩ : BufTy).Contents (Elt F) → (⟨S50000x64, .f32⟩ : BufTy).Contents (Elt F)),
    StableHlo.binary main_v55 main_v57 main_v58 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v58 : StableHlo.TRef sig ⟨S50000x64, .f32⟩) main_call1.v0 main_call1.v1 maximumf ]

/-- The last 37: the row table from the segment ids (@clip, the scatter of ones, @cumsum), the gather of those
    rows of main_v59 and the final product (main_v85). -/
abbrev opsT : List (HloOp τ sig (Elt F)) :=
  [ StableHlo.nullary main_c_10 (constantI S_ 32 0#32),
    StableHlo.unary main_c_10 main_v60 (broadcastInDim S500 ![] bcast_S_S500 : (⟨S_, .i32⟩ : BufTy).Contents (Elt F) → (⟨S500, .i32⟩ : BufTy).Contents (Elt F)),
    StableHlo.nullary main_c_11 (constantI S_ 32 0#32),
    StableHlo.TRef.unary (.of main_c_11 : StableHlo.TRef sig ⟨S_, .i32⟩) main_call2.v0 id,
    StableHlo.TRef.unary main_call2.v0 main_call2.v1 (broadcastInDim S50000 ![] bcast_S_S50000),
    StableHlo.TRef.binary main_call2.v1 (.of main_arg2 : StableHlo.TRef sig ⟨S50000, .i32⟩) main_call2.v2 maxsi,
    StableHlo.nullary main_c_12 (constantI S_ 32 0#32),
    StableHlo.unary main_c_12 main_v62 (broadcastInDim S50000 ![] bcast_S_S50000 : (⟨S_, .i32⟩ : BufTy).Contents (Elt F) → (⟨S50000, .i32⟩ : BufTy).Contents (Elt F)),
    StableHlo.binary main_v61 main_v62 main_v63 (cmpi .slt : (⟨S50000, .i32⟩ : BufTy).Contents (Elt F) → (⟨S50000, .i32⟩ : BufTy).Contents (Elt F) → (⟨S50000, .i1⟩ : BufTy).Contents (Elt F)),
    StableHlo.nullary main_c_13 (constantI S_ 32 500#32),
    StableHlo.unary main_c_13 main_v64 (broadcastInDim S50000 ![] bcast_S_S50000 : (⟨S_, .i32⟩ : BufTy).Contents (Elt F) → (⟨S50000, .i32⟩ : BufTy).Contents (Elt F)),
    StableHlo.binary main_v61 main_v64 main_v65 (addi : (⟨S50000, .i32⟩ : BufTy).Contents (Elt F) → (⟨S50000, .i32⟩ : BufTy).Contents (Elt F) → (⟨S50000, .i32⟩ : BufTy).Contents (Elt F)),
    StableHlo.ternary main_v63 main_v65 main_v61 main_v66 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v66 main_v67 (broadcastInDim S50000x1 ![0] bcast_S50000_S50000x1_0 : (⟨S50000, .i32⟩ : BufTy).Contents (Elt F) → (⟨S50000x1, .i32⟩ : BufTy).Contents (Elt F)),
    StableHlo.nullary main_c_14 (constantI S_ 32 1#32),
    StableHlo.unary main_c_14 main_v68 (broadcastInDim S50000 ![] bcast_S_S50000 : (⟨S_, .i32⟩ : BufTy).Contents (Elt F) → (⟨S50000, .i32⟩ : BufTy).Contents (Elt F)),
    StableHlo.ternary main_v60 main_v67 main_v68 main_v69 ((fun x i u => Host.scatter scatter_S500_S50000x1_S50000_n_0_0_1 IntOp.addi x i u) : (⟨S500, .i32⟩ : BufTy).Contents (Elt F) → (⟨S50000x1, .i32⟩ : BufTy).Contents (Elt F) → (⟨S50000, .i32⟩ : BufTy).Contents (Elt F) → (⟨S500, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v69 : StableHlo.TRef sig ⟨S500, .i32⟩) main_call3.call0.v0 main_call3.call0.v1 (fun x v => Host.reduceWindow IntOp.addi ![500] ![1] ![499] ![0] x v reduceWindows_S500_S500_w500s1p499_0 h_S_),
    StableHlo.binary main_v70 main_v69 main_v71 (subi : (⟨S500, .i32⟩ : BufTy).Contents (Elt F) → (⟨S500, .i32⟩ : BufTy).Contents (Elt F) → (⟨S500, .i32⟩ : BufTy).Contents (Elt F)),
    StableHlo.binary main_v71 main_arg3 main_v72 (addi : (⟨S500, .i32⟩ : BufTy).Contents (Elt F) → (⟨S500, .i32⟩ : BufTy).Contents (Elt F) → (⟨S500, .i32⟩ : BufTy).Contents (Elt F)),
    StableHlo.nullary main_c_15 (constantI S_ 32 0#32),
    StableHlo.unary main_c_15 main_v73 (broadcastInDim S500 ![] bcast_S_S500 : (⟨S_, .i32⟩ : BufTy).Contents (Elt F) → (⟨S500, .i32⟩ : BufTy).Contents (Elt F)),
    StableHlo.binary main_v72 main_v73 main_v74 (cmpi .slt : (⟨S500, .i32⟩ : BufTy).Contents (Elt F) → (⟨S500, .i32⟩ : BufTy).Contents (Elt F) → (⟨S500, .i1⟩ : BufTy).Contents (Elt F)),
    StableHlo.nullary main_c_16 (constantI S_ 32 50000#32),
    StableHlo.unary main_c_16 main_v75 (broadcastInDim S500 ![] bcast_S_S500 : (⟨S_, .i32⟩ : BufTy).Contents (Elt F) → (⟨S500, .i32⟩ : BufTy).Contents (Elt F)),
    StableHlo.binary main_v72 main_v75 main_v76 (addi : (⟨S500, .i32⟩ : BufTy).Contents (Elt F) → (⟨S500, .i32⟩ : BufTy).Contents (Elt F) → (⟨S500, .i32⟩ : BufTy).Contents (Elt F)),
    StableHlo.ternary main_v74 main_v76 main_v72 main_v77 (select : (⟨S500, .i1⟩ : BufTy).Contents (Elt F) → (⟨S500, .i32⟩ : BufTy).Contents (Elt F) → (⟨S500, .i32⟩ : BufTy).Contents (Elt F) → (⟨S500, .i32⟩ : BufTy).Contents (Elt F)),
    StableHlo.unary main_v77 main_v78 (broadcastInDim S500x1 ![0] bcast_S500_S500x1_0 : (⟨S500, .i32⟩ : BufTy).Contents (Elt F) → (⟨S500x1, .i32⟩ : BufTy).Contents (Elt F)),
    StableHlo.binary main_v59 main_v78 main_v79 ((fun x i => Host.gather gather_S50000x64_S500x1_S500x64_1_0_n_n_0_1_164 x i) : (⟨S50000x64, .f32⟩ : BufTy).Contents (Elt F) → (⟨S500x1, .i32⟩ : BufTy).Contents (Elt F) → (⟨S500x64, .f32⟩ : BufTy).Contents (Elt F)),
    StableHlo.unary main_arg10 main_v80 ((transpose S64x1 [1, 0] · transposes_S1x64_S64x1_1_0) : (⟨S1x64, .f32⟩ : BufTy).Contents (Elt F) → (⟨S64x1, .f32⟩ : BufTy).Contents (Elt F)),
    StableHlo.binary main_v79 main_v80 main_v81 ((fun l r => Host.dotGeneral dot_S500x64_S64x1_S500x1_1_0_0_1_n_n none l r) : (⟨S500x64, .f32⟩ : BufTy).Contents (Elt F) → (⟨S64x1, .f32⟩ : BufTy).Contents (Elt F) → (⟨S500x1, .f32⟩ : BufTy).Contents (Elt F)),
    StableHlo.unary main_arg11 main_v82 (broadcastInDim S1x1 ![1] bcast_S1_S1x1_1 : (⟨S1, .f32⟩ : BufTy).Contents (Elt F) → (⟨S1x1, .f32⟩ : BufTy).Contents (Elt F)),
    StableHlo.unary main_v82 main_v83 (broadcastInDim S500x1 ![0, 1] bcast_S1x1_S500x1_0_1 : (⟨S1x1, .f32⟩ : BufTy).Contents (Elt F) → (⟨S500x1, .f32⟩ : BufTy).Contents (Elt F)),
    StableHlo.binary main_v81 main_v83 main_v84 (addf : (⟨S500x1, .f32⟩ : BufTy).Contents (Elt F) → (⟨S500x1, .f32⟩ : BufTy).Contents (Elt F) → (⟨S500x1, .f32⟩ : BufTy).Contents (Elt F)),
    StableHlo.reshape main_v84 main_v85 rfl shapeCasts_S500x1_S500 ]

/-- @main's 113 operations, in order. -/
abbrev ops : List (HloOp τ sig (Elt F)) := opsL1 ++ opsL2 ++ opsT

/-- The contents after all the operations: those after the last stretch, of those after the second, of those after
    the first. -/
theorem after_ops (V : Valuation τ sig (Elt F)) : after ops V = after opsT (after opsL2 (after opsL1 V)) := by
  show after ((opsL1 ++ opsL2) ++ opsT) V = _
  rw [after_append, after_append]

/-! ## @main is that straight line -/

set_option maxRecDepth 8192 in
set_option maxHeartbeats 2000000 in
/-- The sequence of 'ops' is the three stretches' sequences one after the other ('seq_append', twice). Then both sides
    are unfolded to one chain of single operations — on the left the two windows and the four functions' bodies at
    their calls, on the right the three lists — and the binds re-associated to the right: the two chains are the same,
    operation by operation. The chain is long (113 binds over printed operations), hence the two bounds. -/
theorem main_eq (c : Dev nD) : main (F := F) c = seq ops := by
  show main (F := F) c = seq ((opsL1 ++ opsL2) ++ opsT)
  rw [seq_append, seq_append]
  simp only [main, main_part0, main_part1, fn_relu.body, fn_clip.body, fn_cumsum.body, fn_cumsum_0.body, opsL1, opsL2, opsT,
    seq, bind_assoc, pure_bind]

/-! ## The side conditions of the run -/

/-- The signature scopes no buffer and no semaphore: every buffer is a tensor value. -/
theorem scopedRefs_eq : (Finset.univ.filter fun b : Ref sig .tc => b.isScoped) = ∅ := by decide
theorem scopedSems_eq : (Finset.univ.filter fun sm : SemLoc sig => sm.isScoped .tc) = ∅ := by decide

/-- Every operation names TensorCore references only. -/
theorem opsL1_sub : (opsL1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub ..⟩
theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub ..⟩
theorem opsT_sub : (opsT : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., reshape_bufs_sub ..⟩
theorem ops_sub : (ops : List (HloOp τ sig (Elt F))).Forall fun op => op.bufs ⊆ tcRefs τ sig :=
  List.forall_append.mpr ⟨List.forall_append.mpr ⟨opsL1_sub, opsL2_sub⟩, opsT_sub⟩

/-- Every operation determines what it writes. -/
theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsT_fresh : (opsT : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh : ∀ op ∈ (ops : List (HloOp τ sig (Elt F))), op.fresh = ∅ :=
  List.forall_iff_forall_mem.mp (List.forall_append.mpr ⟨List.forall_append.mpr ⟨opsL1_fresh, opsL2_fresh⟩, opsT_fresh⟩)

/-! ## The run -/

/-- At the compiled mesh, for any float values, from any memory with zero counters: every weakly fair execution of
    @main terminates, and every final state has each TensorCore buffer at the fold of the operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The arguments are not written -/

/-- The buffer each operation writes, in the operations' order. -/
abbrev writtenL1 : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_v29, main_v30, main_call0.cst.ref, main_call0.v0.ref, main_call0.v1.ref]
abbrev writtenL2 : List (Ref sig .tc) :=
  [main_c_4, main_v32, main_v33, main_c_5, main_v34, main_v35, main_v36, main_v37, main_v38, main_cst_6, main_v39, main_v40, main_v41, main_cst_7, main_v42, main_cst_8, main_v43, main_v44, main_v45, main_cst_9, main_v46, main_v47, main_v48, main_v49, main_v50, main_v51, main_v52, main_v53, main_v54, main_v55, main_v56, main_v57, main_v58, main_call1.cst.ref, main_call1.v0.ref, main_call1.v1.ref]
abbrev writtenT : List (Ref sig .tc) :=
  [main_c_10, main_v60, main_c_11, main_call2.v0.ref, main_call2.v1.ref, main_call2.v2.ref, main_c_12, main_v62, main_v63, main_c_13, main_v64, main_v65, main_v66, main_v67, main_c_14, main_v68, main_v69, main_call3.call0.c.ref, main_call3.call0.v0.ref, main_call3.call0.v1.ref, main_v71, main_v72, main_c_15, main_v73, main_v74, main_c_16, main_v75, main_v76, main_v77, main_v78, main_v79, main_v80, main_v81, main_v82, main_v83, main_v84, main_v85]
abbrev written : List (Ref sig .tc) := writtenL1 ++ writtenL2 ++ writtenT

/-- A single buffer of the list is inside the list's set of device buffers. -/
theorem writes_sub (y : Ref sig .tc) (hy : y ∈ written) :
    ({Proc.devRef (τ := τ) .tc y} : Finset (DevRef τ sig)) ⊆ (written.map (Proc.devRef (τ := τ) .tc)).toFinset :=
  Finset.singleton_subset_iff.mpr (List.mem_toFinset.mpr (List.mem_map_of_mem hy))

/-- Each operation writes only its own entry of 'written'. -/
theorem opsL1_writes : (opsL1 : List (HloOp τ sig (Elt F))).Forall fun op => op.writes ⊆ (written.map (Proc.devRef (τ := τ) .tc)).toFinset :=
  ⟨writes_sub main_v0 (by decide), writes_sub main_v1 (by decide), writes_sub main_v2 (by decide), writes_sub main_v3 (by decide), writes_sub main_c (by decide), writes_sub main_v4 (by decide), writes_sub main_v5 (by decide), writes_sub main_c_0 (by decide), writes_sub main_v6 (by decide), writes_sub main_v7 (by decide), writes_sub main_v8 (by decide), writes_sub main_v9 (by decide), writes_sub main_v10 (by decide), writes_sub main_cst (by decide), writes_sub main_v11 (by decide), writes_sub main_v12 (by decide), writes_sub main_v13 (by decide), writes_sub main_cst_1 (by decide), writes_sub main_v14 (by decide), writes_sub main_cst_2 (by decide), writes_sub main_v15 (by decide), writes_sub main_v16 (by decide), writes_sub main_v17 (by decide), writes_sub main_cst_3 (by decide), writes_sub main_v18 (by decide), writes_sub main_v19 (by decide), writes_sub main_v20 (by decide), writes_sub main_v21 (by decide), writes_sub main_v22 (by decide), writes_sub main_v23 (by decide), writes_sub main_v24 (by decide), writes_sub main_v25 (by decide), writes_sub main_v26 (by decide), writes_sub main_v27 (by decide), writes_sub main_v28 (by decide), writes_sub main_v29 (by decide), writes_sub main_v30 (by decide), writes_sub main_call0.cst.ref (by decide), writes_sub main_call0.v0.ref (by decide), writes_sub main_call0.v1.ref (by decide)⟩
theorem opsL2_writes : (opsL2 : List (HloOp τ sig (Elt F))).Forall fun op => op.writes ⊆ (written.map (Proc.devRef (τ := τ) .tc)).toFinset :=
  ⟨writes_sub main_c_4 (by decide), writes_sub main_v32 (by decide), writes_sub main_v33 (by decide), writes_sub main_c_5 (by decide), writes_sub main_v34 (by decide), writes_sub main_v35 (by decide), writes_sub main_v36 (by decide), writes_sub main_v37 (by decide), writes_sub main_v38 (by decide), writes_sub main_cst_6 (by decide), writes_sub main_v39 (by decide), writes_sub main_v40 (by decide), writes_sub main_v41 (by decide), writes_sub main_cst_7 (by decide), writes_sub main_v42 (by decide), writes_sub main_cst_8 (by decide), writes_sub main_v43 (by decide), writes_sub main_v44 (by decide), writes_sub main_v45 (by decide), writes_sub main_cst_9 (by decide), writes_sub main_v46 (by decide), writes_sub main_v47 (by decide), writes_sub main_v48 (by decide), writes_sub main_v49 (by decide), writes_sub main_v50 (by decide), writes_sub main_v51 (by decide), writes_sub main_v52 (by decide), writes_sub main_v53 (by decide), writes_sub main_v54 (by decide), writes_sub main_v55 (by decide), writes_sub main_v56 (by decide), writes_sub main_v57 (by decide), writes_sub main_v58 (by decide), writes_sub main_call1.cst.ref (by decide), writes_sub main_call1.v0.ref (by decide), writes_sub main_call1.v1.ref (by decide)⟩
theorem opsT_writes : (opsT : List (HloOp τ sig (Elt F))).Forall fun op => op.writes ⊆ (written.map (Proc.devRef (τ := τ) .tc)).toFinset :=
  ⟨writes_sub main_c_10 (by decide), writes_sub main_v60 (by decide), writes_sub main_c_11 (by decide), writes_sub main_call2.v0.ref (by decide), writes_sub main_call2.v1.ref (by decide), writes_sub main_call2.v2.ref (by decide), writes_sub main_c_12 (by decide), writes_sub main_v62 (by decide), writes_sub main_v63 (by decide), writes_sub main_c_13 (by decide), writes_sub main_v64 (by decide), writes_sub main_v65 (by decide), writes_sub main_v66 (by decide), writes_sub main_v67 (by decide), writes_sub main_c_14 (by decide), writes_sub main_v68 (by decide), writes_sub main_v69 (by decide), writes_sub main_call3.call0.c.ref (by decide), writes_sub main_call3.call0.v0.ref (by decide), writes_sub main_call3.call0.v1.ref (by decide), writes_sub main_v71 (by decide), writes_sub main_v72 (by decide), writes_sub main_c_15 (by decide), writes_sub main_v73 (by decide), writes_sub main_v74 (by decide), writes_sub main_c_16 (by decide), writes_sub main_v75 (by decide), writes_sub main_v76 (by decide), writes_sub main_v77 (by decide), writes_sub main_v78 (by decide), writes_sub main_v79 (by decide), writes_sub main_v80 (by decide), writes_sub main_v81 (by decide), writes_sub main_v82 (by decide), writes_sub main_v83 (by decide), writes_sub main_v84 (by decide), writes_sub main_v85 (by decide)⟩
theorem ops_writes : (ops : List (HloOp τ sig (Elt F))).Forall fun op => op.writes ⊆ (written.map (Proc.devRef (τ := τ) .tc)).toFinset :=
  List.forall_append.mpr ⟨List.forall_append.mpr ⟨opsL1_writes, opsL2_writes⟩, opsT_writes⟩

/-- No argument of @main is among the written buffers, so the fold of the operations leaves it as it was. -/
theorem arg0_eq (V : Valuation τ sig (Elt F)) : after ops V (main_arg0 : DevRef τ sig) = V (main_arg0 : DevRef τ sig) :=
  after_of_writes_sub ops V ops_writes (by decide)
theorem arg1_eq (V : Valuation τ sig (Elt F)) : after ops V (main_arg1 : DevRef τ sig) = V (main_arg1 : DevRef τ sig) :=
  after_of_writes_sub ops V ops_writes (by decide)
theorem arg2_eq (V : Valuation τ sig (Elt F)) : after ops V (main_arg2 : DevRef τ sig) = V (main_arg2 : DevRef τ sig) :=
  after_of_writes_sub ops V ops_writes (by decide)
theorem arg3_eq (V : Valuation τ sig (Elt F)) : after ops V (main_arg3 : DevRef τ sig) = V (main_arg3 : DevRef τ sig) :=
  after_of_writes_sub ops V ops_writes (by decide)
theorem arg4_eq (V : Valuation τ sig (Elt F)) : after ops V (main_arg4 : DevRef τ sig) = V (main_arg4 : DevRef τ sig) :=
  after_of_writes_sub ops V ops_writes (by decide)
theorem arg5_eq (V : Valuation τ sig (Elt F)) : after ops V (main_arg5 : DevRef τ sig) = V (main_arg5 : DevRef τ sig) :=
  after_of_writes_sub ops V ops_writes (by decide)
theorem arg6_eq (V : Valuation τ sig (Elt F)) : after ops V (main_arg6 : DevRef τ sig) = V (main_arg6 : DevRef τ sig) :=
  after_of_writes_sub ops V ops_writes (by decide)
theorem arg7_eq (V : Valuation τ sig (Elt F)) : after ops V (main_arg7 : DevRef τ sig) = V (main_arg7 : DevRef τ sig) :=
  after_of_writes_sub ops V ops_writes (by decide)
theorem arg8_eq (V : Valuation τ sig (Elt F)) : after ops V (main_arg8 : DevRef τ sig) = V (main_arg8 : DevRef τ sig) :=
  after_of_writes_sub ops V ops_writes (by decide)
theorem arg9_eq (V : Valuation τ sig (Elt F)) : after ops V (main_arg9 : DevRef τ sig) = V (main_arg9 : DevRef τ sig) :=
  after_of_writes_sub ops V ops_writes (by decide)
theorem arg10_eq (V : Valuation τ sig (Elt F)) : after ops V (main_arg10 : DevRef τ sig) = V (main_arg10 : DevRef τ sig) :=
  after_of_writes_sub ops V ops_writes (by decide)
theorem arg11_eq (V : Valuation τ sig (Elt F)) : after ops V (main_arg11 : DevRef τ sig) = V (main_arg11 : DevRef τ sig) :=
  after_of_writes_sub ops V ops_writes (by decide)

/-! ## The frame -/

/-- @main runs (every weakly fair execution terminates, nothing faulting) and its twelve argument arrays end as the
    launch memory had them: each ends at the fold of the operations at its buffer, which is its launch contents. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _), (h c main_arg7).trans (arg7_eq _),
      (h c main_arg8).trans (arg8_eq _), (h c main_arg9).trans (arg9_eq _), (h c main_arg10).trans (arg10_eq _),
      (h c main_arg11).trans (arg11_eq _)⟩)
    (run_main m ρ)

end Cert.ReferenceIdeal.RefRun

end
-- ==== Proof.LibFiniteArrays.lean ====
/-
  Arrays all of whose entries are finite.  A program states "every entry of `x` is finite" as: the absolute
  value of every entry is below plus infinity, all these comparisons reduced by "and" into one bit that is 1.
  On the extended reals, `|x| < +∞` excludes both infinities, so such an array is the entrywise coercion of an
  array of real numbers.
-/
import Idealize.ShloMosaic.Lib.ReduceAll
import Idealize.ShloMosaic.Lib.ValueIdx
import Idealize.ShloMosaic.PureOps.Ideal

noncomputable section

namespace Cert.FiniteArrays

open Idealize.ShloMosaic

/-- The scalar shape has one index. -/
instance : Subsingleton (⟨0, ![]⟩ : Shape).Idx := ⟨fun a b => funext fun d => d.elim0⟩

/-- The pattern of plus infinity denotes the top of the extended reals. -/
theorem pos_inf : Ideal.ofBits .f32 0x7F800000#32 = (⊤ : EReal) := by
  simp [Ideal.ofBits, Ideal.ieee]

/-- An extended real whose absolute value compares below plus infinity is a real number. -/
theorem real_of_abs_lt_top (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (⊤ : EReal) = 1#1 := by rw [← pos_inf]; exact h
  induction x using EReal.rec with
  | bot => simp [Ideal.cmp] at h'
  | coe r => exact ⟨r, rfl⟩
  | top => simp [Ideal.cmp] at h'

/-- An array whose finiteness test — every `|x i| < +∞`, reduced by "and" from 1 into one bit — answers 1 is the
    entrywise coercion of a real array. -/
theorem exists_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant ⟨0, ![]⟩ .f32 0x7F800000#32)))
      (constantI ⟨0, ![]⟩ 1 1#1) hr hu ValueIdx.ix0 = 1#1) :
    ∃ f : s.Idx → ℝ, x = fun i => ((f i : ℝ) : EReal) := by
  have h : ∀ i, ∃ r : ℝ, x i = (r : EReal) := fun i =>
    real_of_abs_lt_top (x i) (Host.reduce_andi_all _ _ hr hu _ e i)
  choose f hf using h
  exact ⟨f, funext hf⟩

end Cert.FiniteArrays

end
-- ==== Proof.Finite.lean ====
/-
  Under the precondition the node features and the first layer's neighbour weights are real arrays.

  The precondition is one bit: for each float argument "every |entry| < +∞", all reduced by "and", the bits joined
  by "and" in the order of the arguments.  Peeling the conjunctions down to the tests of the features and of the
  first weight matrix, each test says its array has no infinite entry, so it is the coercion of a real array.
-/
import proofs.«145191_j28020366639688_2_alg».proof.Pre_finite_inputs
import proofs.«145191_j28020366639688_2_alg».proof.Proof.Gen.Pre_finite_inputs
import Idealize.ShloMosaic.Lib.Affine
import proofs.«145191_j28020366639688_2_alg».proof.Proof.LibFiniteArrays

noncomputable section

namespace Cert.Pre_finite_inputs.Finite

open Cert.Pre_finite_inputs Idealize.ShloMosaic

theorem real_args (a0 : FVec Ideal S50000x128 .f32) (a1 : IVec S2x800000 32) (a2 : IVec S50000 32) (a3 : IVec S500 32)
    (a4 a5 : FVec Ideal S64x128 .f32) (a6 : FVec Ideal S64 .f32) (a7 a8 : FVec Ideal S64x64 .f32)
    (a9 : FVec Ideal S64 .f32) (a10 : FVec Ideal S1x64 .f32) (a11 : FVec Ideal S1 .f32)
    (h : fn (F := Ideal) a0 a1 a2 a3 a4 a5 a6 a7 a8 a9 a10 a11 = fun _ => 1#1) :
    (∃ f : S50000x128.Idx → ℝ, a0 = fun i => ((f i : ℝ) : EReal))
      ∧ (∃ g : S64x128.Idx → ℝ, a4 = fun i => ((g i : ℝ) : EReal)) := by
  have h0 := congrFun h ValueIdx.ix0
  unfold fn fn_part1 fn_part2 at h0
  dsimp only at h0
  have p38 := (IntOp.andi_eq_one.mp h0).1
  have p33 := (IntOp.andi_eq_one.mp p38).1
  have p28 := (IntOp.andi_eq_one.mp p33).1
  have p23 := (IntOp.andi_eq_one.mp p28).1
  have p18 := (IntOp.andi_eq_one.mp p23).1
  have p13 := (IntOp.andi_eq_one.mp p18).1
  have p8 := (IntOp.andi_eq_one.mp p13).1
  have p3 := (IntOp.andi_eq_one.mp p8).1
  have p7 := (IntOp.andi_eq_one.mp p8).2
  exact ⟨Cert.FiniteArrays.exists_real a0 _ _ _ p3, Cert.FiniteArrays.exists_real a4 _ _ _ p7⟩

end Cert.Pre_finite_inputs.Finite

end
-- ==== Proof.KernelTerms.lean ====
/-
  The host-side terms both programs apply, spelled once: the two rows of the edge array as vectors, the source
  indices normalised (a negative index wraps by the number of nodes) and laid out as a column, the destination
  indices as a column, the mean's divisor max (degree, 1) and its reciprocal as a column, and the tail — the
  per-graph node counts, their exclusive prefix sums, the centre nodes' rows gathered from the last layer's
  output and the output projection.  The tail is one function of the last layer's output and four arguments; it
  is never opened.
-/
import proofs.«145191_j28020366639688_2_alg».proof.KernelIdeal
import Idealize.ShloMosaic.PureOps.Ideal

noncomputable section

namespace Cert.KernelIdeal.Terms

open Cert.KernelIdeal Idealize.ShloMosaic

variable [Facts]
open Facts₀ Facts

/-- Row 0 of the edge array: the source indices. -/
def srcVec (ei : IVec S2x800000 32) : IVec S800000 32 :=
  shapeCast S800000 (extractStridedSlice S1x800000 ![0, 0] ei slices_S2x800000_S1x800000_0_0) shapeCasts_S1x800000_S800000

/-- Row 1 of the edge array: the destination indices. -/
def dstVec (ei : IVec S2x800000 32) : IVec S800000 32 :=
  shapeCast S800000 (extractStridedSlice S1x800000 ![1, 0] ei slices_S2x800000_S1x800000_1_0) shapeCasts_S1x800000_S800000

/-- The gather's start indices: a negative source index wraps by 50000; one column. -/
def giOf (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The scatter's indices: the destination indices as one column. -/
def siOf (v : IVec S800000 32) : IVec S800000x1 32 :=
  broadcastInDim S800000x1 ![0] bcast_S800000_S800000x1_0 v

/-- The degree vector: ones accumulated at the destination indices. -/
def degVec (si : IVec S800000x1 32) : FVec Ideal S50000 .f32 :=
  Host.scatterAdd scatter_S50000_S800000x1_S800000_n_0_0_1
    (broadcastInDim S50000 ![] bcast_S_S50000 (constant S_ .f32 0x00000000#32)) si
    (broadcastInDim S800000 ![] bcast_S_S800000 (constant S_ .f32 0x3F800000#32))

/-- The divisor vector: max (degree, 1). -/
def dmaxVec (si : IVec S800000x1 32) : FVec Ideal S50000 .f32 :=
  maximumf (degVec si) (broadcastInDim S50000 ![] bcast_S_S50000 (constant S_ .f32 0x3F800000#32))

/-- The reciprocal of the divisor as a column. -/
def invCol (si : IVec S800000x1 32) : FVec Ideal S50000x1 .f32 :=
  shapeCast S50000x1
    (Host.divf (broadcastInDim S50000 ![] bcast_S_S50000 (constant S_ .f32 0x3F800000#32)) (dmaxVec si))
    shapeCasts_S50000_S50000x1

/-- The scalar integer zero. -/
def zeroWord : IVec S_ 32 := constantI S_ 32 0#32

/-- The zero vector the graphs' node counts are accumulated into. -/
def zero500 : IVec S500 32 := broadcastInDim S500 ![] bcast_S_S500 (constantI S_ 32 0#32)

/-- The graph numbers clipped below at a scalar bound. -/
def clipOf (z : IVec S_ 32) (batch : IVec S50000 32) : IVec S50000 32 :=
  maxsi (broadcastInDim S50000 ![] bcast_S_S50000 (id z)) batch

/-- The number of nodes of each of the 500 graphs: ones added into `acc` at the (wrapped) graph numbers. -/
def countsOf (acc : IVec S500 32) (g : IVec S50000 32) : IVec S500 32 :=
  Host.scatter scatter_S500_S50000x1_S50000_n_0_0_1 IntOp.addi acc
    (broadcastInDim S50000x1 ![0] bcast_S50000_S50000x1_0
      (select (cmpi .slt g (broadcastInDim S50000 ![] bcast_S_S50000 (constantI S_ 32 0#32)))
        (addi g (broadcastInDim S50000 ![] bcast_S_S50000 (constantI S_ 32 500#32))) g))
    (broadcastInDim S50000 ![] bcast_S_S50000 (constantI S_ 32 1#32))

/-- The inclusive prefix sums of the counts. -/
def cumOf (cnt : IVec S500 32) : IVec S500 32 :=
  Host.reduceWindow IntOp.addi ![500] ![1] ![499] ![0] cnt
    (broadcastInDim S_ ![] bcast_S_S_ (constantI S_ 32 0#32)) reduceWindows_S500_S500_w500s1p499_0 h_S_

/-- The centre rows of the last layer's output (each graph's offset, the prefix sum less the count, plus its centre
    position, wrapped) against the output weights, plus the output bias. -/
def tail4 (h2 : FVec Ideal S50000x64 .f32) (cum cnt cpos : IVec S500 32)
    (wout : FVec Ideal S1x64 .f32) (bout : FVec Ideal S1 .f32) : FVec Ideal S500 .f32 :=
  shapeCast S500
    (addf
      (Host.dotGeneral dot_S500x64_S64x1_S500x1_1_0_0_1_n_n none
        (Host.gather gather_S50000x64_S500x1_S500x64_1_0_n_n_0_1_164 h2
          (broadcastInDim S500x1 ![0] bcast_S500_S500x1_0
            (select (cmpi .slt (addi (subi cum cnt) cpos) (broadcastInDim S500 ![] bcast_S_S500 (constantI S_ 32 0#32)))
              (addi (addi (subi cum cnt) cpos) (broadcastInDim S500 ![] bcast_S_S500 (constantI S_ 32 50000#32)))
              (addi (subi cum cnt) cpos))))
        (transpose S64x1 [1, 0] wout transposes_S1x64_S64x1_1_0))
      (broadcastInDim S500x1 ![0, 1] bcast_S1x1_S500x1_0_1 (broadcastInDim S1x1 ![1] bcast_S1_S1x1_1 bout)))
    shapeCasts_S500x1_S500

/-- The tail as one function of the last layer's output and four arguments. -/
def tailFn (h2 : FVec Ideal S50000x64 .f32) (batch : IVec S50000 32) (cpos : IVec S500 32)
    (wout : FVec Ideal S1x64 .f32) (bout : FVec Ideal S1 .f32) : FVec Ideal S500 .f32 :=
  tail4 h2 (cumOf (countsOf zero500 (clipOf zeroWord batch))) (countsOf zero500 (clipOf zeroWord batch)) cpos wout bout

end Cert.KernelIdeal.Terms

end
-- ==== Proof.LibGather.lean ====
/-
  The host's gather of rows, read at one element, for the two layouts an indexed read `x[idx]` along the leading axis
  lowers to when every start index is a one-element index vector (start indices of shape N × 1).

  * Rows (`gather_rows_apply`): the operand is K × C, the result N × C; the row axis is collapsed, the lane axis is the
    one offset axis, and the slice is one whole row. Result element (n, l) is the operand's element (r, l), where r is
    the n-th start index read as a signed integer and clamped into [0, K − 1].
  * Vector (`gather_vec_apply`): the operand is a vector of length K, the result a vector of length N; the one axis is
    collapsed and the slice is one entry. Result entry n is the operand's entry r, with r as above.

  The clamp is StableHLO's: a start index is moved into the range where the slice fits, so a negative word reads row 0
  and a word of K or more reads row K − 1.
-/
import Idealize.ShloMosaic.PureOps.ShapeOps
import Idealize.ShloMosaic.PureOps.Dims
import Idealize.ShloMosaic.Lib.ValueIdx

noncomputable section

namespace Cert.LibGather

open Idealize.ShloMosaic Idealize.ShloMosaic.ValueIdx

variable {N K C w : Nat}

section Rows

variable (d : GatherDims ⟨2, ![K, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])

include h1 h2 h3 h4 h5 h6 h7 in
/-- On the row axis the slice starts at the row's start index, read signed and clamped into [0, K − 1]. -/
theorem start_rows0 (j : (⟨2, ![N, C]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The lane axis is not in the start index map: the slice starts at lane 0. -/
theorem start_rows1 (j : (⟨2, ![N, C]⟩ : Shape).Idx) (idx : IVec ⟨2, ![N, 1]⟩ w) : d.start j idx 1 = 0 := by
  obtain ⟨od, cd, ob, sb, sm, iv, ss, wf⟩ := d
  subst h1 h2 h3 h4 h5 h6 h7
  unfold GatherDims.start
  rw [dif_neg]
  simp

include h1 h2 h3 h4 h5 h6 h7 in
/-- The row axis is collapsed: no offset on it. -/
theorem offCoord_rows0 (j : (⟨2, ![N, C]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- The lane axis is the offset axis: the offset is the result's lane. -/
theorem offCoord_rows1 (j : (⟨2, ![N, C]⟩ : Shape).Idx) : d.offCoord j 1 = (j 1).val := by
  obtain ⟨od, cd, ob, sb, sm, iv, ss, wf⟩ := d
  subst h1 h2 h3 h4 h5 h6 h7
  unfold GatherDims.offCoord
  rw [dif_pos (by simp [GatherDims.sKept, Shape.kept])]
  rfl

include h1 h2 h3 h4 h5 h6 h7 in
/-- THE ROW GATHER READ AT (n, l): the operand at row "start index n, read signed, clamped into [0, K − 1]", lane l. -/
theorem gather_rows_apply (hK : 0 < K) {α : Type} (x : (⟨2, ![K, C]⟩ : Shape).Idx → α) (idx : IVec ⟨2, ![N, 1]⟩ w)
    (n : Fin N) (l : Fin C) :
    Host.gather d x idx (ix2 n l) = x (ix2 ⟨min (idx (ix2 n 0)).toInt.toNat (K - 1), by omega⟩ l) := by
  have hs0 := start_rows0 d h1 h2 h3 h4 h5 h6 h7 (ix2 n l) idx
  have hs1 := start_rows1 d h1 h2 h3 h4 h5 h6 h7 (ix2 n l) idx
  have ho0 := offCoord_rows0 d h1 h2 h3 h4 h5 h6 h7 (ix2 n l)
  have ho1 := offCoord_rows1 d h1 h2 h3 h4 h5 h6 h7 (ix2 n l)
  have hb : ∀ a, d.batchCoord (ix2 n l) a = 0 := fun a =>
    d.batchCoord_eq_zero _ a (by rw [h3]; exact List.not_mem_nil)
  unfold Host.gather
  congr 1
  funext a
  refine Fin.ext ?_
  match a with
  | ⟨0, _⟩ =>
    show d.start (ix2 n l) idx 0 + d.batchCoord (ix2 n l) 0 + d.offCoord (ix2 n l) 0 = _
    rw [hs0, hb, ho0]; rfl
  | ⟨1, _⟩ =>
    show d.start (ix2 n l) idx 1 + d.batchCoord (ix2 n l) 1 + d.offCoord (ix2 n l) 1 = _
    rw [hs1, hb, ho1]; show 0 + 0 + l.val = l.val; omega

end Rows

section Vec

variable (d : GatherDims ⟨1, ![K]⟩ ⟨2, ![N, 1]⟩ ⟨1, ![N]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])

include h1 h2 h3 h4 h5 h6 h7 in
/-- On the vector's one axis the slice starts at the start index, read signed and clamped into [0, K − 1]. -/
theorem start_vec0 (j : (⟨1, ![N]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The one axis is collapsed: no offset on it. -/
theorem offCoord_vec0 (j : (⟨1, ![N]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- THE VECTOR GATHER READ AT n: the operand at entry "start index n, read signed, clamped into [0, K − 1]". -/
theorem gather_vec_apply (hK : 0 < K) {α : Type} (x : (⟨1, ![K]⟩ : Shape).Idx → α) (idx : IVec ⟨2, ![N, 1]⟩ w)
    (n : Fin N) :
    Host.gather d x idx (ix1 n) = x (ix1 ⟨min (idx (ix2 n 0)).toInt.toNat (K - 1), by omega⟩) := by
  have hs0 := start_vec0 d h1 h2 h3 h4 h5 h6 h7 (ix1 n) idx
  have ho0 := offCoord_vec0 d h1 h2 h3 h4 h5 h6 h7 (ix1 n)
  have hb : ∀ a, d.batchCoord (ix1 n) a = 0 := fun a =>
    d.batchCoord_eq_zero _ a (by rw [h3]; exact List.not_mem_nil)
  unfold Host.gather
  congr 1
  funext a
  refine Fin.ext ?_
  match a with
  | ⟨0, _⟩ =>
    show d.start (ix1 n) idx 0 + d.batchCoord (ix1 n) 0 + d.offCoord (ix1 n) 0 = _
    rw [hs0, hb, ho0]; rfl

end Vec

end Cert.LibGather

end
-- ==== Proof.LibScatterRows.lean ====
/-
  The landing index of an update for two row-scatter layouts, in closed form, and the accumulating scatter of rows
  re-indexed by the row number.

  * Rows (`resultIdx?_rows`): the operand is `K × C`, the updates are `N × C`, and each update row carries one start
    index. Update `(n, l)` lands at `(k, l')` exactly when the `n`-th start index, read as a signed integer, is `k` and
    `l' = l`: a row keeps its lane, and a start index outside `[0, K)` lands nowhere. Consequently
    (`hostScatterAdd_rows_apply`) the accumulated element `(k, l)` is the operand's element plus the sum, over the rows
    `n` whose start index is `k`, of the update's element `(n, l)`.
  * Row block (`resultIdx?_rowBlock`): an `R × Q` block written into a `P × Q` array at one start row, read off a
    one-element index vector. Update `(r, q)` lands at `(p, q')` exactly when the start row, read signed, plus `r` is
    `p` and `q' = q`.
-/
import Idealize.ShloMosaic.PureOps.ShapeOps
import Idealize.ShloMosaic.PureOps.Dims
import Idealize.ShloMosaic.PureOps.Ideal
import Idealize.ShloMosaic.Lib.ValueIdx

noncomputable section

open scoped BigOperators

namespace Cert.LibScatter

open Idealize.ShloMosaic Idealize.ShloMosaic.ValueIdx

variable {N K C P Q R w : Nat}

section Rows

variable (d : ScatterDims ⟨2, ![K, C]⟩ ⟨2, ![N, 1]⟩ ⟨2, ![N, C]⟩)
    (h1 : d.updateWindowDims = [1]) (h2 : d.insertedWindowDims = [0]) (h3 : d.scatterDimsToOperandDims = [0])
    (h4 : d.indexVectorDim = 1)

include h1 h2 h3 h4 in
/-- The start of update `j` on the row axis is its row's start index, read signed. -/
theorem start_rows0 (j : (⟨2, ![N, C]⟩ : Shape).Idx) (idx : IVec ⟨2, ![N, 1]⟩ w) :
    d.start j idx 0 = (idx (ix2 (j 0) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The lane axis has no start index: its start is zero. -/
theorem start_rows1 (j : (⟨2, ![N, C]⟩ : Shape).Idx) (idx : IVec ⟨2, ![N, 1]⟩ w) : d.start j idx 1 = 0 := by
  obtain ⟨uw, iw, sd, iv, wf⟩ := d
  subst h1 h2 h3 h4
  unfold ScatterDims.start
  rw [dif_neg]
  simp

include h1 h2 h3 h4 in
/-- The row axis is an inserted one: its window coordinate is zero. -/
theorem window_rows0 (j : (⟨2, ![N, C]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- The lane axis is the window axis: the window coordinate is the update's lane. -/
theorem window_rows1 (j : (⟨2, ![N, C]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(n, l)` lands at `(k, l')` exactly when row `n`'s start index, read signed, is `k` and `l' = l`. -/
theorem resultIdx?_rows (j : (⟨2, ![N, C]⟩ : Shape).Idx) (idx : IVec ⟨2, ![N, 1]⟩ w) (i : (⟨2, ![K, C]⟩ : Shape).Idx) :
    d.resultIdx? j idx = some i ↔ (idx (ix2 (j 0) 0)).toInt = ((i 0).val : Int) ∧ (i 1).val = (j 1).val := by
  have hs0 := start_rows0 d h1 h2 h3 h4 j idx
  have hs1 := start_rows1 d h1 h2 h3 h4 j idx
  have hw0 := window_rows0 d h1 h2 h3 h4 j
  have hw1 := window_rows1 d h1 h2 h3 h4 j
  have hi0 : (i 0).val < K := (i 0).isLt
  have hi1 : (i 1).val < C := (i 1).isLt
  have hj1 : (j 1).val < C := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![K, C]⟩ : Shape).size a := by
      intro a
      match a with
      | ⟨0, _⟩ =>
        show 0 ≤ d.start j idx 0 + ↑(d.window j 0) ∧ d.start j idx 0 + ↑(d.window j 0) < ((K : Nat) : Int)
        rw [hs0, hw0, e0]; omega
      | ⟨1, _⟩ =>
        show 0 ≤ d.start j idx 1 + ↑(d.window j 1) ∧ d.start j idx 1 + ↑(d.window j 1) < ((C : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

include h1 h2 h3 h4 in
/-- The accumulated element `(k, l)` is the operand's element plus the sum of the updates' elements `(n, l)` over
    the rows `n` whose start index, read signed, is `k`. -/
theorem hostScatterAdd_rows_apply (x : (⟨2, ![K, C]⟩ : Shape).Idx → EReal) (idx : IVec ⟨2, ![N, 1]⟩ w)
    (upd : (⟨2, ![N, C]⟩ : Shape).Idx → EReal) (k : Fin K) (l : Fin C) :
    Ideal.hostScatterAdd d x idx upd (ix2 k l)
      = x (ix2 k l) + ∑ n : Fin N, if (idx (ix2 n 0)).toInt = (k.val : Int) then upd (ix2 n l) else 0 := by
  unfold Ideal.hostScatterAdd
  congr 1
  rw [Finset.sum_filter, sum_idx2]
  apply Finset.sum_congr rfl
  intro n _
  -- the landing condition of update (n, l') at (k, l): row n's start index is k, and l' = l
  have hcond : ∀ l' : Fin C, (d.resultIdx? (ix2 n l') idx = some (ix2 k l)) ↔
      ((idx (ix2 n 0)).toInt = (k.val : Int) ∧ l = l') := by
    intro l'
    rw [resultIdx?_rows d h1 h2 h3 h4]
    constructor
    · rintro ⟨a, b⟩; exact ⟨a, Fin.ext b⟩
    · rintro ⟨a, b⟩; exact ⟨a, congrArg Fin.val b⟩
  by_cases hA : (idx (ix2 n 0)).toInt = (k.val : Int)
  · rw [if_pos hA, Finset.sum_eq_single l]
    · rw [if_pos ((hcond l).2 ⟨hA, rfl⟩)]
    · intro l' _ hne
      rw [if_neg]
      intro h
      exact hne ((hcond l').1 h).2.symm
    · intro h
      exact absurd (Finset.mem_univ l) h
  · rw [if_neg hA]
    apply Finset.sum_eq_zero
    intro l' _
    rw [if_neg]
    intro h
    exact hA ((hcond l').1 h).1

end Rows

section RowBlock

variable (d : ScatterDims ⟨2, ![P, Q]⟩ ⟨1, ![1]⟩ ⟨2, ![R, Q]⟩)
    (h1 : d.updateWindowDims = [0, 1]) (h2 : d.insertedWindowDims = []) (h3 : d.scatterDimsToOperandDims = [0])
    (h4 : d.indexVectorDim = 0)

include h1 h2 h3 h4 in
/-- The start on the row axis is the one start index, read signed. -/
theorem start_rowBlock0 (j : (⟨2, ![R, Q]⟩ : Shape).Idx) (idx : IVec ⟨1, ![1]⟩ w) :
    d.start j idx 0 = (idx (ix1 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- The lane axis has no start index: its start is zero. -/
theorem start_rowBlock1 (j : (⟨2, ![R, Q]⟩ : Shape).Idx) (idx : IVec ⟨1, ![1]⟩ w) : d.start j idx 1 = 0 := by
  obtain ⟨uw, iw, sd, iv, wf⟩ := d
  subst h1 h2 h3 h4
  unfold ScatterDims.start
  rw [dif_neg]
  simp

include h1 h2 h3 h4 in
/-- Both axes are window axes: on the row axis the window coordinate is the update's row. -/
theorem window_rowBlock0 (j : (⟨2, ![R, Q]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- On the lane axis the window coordinate is the update's lane. -/
theorem window_rowBlock1 (j : (⟨2, ![R, Q]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(r, q)` lands at `(p, q')` exactly when the start row, read signed, plus `r` is `p` and `q' = q`. -/
theorem resultIdx?_rowBlock (j : (⟨2, ![R, Q]⟩ : Shape).Idx) (idx : IVec ⟨1, ![1]⟩ w) (i : (⟨2, ![P, Q]⟩ : Shape).Idx) :
    d.resultIdx? j idx = some i ↔ (idx (ix1 0)).toInt + ((j 0).val : Int) = ((i 0).val : Int) ∧ (i 1).val = (j 1).val := by
  have hs0 := start_rowBlock0 d h1 h2 h3 h4 j idx
  have hs1 := start_rowBlock1 d h1 h2 h3 h4 j idx
  have hw0 := window_rowBlock0 d h1 h2 h3 h4 j
  have hw1 := window_rowBlock1 d h1 h2 h3 h4 j
  have hi0 : (i 0).val < P := (i 0).isLt
  have hi1 : (i 1).val < Q := (i 1).isLt
  have hj1 : (j 1).val < Q := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![P, Q]⟩ : Shape).size a := by
      intro a
      match a with
      | ⟨0, _⟩ =>
        show 0 ≤ d.start j idx 0 + ↑(d.window j 0) ∧ d.start j idx 0 + ↑(d.window j 0) < ((P : Nat) : Int)
        rw [hs0, hw0, e0]; omega
      | ⟨1, _⟩ =>
        show 0 ≤ d.start j idx 1 + ↑(d.window j 1) ∧ d.start j idx 1 + ↑(d.window j 1) < ((Q : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

end RowBlock

end Cert.LibScatter
-- ==== Proof.LibScatterShapes.lean ====
/-
  The landing index of an update for two scatter layouts, in closed form.

  * One scatter axis into a vector (`resultIdx?_vec`): the operand is a vector of length `N`, each of the `M` scalar
    updates carries one start index; update `j` lands at `i` exactly when its start index, read as a signed integer, is
    `i` — a start index outside `[0, N)` lands nowhere.
  * A pair of start indices selecting a (row, column) cell per batch row (`resultIdx?_cells`): the operand is
    `B × R × C`, the updates are `B × K`, and update `(b, k)` lands at `(b, r, c)` exactly when the `k`-th pair of start
    indices is `(r, c)`.
-/
import Idealize.ShloMosaic.PureOps.ShapeOps
import Idealize.ShloMosaic.PureOps.Dims
import Idealize.ShloMosaic.Lib.ValueIdx

namespace Cert.LibScatter

open Idealize.ShloMosaic Idealize.ShloMosaic.ValueIdx

variable {N M B R C K w : Nat}

section Vec

variable (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)

include h1 h2 h3 h4 in
/-- The start of update `j` on the vector's one axis is its start index, read signed. -/
theorem start_vec (j : (⟨1, ![M]⟩ : Shape).Idx) (idx : IVec ⟨2, ![M, 1]⟩ w) :
    d.start j idx 0 = (idx (ix2 (j 0) 0)).toInt := by
  obtain ⟨uw, iw, sd, iv, wf⟩ := d
  subst h1 h2 h3 h4
  unfold ScatterDims.start
  simp only [List.mem_singleton, dite_true]
  congr 1
  congr 1
  funext b
  unfold ScatterDims.siIdx
  match b with
  | ⟨0, _⟩ => simp; rfl
  | ⟨1, _⟩ => simp; rfl

include h1 h2 h3 h4 in
/-- The vector's axis is an inserted one: the window coordinate is zero. -/
theorem window_vec (j : (⟨1, ![M]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- Update `j` lands at `i` exactly when its start index, read signed, is `i`. -/
theorem resultIdx?_vec (j : (⟨1, ![M]⟩ : Shape).Idx) (idx : IVec ⟨2, ![M, 1]⟩ w) (i : (⟨1, ![N]⟩ : Shape).Idx) :
    d.resultIdx? j idx = some i ↔ (idx (ix2 (j 0) 0)).toInt = ((i 0).val : Int) := by
  have hs := start_vec d h1 h2 h3 h4 j idx
  have hw := window_vec d h1 h2 h3 h4 j
  have hi : (i 0).val < N := (i 0).isLt
  unfold ScatterDims.resultIdx?
  constructor
  · intro h
    split at h
    · rename_i hin
      have := congrFun (Option.some.inj h) 0
      have hv := congrArg Fin.val this
      simp only [hs, hw] at hv
      have h0 := (hin 0).1
      rw [hs, hw] at h0
      omega
    · exact absurd h (by simp)
  · intro h
    have hin : ∀ a, 0 ≤ d.start j idx a + ↑(d.window j a) ∧ d.start j idx a + ↑(d.window j a) < (⟨1, ![N]⟩ : Shape).size a := by
      intro a
      have : a = 0 := Subsingleton.elim _ _
      subst this
      rw [hs, hw, h]
      constructor
      · omega
      · show ((i 0).val : Int) + ((0 : Nat) : Int) < ((N : Nat) : Int)
        omega
    rw [dif_pos hin]
    congr 1
    funext a
    have : a = 0 := Subsingleton.elim _ _
    subst this
    apply Fin.ext
    simp only [hs, hw, h]
    omega

end Vec

section Cells

variable (d : ScatterDims ⟨3, ![B, R, C]⟩ ⟨2, ![K, 2]⟩ ⟨2, ![B, K]⟩)
    (h1 : d.updateWindowDims = [0]) (h2 : d.insertedWindowDims = [1, 2]) (h3 : d.scatterDimsToOperandDims = [1, 2])
    (h4 : d.indexVectorDim = 1)

include h1 h2 h3 h4 in
/-- The batch axis has no start index: its start is zero. -/
theorem start_cells0 (j : (⟨2, ![B, K]⟩ : Shape).Idx) (idx : IVec ⟨2, ![K, 2]⟩ w) : d.start j idx 0 = 0 := by
  obtain ⟨uw, iw, sd, iv, wf⟩ := d
  subst h1 h2 h3 h4
  unfold ScatterDims.start
  rw [dif_neg]
  simp

include h1 h2 h3 h4 in
/-- The row's start is the first component of the update's pair of start indices, read signed. -/
theorem start_cells1 (j : (⟨2, ![B, K]⟩ : Shape).Idx) (idx : IVec ⟨2, ![K, 2]⟩ w) :
    d.start j idx 1 = (idx (ix2 (j 1) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The column's start is the second component of the update's pair of start indices, read signed. -/
theorem start_cells2 (j : (⟨2, ![B, K]⟩ : Shape).Idx) (idx : IVec ⟨2, ![K, 2]⟩ w) :
    d.start j idx 2 = (idx (ix2 (j 1) 1)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The batch axis is the window axis: the window coordinate is the update's batch coordinate. -/
theorem window_cells0 (j : (⟨2, ![B, K]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- Rows and columns are inserted axes: their window coordinate is zero. -/
theorem window_cells1 (j : (⟨2, ![B, K]⟩ : Shape).Idx) : d.window j 1 = 0 := by
  obtain ⟨uw, iw, sd, iv, wf⟩ := d
  subst h1 h2 h3 h4
  unfold ScatterDims.window
  rw [dif_neg]
  simp [ScatterDims.sKept, Shape.kept]

include h1 h2 h3 h4 in
theorem window_cells2 (j : (⟨2, ![B, K]⟩ : Shape).Idx) : d.window j 2 = 0 := by
  obtain ⟨uw, iw, sd, iv, wf⟩ := d
  subst h1 h2 h3 h4
  unfold ScatterDims.window
  rw [dif_neg]
  simp [ScatterDims.sKept, Shape.kept]

include h1 h2 h3 h4 in
/-- Update `(b, k)` lands at `(b', r, c)` exactly when `b' = b` and the `k`-th pair of start indices, read signed, is
    `(r, c)`. -/
theorem resultIdx?_cells (j : (⟨2, ![B, K]⟩ : Shape).Idx) (idx : IVec ⟨2, ![K, 2]⟩ w) (i : (⟨3, ![B, R, C]⟩ : Shape).Idx) :
    d.resultIdx? j idx = some i ↔
      (i 0).val = (j 0).val ∧ (idx (ix2 (j 1) 0)).toInt = ((i 1).val : Int) ∧ (idx (ix2 (j 1) 1)).toInt = ((i 2).val : Int) := by
  have hs0 := start_cells0 d h1 h2 h3 h4 j idx
  have hs1 := start_cells1 d h1 h2 h3 h4 j idx
  have hs2 := start_cells2 d h1 h2 h3 h4 j idx
  have hw0 := window_cells0 d h1 h2 h3 h4 j
  have hw1 := window_cells1 d h1 h2 h3 h4 j
  have hw2 := window_cells2 d h1 h2 h3 h4 j
  have hi0 : (i 0).val < B := (i 0).isLt
  have hi1 : (i 1).val < R := (i 1).isLt
  have hi2 : (i 2).val < C := (i 2).isLt
  have hj0 : (j 0).val < B := (j 0).isLt
  unfold ScatterDims.resultIdx?
  constructor
  · intro h
    split at h
    · rename_i hin
      have e := Option.some.inj h
      have e0 := congrArg Fin.val (congrFun e 0)
      have e1 := congrArg Fin.val (congrFun e 1)
      have e2 := congrArg Fin.val (congrFun e 2)
      simp only [hs0, hw0, hs1, hw1, hs2, hw2] at e0 e1 e2
      have g1 := (hin 1).1
      have g2 := (hin 2).1
      rw [hs1, hw1] at g1
      rw [hs2, hw2] at g2
      refine ⟨by omega, by omega, by omega⟩
    · exact absurd h (by simp)
  · rintro ⟨e0, e1, e2⟩
    have hin : ∀ a, 0 ≤ d.start j idx a + ↑(d.window j a) ∧ d.start j idx a + ↑(d.window j a) < (⟨3, ![B, R, C]⟩ : Shape).size a := by
      intro a
      match a with
      | ⟨0, _⟩ =>
        show 0 ≤ d.start j idx 0 + ↑(d.window j 0) ∧ d.start j idx 0 + ↑(d.window j 0) < ((B : Nat) : Int)
        rw [hs0, hw0]; omega
      | ⟨1, _⟩ =>
        show 0 ≤ d.start j idx 1 + ↑(d.window j 1) ∧ d.start j idx 1 + ↑(d.window j 1) < ((R : Nat) : Int)
        rw [hs1, hw1, e1]; omega
      | ⟨2, _⟩ =>
        show 0 ≤ d.start j idx 2 + ↑(d.window j 2) ∧ d.start j idx 2 + ↑(d.window j 2) < ((C : Nat) : Int)
        rw [hs2, hw2, e2]; omega
    rw [dif_pos hin]
    congr 1
    funext a
    apply Fin.ext
    match a with
    | ⟨0, _⟩ =>
      show (d.start j idx 0 + ↑(d.window j 0)).toNat = (i 0).val
      rw [hs0, hw0]; omega
    | ⟨1, _⟩ =>
      show (d.start j idx 1 + ↑(d.window j 1)).toNat = (i 1).val
      rw [hs1, hw1, e1]; omega
    | ⟨2, _⟩ =>
      show (d.start j idx 2 + ↑(d.window j 2)).toNat = (i 2).val
      rw [hs2, hw2, e2]; omega

end Cells

end Cert.LibScatter
-- ==== Proof.LibScatterSums.lean ====
/-
  The host's accumulating scatter of M scalars into a vector of length N, read at one entry.

  Over the extended reals the accumulating scatter holds, at every operand index, the operand's element plus the sum
  of the updates that land there. With one start index per update and the vector's one axis inserted, update n lands
  at k exactly when its start index, read signed, is k; so entry k is the operand's entry plus the sum over all n of
  "update n if index n is k, else nothing" — a start index outside [0, N) contributes to no entry.
-/
import Idealize.ShloMosaic.PureOps.Ideal
import Idealize.ShloMosaic.Lib.ValueIdx
import proofs.«145191_j28020366639688_2_alg».proof.Proof.LibScatterShapes

noncomputable section

open scoped BigOperators

namespace Cert.LibScatter

open Idealize.ShloMosaic Idealize.ShloMosaic.ValueIdx

variable {N M w : Nat}

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over the indices of a vector is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Entry k of the accumulating scatter of M scalars into a vector: the operand's entry plus the updates whose
    start index is k. -/
theorem hostScatterAdd_vec_apply (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![M, 1]⟩ w) (upd : (⟨1, ![M]⟩ : Shape).Idx → EReal)
    (k : Fin N) :
    Ideal.hostScatterAdd d x idx upd (ix1 k)
      = x (ix1 k) + ∑ n : Fin M, if (idx (ix2 n 0)).toInt = (k.val : Int) then upd (ix1 n) else 0 := by
  unfold Ideal.hostScatterAdd
  refine congrArg (x (ix1 k) + ·) ?_
  rw [Finset.sum_filter, sum_idx1]
  refine Finset.sum_congr rfl fun n _ => ?_
  exact if_congr (resultIdx?_vec d h1 h2 h3 h4 (ix1 n) idx (ix1 k)) rfl rfl

end Cert.LibScatter

end
-- ==== Proof.LibScatterIdeal.lean ====
/-
  The host's accumulating scatter, read at the extended reals, is the exact sum: every operand element plus the
  updates that land on it, whatever the shapes and the dimension numbers.
-/
import Idealize.ShloMosaic.PureOps.Contract
import Idealize.ShloMosaic.PureOps.Ideal

noncomputable section

namespace Cert.LibScatter

open Idealize.ShloMosaic

/-- Over the extended reals the accumulating scatter is the operand plus the sum of the updates landing there. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

end Cert.LibScatter

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRealSums.lean ====
/-
  Extended-real algebra for a quantised linear layer.

  A weight row is replaced by a ternary row `q` times one positive scale `s`.  One program forms the
  effective weight `w + (q · s − w)` and contracts it with the activations; the other contracts the
  ternary row and multiplies the finished sum by `s` once.  On the reals the two agree: the weight
  cancels, and `s` leaves the sum by distributivity.  On the extended reals both steps need every
  quantity to be finite, which is what the lemmas here assume.
-/
import Mathlib.Data.EReal.Operations
import Mathlib.Algebra.BigOperators.Ring.Finset

namespace Cert.ScaledSum

open scoped BigOperators

/-- An extended real between two reals is a real. -/
theorem real_of_between (a b : ℝ) (x : EReal) (h1 : (a : EReal) ≤ x) (h2 : x ≤ (b : EReal)) : ∃ r : ℝ, x = (r : EReal) := by
  induction x using EReal.rec with
  | bot => exact absurd h1 (not_le.2 (EReal.bot_lt_coe a))
  | coe r => exact ⟨r, rfl⟩
  | top => exact absurd h2 (not_le.2 (EReal.coe_lt_top b))

/-- The maximum of two reals, taken in the extended reals, is the real maximum. -/
theorem coe_max (a b : ℝ) : ((max a b : ℝ) : EReal) = max (a : EReal) (b : EReal) :=
  EReal.coe_strictMono.monotone.map_max

/-- A finite sum of reals, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of finite extended reals is finite. -/
theorem exists_real_sum {ι : Type*} (s : Finset ι) (f : ι → EReal) (hf : ∀ k, ∃ r : ℝ, f k = (r : EReal)) :
    ∃ r : ℝ, (∑ k ∈ s, f k) = (r : EReal) := by
  choose g hg using hf
  exact ⟨∑ k ∈ s, g k, by rw [← coe_sum]; exact Finset.sum_congr rfl fun k _ => hg k⟩

/-- The straight-through weight: a finite `w` added to `a − w` gives back `a`. -/
theorem add_sub_cancel_real (w a : ℝ) : (w : EReal) + ((a : EReal) - (w : EReal)) = (a : EReal) := by
  rw [← EReal.coe_sub, ← EReal.coe_add]; congr 1; ring

/-- Contracting the activations with the effective weight `w + (q · s − w)` is contracting them with the
    ternary row and scaling the finished sum by `s`, all quantities finite. -/
theorem sum_effective_weight {ι : Type*} [Fintype ι] (X W Q : ι → EReal) (s : EReal)
    (hX : ∀ k, ∃ r : ℝ, X k = (r : EReal)) (hW : ∀ k, ∃ r : ℝ, W k = (r : EReal))
    (hQ : ∀ k, ∃ r : ℝ, Q k = (r : EReal)) (hs : ∃ r : ℝ, s = (r : EReal)) :
    (∑ k, X k * (W k + (Q k * s - W k))) = (∑ k, X k * Q k) * s := by
  choose x hx using hX
  choose w hw using hW
  choose q hq using hQ
  obtain ⟨t, rfl⟩ := hs
  have e1 : ∀ k, X k * (W k + (Q k * (t : EReal) - W k)) = ((x k * q k * t : ℝ) : EReal) := fun k => by
    rw [hx k, hw k, hq k, ← EReal.coe_mul, add_sub_cancel_real, ← EReal.coe_mul]; congr 1; ring
  have e2 : ∀ k, X k * Q k = ((x k * q k : ℝ) : EReal) := fun k => by rw [hx k, hq k, ← EReal.coe_mul]
  rw [Finset.sum_congr rfl fun k _ => e1 k, Finset.sum_congr rfl fun k _ => e2 k, coe_sum, coe_sum, ← EReal.coe_mul,
    Finset.sum_mul]

end Cert.ScaledSum
-- ==== Proof.SageLayers.lean ====
/-
  Two layers of a mean-aggregating graph convolution, computed in two orders.

  Nodes are the 50000 rows of a feature array; each of the 800000 edges e names a source row (its index word read
  signed and clamped into the rows) and lands on the node its destination word names.  The aggregate of an array
  f at node n, lane l is the sum of f (source e, l) over the edges landing on n; the degree of n counts those
  edges, and a layer averages by max (degree, 1).

  One program multiplies the aggregate by the reciprocal 1 / max (degree, 1), the other divides by max (degree, 1):
  on the extended reals both are the product with the real number 1 / d, since d ≥ 1 is a nonzero real.  In the
  first layer one program projects the rows through a weight matrix BEFORE aggregating and the other after
  averaging: a row-wise linear map commutes with the gather, with the finite sum and with the scaling — for real
  features and real weights (the extended reals do not distribute over infinities).  The second layer is the same
  expression on both sides once the averages agree.
-/
import Mathlib.Data.EReal.Operations
import Mathlib.Algebra.BigOperators.Ring.Finset
import Idealize.ShloMosaic.PureOps.Ideal
import Idealize.ShloMosaic.PureOps.Ideal.Laws
import Idealize.ShloMosaic.Lib.IdealHost
import Idealize.ShloMosaic.Lib.ValueIdx
import proofs.«145191_j28020366639688_2_alg».proof.Proof.LibRealSums

noncomputable section

open scoped BigOperators

namespace Cert.Sage

open Idealize.ShloMosaic Idealize.ShloMosaic.ValueIdx
open Cert.ScaledSum (coe_sum coe_max)

/-! ## Real sums inside the extended reals -/

/-- A sum of reals over the indices that satisfy a condition, taken in the extended reals, is the real sum. -/
theorem coe_masked_sum {ι : Type*} [Fintype ι] (L : ι → Prop) [DecidablePred L] (f : ι → ℝ) :
    (∑ e, if L e then (f e : EReal) else 0) = ((∑ e, if L e then f e else 0 : ℝ) : EReal) := by
  rw [← coe_sum]
  refine Finset.sum_congr rfl fun e _ => ?_
  split_ifs <;> simp

/-- Projecting the gathered rows and then summing and scaling is summing and scaling the gathered rows and then
    projecting: (∑ₑ ∑ₖ x(e,k) w(k)) · t = ∑ₖ ((∑ₑ x(e,k)) · t) · w(k) over the landing edges, all reals. -/
theorem agg_linear {ι κ : Type*} [Fintype ι] [Fintype κ] (L : ι → Prop) [DecidablePred L] (xs : ι → κ → ℝ)
    (w : κ → ℝ) (t : ℝ) :
    ((0 : EReal) + ∑ e, if L e then (∑ k, (xs e k : EReal) * (w k : EReal)) else 0) * (t : EReal)
      = ∑ k, (((0 : EReal) + ∑ e, if L e then (xs e k : EReal) else 0) * (t : EReal)) * (w k : EReal) := by
  have e1 : ∀ e, (∑ k, (xs e k : EReal) * (w k : EReal)) = ((∑ k, xs e k * w k : ℝ) : EReal) := fun e => by
    rw [← coe_sum]; exact Finset.sum_congr rfl fun k _ => (EReal.coe_mul _ _).symm
  have e2 : ∀ k, ((0 : EReal) + ∑ e, if L e then (xs e k : EReal) else 0) * (t : EReal) * (w k : EReal)
      = (((∑ e, if L e then xs e k else 0) * t * w k : ℝ) : EReal) := fun k => by
    rw [coe_masked_sum, zero_add, ← EReal.coe_mul, ← EReal.coe_mul]
  rw [Finset.sum_congr rfl fun k _ => e2 k, coe_sum]
  simp only [e1]
  rw [coe_masked_sum, zero_add, ← EReal.coe_mul]
  congr 1
  have e3 : ∀ k, (∑ e, if L e then xs e k else 0) * t * w k = ∑ e, if L e then xs e k * w k * t else 0 := fun k => by
    rw [Finset.sum_mul, Finset.sum_mul]
    refine Finset.sum_congr rfl fun e _ => ?_
    split_ifs <;> ring
  rw [Finset.sum_congr rfl fun k _ => e3 k, Finset.sum_comm, Finset.sum_mul]
  refine Finset.sum_congr rfl fun e _ => ?_
  split_ifs with h
  · rw [Finset.sum_mul]
  · simp

/-! ## The graph's pieces -/

/-- The source row of edge e: its index word read signed, clamped into the 50000 rows. -/
def srcRow (gi : IVec ⟨2, ![800000, 1]⟩ 32) (e : Fin 800000) : Fin 50000 :=
  ⟨min (gi (ix2 e 0)).toInt.toNat (50000 - 1), Nat.lt_of_le_of_lt (Nat.min_le_right _ _) (by norm_num)⟩

/-- The aggregate of the rows of f at node n, lane l: zero plus the source rows' entries over the edges landing on n. -/
def aggAt {C : Nat} (f : (⟨2, ![50000, C]⟩ : Shape).Idx → EReal) (gi si : IVec ⟨2, ![800000, 1]⟩ 32)
    (n : Fin 50000) (l : Fin C) : EReal :=
  Ideal.ofBits .f32 0x00000000#32
    + ∑ e : Fin 800000, if (si (ix2 e 0)).toInt = (n.val : Int) then f (ix2 (srcRow gi e) l) else 0

/-- The degree of node n: zero plus a one per edge landing on n. -/
def degAt (si : IVec ⟨2, ![800000, 1]⟩ 32) (n : Fin 50000) : EReal :=
  Ideal.ofBits .f32 0x00000000#32
    + ∑ e : Fin 800000, if (si (ix2 e 0)).toInt = (n.val : Int) then Ideal.ofBits .f32 0x3F800000#32 else 0

/-- The divisor of the mean: max (degree, 1). -/
def dmaxAt (si : IVec ⟨2, ![800000, 1]⟩ 32) (n : Fin 50000) : EReal :=
  max (degAt si n) (Ideal.ofBits .f32 0x3F800000#32)

/-- Row r of A against column j of B. -/
def mmAt {R K C : Nat} (A : (⟨2, ![R, K]⟩ : Shape).Idx → EReal) (B : (⟨2, ![K, C]⟩ : Shape).Idx → EReal)
    (r : Fin R) (j : Fin C) : EReal :=
  ∑ k : Fin K, A (ix2 r k) * B (ix2 k j)

/-- The divisor is a real number, at least one. -/
theorem dmaxAt_real (si : IVec ⟨2, ![800000, 1]⟩ 32) (n : Fin 50000) :
    ∃ d : ℝ, 1 ≤ d ∧ dmaxAt si n = (d : EReal) := by
  refine ⟨max (∑ e : Fin 800000, if (si (ix2 e 0)).toInt = (n.val : Int) then (1 : ℝ) else 0) 1, le_max_right _ _, ?_⟩
  unfold dmaxAt degAt
  rw [Ideal.ofBits_zero_f32, Ideal.ofBits_one_f32, zero_add, coe_max]
  have h := coe_masked_sum (fun e : Fin 800000 => (si (ix2 e 0)).toInt = (n.val : Int)) (fun _ => (1 : ℝ))
  rw [← h]
  simp only [EReal.coe_one]

/-- Dividing by the divisor and multiplying by its reciprocal are the product with one real number. -/
theorem mean_forms (si : IVec ⟨2, ![800000, 1]⟩ 32) (n : Fin 50000) :
    ∃ t : ℝ, (∀ a : EReal, Ideal.div a (dmaxAt si n) = a * (t : EReal))
      ∧ Ideal.div (Ideal.ofBits .f32 0x3F800000#32) (dmaxAt si n) = (t : EReal) := by
  obtain ⟨d, hd, e⟩ := dmaxAt_real si n
  have hd0 : d ≠ 0 := by linarith
  refine ⟨1 / d, fun a => by rw [e, Ideal.div_coe hd0], ?_⟩
  rw [e, Ideal.div_coe hd0, Ideal.ofBits_one_f32, one_mul]

/-! ## The second layer: the same expression once the averages agree -/

theorem layer2_eq (h1 : (⟨2, ![50000, 64]⟩ : Shape).Idx → EReal) (wl wr : (⟨2, ![64, 64]⟩ : Shape).Idx → EReal)
    (b : (⟨1, ![64]⟩ : Shape).Idx → EReal) (gi si : IVec ⟨2, ![800000, 1]⟩ 32)
    (invc : (⟨2, ![50000, 1]⟩ : Shape).Idx → EReal)
    (meanK hK meanR hR : (⟨2, ![50000, 64]⟩ : Shape).Idx → EReal)
    (hinv : ∀ r : Fin 50000, invc (ix2 r 0) = Ideal.div (Ideal.ofBits .f32 0x3F800000#32) (dmaxAt si r))
    (hmK : ∀ (r : Fin 50000) (k : Fin 64), meanK (ix2 r k) = aggAt h1 gi si r k * invc (ix2 r 0))
    (hhK : ∀ (r : Fin 50000) (j : Fin 64), hK (ix2 r j)
      = max ((mmAt meanK wl r j + mmAt h1 wr r j) + b (ix1 j)) (Ideal.ofBits .f32 0x00000000#32))
    (hmR : ∀ (r : Fin 50000) (k : Fin 64), meanR (ix2 r k) = Ideal.div (aggAt h1 gi si r k) (dmaxAt si r))
    (hhR : ∀ (r : Fin 50000) (j : Fin 64), hR (ix2 r j)
      = max ((mmAt meanR wl r j + mmAt h1 wr r j) + b (ix1 j)) (Ideal.ofBits .f32 0x00000000#32)) :
    hK = hR := by
  have hm : ∀ (r : Fin 50000) (k : Fin 64), meanK (ix2 r k) = meanR (ix2 r k) := fun r k => by
    obtain ⟨t, ht, ht1⟩ := mean_forms si r
    rw [hmK, hmR, hinv, ht1, ht]
  funext i
  obtain ⟨r, j, rfl⟩ : ∃ (r : Fin 50000) (j : Fin 64), i = ix2 r j := ⟨i 0, i 1, eq_ix2 i⟩
  rw [hhK, hhR]
  unfold mmAt
  simp only [hm]

/-! ## The first layer: projecting before or after the aggregation -/

theorem layer1_eq (x : (⟨2, ![50000, 128]⟩ : Shape).Idx → EReal) (wl wr : (⟨2, ![128, 64]⟩ : Shape).Idx → EReal)
    (b : (⟨1, ![64]⟩ : Shape).Idx → EReal) (gi si : IVec ⟨2, ![800000, 1]⟩ 32)
    (invc : (⟨2, ![50000, 1]⟩ : Shape).Idx → EReal)
    (p meanK hK hR : (⟨2, ![50000, 64]⟩ : Shape).Idx → EReal) (meanR : (⟨2, ![50000, 128]⟩ : Shape).Idx → EReal)
    (hx : ∃ f : (⟨2, ![50000, 128]⟩ : Shape).Idx → ℝ, x = fun i => ((f i : ℝ) : EReal))
    (hwl : ∃ g : (⟨2, ![128, 64]⟩ : Shape).Idx → ℝ, wl = fun i => ((g i : ℝ) : EReal))
    (hinv : ∀ r : Fin 50000, invc (ix2 r 0) = Ideal.div (Ideal.ofBits .f32 0x3F800000#32) (dmaxAt si r))
    (hp : ∀ (s : Fin 50000) (j : Fin 64), p (ix2 s j) = mmAt x wl s j)
    (hmK : ∀ (r : Fin 50000) (j : Fin 64), meanK (ix2 r j) = aggAt p gi si r j * invc (ix2 r 0))
    (hhK : ∀ (r : Fin 50000) (j : Fin 64), hK (ix2 r j)
      = max ((mmAt x wr r j + meanK (ix2 r j)) + b (ix1 j)) (Ideal.ofBits .f32 0x00000000#32))
    (hmR : ∀ (r : Fin 50000) (k : Fin 128), meanR (ix2 r k) = Ideal.div (aggAt x gi si r k) (dmaxAt si r))
    (hhR : ∀ (r : Fin 50000) (j : Fin 64), hR (ix2 r j)
      = max ((mmAt meanR wl r j + mmAt x wr r j) + b (ix1 j)) (Ideal.ofBits .f32 0x00000000#32)) :
    hK = hR := by
  obtain ⟨f, rfl⟩ := hx
  obtain ⟨g, rfl⟩ := hwl
  have hm : ∀ (r : Fin 50000) (j : Fin 64),
      meanK (ix2 r j) = mmAt meanR (fun i => ((g i : ℝ) : EReal)) r j := fun r j => by
    obtain ⟨t, ht, ht1⟩ := mean_forms si r
    rw [hmK, hinv, ht1]
    unfold mmAt aggAt
    simp only [hmR, ht, hp]
    unfold mmAt aggAt
    rw [Ideal.ofBits_zero_f32]
    exact agg_linear (fun e : Fin 800000 => (si (ix2 e 0)).toInt = (r.val : Int))
      (fun e k => f (ix2 (srcRow gi e) k)) (fun k => g (ix2 k j)) t
  funext i
  obtain ⟨r, j, rfl⟩ : ∃ (r : Fin 50000) (j : Fin 64), i = ix2 r j := ⟨i 0, i 1, eq_ix2 i⟩
  rw [hhK, hhR, hm, add_comm (mmAt _ _ r j) (mmAt meanR _ r j)]

end Cert.Sage

end
-- ==== Proof.SageReads.lean ====
/-
  The host operations of a mean-aggregating graph convolution read at one entry.

  A row gather followed by an accumulating row scatter into zeros is the aggregate of the gathered rows over the
  edges landing on a node; the accumulating scatter of ones into a zero vector is the node's degree; the maximum
  with a broadcast one is the mean's divisor; a divisor or reciprocal kept as a column and broadcast over the lanes is
  read on its row; a bias vector laid out as one row and broadcast over the rows is read on its lane; a matrix
  product against the plain dimension numbers is the row-by-column sum.
-/
import Idealize.ShloMosaic.PureOps.Ideal
import Idealize.ShloMosaic.PureOps.Contract
import Idealize.ShloMosaic.Lib.ValueIdx
import proofs.«145191_j28020366639688_2_alg».proof.Proof.LibGather
import proofs.«145191_j28020366639688_2_alg».proof.Proof.LibScatterRows
import proofs.«145191_j28020366639688_2_alg».proof.Proof.LibScatterSums
import proofs.«145191_j28020366639688_2_alg».proof.Proof.LibScatterIdeal
import proofs.«145191_j28020366639688_2_alg».proof.Proof.LibColumnInDim
import proofs.«145191_j28020366639688_2_alg».proof.Proof.LibRowInDim
import proofs.«145191_j28020366639688_2_alg».proof.Proof.LibRowOfVector
import proofs.«145191_j28020366639688_2_alg».proof.Proof.LibPlainDot
import proofs.«145191_j28020366639688_2_alg».proof.Proof.SageLayers

noncomputable section

open scoped BigOperators

namespace Cert.Sage

open Idealize.ShloMosaic Idealize.ShloMosaic.ValueIdx

/-- A scalar constant broadcast over any shape holds the constant everywhere. -/
theorem splat_apply {s : Shape} (hb : (⟨0, ![]⟩ : Shape).BroadcastsInDim s (![] : Fin 0 → Fin s.rank))
    (b : BitVec 32) (i : s.Idx) :
    broadcastInDim s ![] hb (constant (F := Ideal) ⟨0, ![]⟩ .f32 b) i = Ideal.ofBits .f32 b := rfl

/-- Rows gathered by the source indices and scattered with accumulation into zeros by the destination indices:
    the aggregate of the rows at a node and lane. -/
theorem agg_apply {C : Nat}
    (sd : ScatterDims ⟨2, ![50000, C]⟩ ⟨2, ![800000, 1]⟩ ⟨2, ![800000, C]⟩)
    (hs1 : sd.updateWindowDims = [1]) (hs2 : sd.insertedWindowDims = [0]) (hs3 : sd.scatterDimsToOperandDims = [0])
    (hs4 : sd.indexVectorDim = 1)
    (gd : GatherDims ⟨2, ![50000, C]⟩ ⟨2, ![800000, 1]⟩ ⟨2, ![800000, C]⟩)
    (hg1 : gd.offsetDims = [1]) (hg2 : gd.collapsedSliceDims = [0]) (hg3 : gd.operandBatchingDims = [])
    (hg4 : gd.startIndicesBatchingDims = []) (hg5 : gd.startIndexMap = [0]) (hg6 : gd.indexVectorDim = 1)
    (hg7 : gd.sliceSizes = ![1, C])
    (hb : (⟨0, ![]⟩ : Shape).BroadcastsInDim ⟨2, ![50000, C]⟩ (![] : Fin 0 → Fin 2))
    (f : FVec Ideal ⟨2, ![50000, C]⟩ .f32) (gi si : IVec ⟨2, ![800000, 1]⟩ 32)
    (u : FVec Ideal ⟨2, ![800000, C]⟩ .f32) (hu : u = Host.gather gd f gi) (n : Fin 50000) (l : Fin C) :
    Host.scatterAdd sd (broadcastInDim ⟨2, ![50000, C]⟩ ![] hb (constant (F := Ideal) ⟨0, ![]⟩ .f32 0x00000000#32)) si u
        (ix2 n l)
      = aggAt f gi si n l := by
  subst hu
  rw [Cert.LibScatter.scatterAdd_ideal, Cert.LibScatter.hostScatterAdd_rows_apply sd hs1 hs2 hs3 hs4]
  unfold aggAt
  refine congrArg₂ (· + ·) rfl (Finset.sum_congr rfl fun e _ => ?_)
  rw [Cert.LibGather.gather_rows_apply gd hg1 hg2 hg3 hg4 hg5 hg6 hg7 (by norm_num)]
  rfl

/-- The same with the gathered rows passed through a narrower float format and back (both changes are the identity on
    the extended reals). -/
theorem agg_apply_conv {C : Nat}
    (sd : ScatterDims ⟨2, ![50000, C]⟩ ⟨2, ![800000, 1]⟩ ⟨2, ![800000, C]⟩)
    (hs1 : sd.updateWindowDims = [1]) (hs2 : sd.insertedWindowDims = [0]) (hs3 : sd.scatterDimsToOperandDims = [0])
    (hs4 : sd.indexVectorDim = 1)
    (gd : GatherDims ⟨2, ![50000, C]⟩ ⟨2, ![800000, 1]⟩ ⟨2, ![800000, C]⟩)
    (hg1 : gd.offsetDims = [1]) (hg2 : gd.collapsedSliceDims = [0]) (hg3 : gd.operandBatchingDims = [])
    (hg4 : gd.startIndicesBatchingDims = []) (hg5 : gd.startIndexMap = [0]) (hg6 : gd.indexVectorDim = 1)
    (hg7 : gd.sliceSizes = ![1, C])
    (hb : (⟨0, ![]⟩ : Shape).BroadcastsInDim ⟨2, ![50000, C]⟩ (![] : Fin 0 → Fin 2))
    (f : FVec Ideal ⟨2, ![50000, C]⟩ .f32) (gi si : IVec ⟨2, ![800000, 1]⟩ 32)
    (h1 : FTy.bf16.bits < FTy.f32.bits) (h2 : FTy.bf16.bits < FTy.f32.bits) (n : Fin 50000) (l : Fin C) :
    Host.scatterAdd sd (broadcastInDim ⟨2, ![50000, C]⟩ ![] hb (constant (F := Ideal) ⟨0, ![]⟩ .f32 0x00000000#32)) si
        (extf .f32 (Host.gather gd (truncf .bf16 f h1) gi) h2) (ix2 n l)
      = aggAt f gi si n l := by
  have e1 : truncf .bf16 f h1 = f := rfl
  have e2 : extf .f32 (Host.gather gd (truncf .bf16 f h1) gi) h2 = Host.gather gd (truncf .bf16 f h1) gi := rfl
  rw [e2, e1]
  exact agg_apply sd hs1 hs2 hs3 hs4 gd hg1 hg2 hg3 hg4 hg5 hg6 hg7 hb f gi si _ rfl n l

/-- Ones scattered with accumulation into a zero vector by the destination indices: the degree. -/
theorem deg_apply
    (sd : ScatterDims ⟨1, ![50000]⟩ ⟨2, ![800000, 1]⟩ ⟨1, ![800000]⟩)
    (hs1 : sd.updateWindowDims = []) (hs2 : sd.insertedWindowDims = [0]) (hs3 : sd.scatterDimsToOperandDims = [0])
    (hs4 : sd.indexVectorDim = 1)
    (hbN : (⟨0, ![]⟩ : Shape).BroadcastsInDim ⟨1, ![50000]⟩ (![] : Fin 0 → Fin 1))
    (hbE : (⟨0, ![]⟩ : Shape).BroadcastsInDim ⟨1, ![800000]⟩ (![] : Fin 0 → Fin 1))
    (si : IVec ⟨2, ![800000, 1]⟩ 32) (n : Fin 50000) :
    Host.scatterAdd sd (broadcastInDim ⟨1, ![50000]⟩ ![] hbN (constant (F := Ideal) ⟨0, ![]⟩ .f32 0x00000000#32)) si
        (broadcastInDim ⟨1, ![800000]⟩ ![] hbE (constant (F := Ideal) ⟨0, ![]⟩ .f32 0x3F800000#32)) (ix1 n)
      = degAt si n := by
  rw [Cert.LibScatter.scatterAdd_ideal, Cert.LibScatter.hostScatterAdd_vec_apply sd hs1 hs2 hs3 hs4]
  rfl

/-- The degree vector's maximum with a broadcast one: the divisor. -/
theorem dmax_apply (d : FVec Ideal ⟨1, ![50000]⟩ .f32) (si : IVec ⟨2, ![800000, 1]⟩ 32)
    (hd : ∀ n : Fin 50000, d (ix1 n) = degAt si n)
    (hbN : (⟨0, ![]⟩ : Shape).BroadcastsInDim ⟨1, ![50000]⟩ (![] : Fin 0 → Fin 1)) (n : Fin 50000) :
    maximumf d (broadcastInDim ⟨1, ![50000]⟩ ![] hbN (constant (F := Ideal) ⟨0, ![]⟩ .f32 0x3F800000#32)) (ix1 n)
      = dmaxAt si n := by
  unfold dmaxAt
  rw [← hd]
  rfl

/-- The reciprocal of the divisor, reshaped to a column, read on its row. -/
theorem inv_column_apply (dm : FVec Ideal ⟨1, ![50000]⟩ .f32) (si : IVec ⟨2, ![800000, 1]⟩ 32)
    (hdm : ∀ n : Fin 50000, dm (ix1 n) = dmaxAt si n)
    (hbN : (⟨0, ![]⟩ : Shape).BroadcastsInDim ⟨1, ![50000]⟩ (![] : Fin 0 → Fin 1))
    (hc : (⟨1, ![50000]⟩ : Shape).ShapeCasts ⟨2, ![50000, 1]⟩) (r : Fin 50000) :
    shapeCast ⟨2, ![50000, 1]⟩
        (Host.divf (broadcastInDim ⟨1, ![50000]⟩ ![] hbN (constant (F := Ideal) ⟨0, ![]⟩ .f32 0x3F800000#32)) dm) hc
        (ix2 r 0)
      = Ideal.div (Ideal.ofBits .f32 0x3F800000#32) (dmaxAt si r) := by
  rw [Cert.ColumnInDim.shapeCast_column, ← hdm]
  rfl

/-- A column broadcast over the lanes is read on its row. -/
theorem lanes_apply {C : Nat} (v : (⟨2, ![50000, 1]⟩ : Shape).Idx → EReal)
    (h : (⟨2, ![50000, 1]⟩ : Shape).BroadcastsInDim ⟨2, ![50000, C]⟩ (![0, 1] : Fin 2 → Fin 2)) (r : Fin 50000)
    (l : Fin C) : broadcastInDim ⟨2, ![50000, C]⟩ ![0, 1] h v (ix2 r l) = v (ix2 r 0) :=
  Cert.ColumnInDim.broadcastInDim_lanes v h r l

/-- A vector kept as a column and broadcast over the lanes is read at its row's entry. -/
theorem column_lanes_apply {C : Nat} (d : (⟨1, ![50000]⟩ : Shape).Idx → EReal)
    (h' : (⟨1, ![50000]⟩ : Shape).BroadcastsInDim ⟨2, ![50000, 1]⟩ (![0] : Fin 1 → Fin 2))
    (h : (⟨2, ![50000, 1]⟩ : Shape).BroadcastsInDim ⟨2, ![50000, C]⟩ (![0, 1] : Fin 2 → Fin 2)) (r : Fin 50000)
    (l : Fin C) :
    broadcastInDim ⟨2, ![50000, C]⟩ ![0, 1] h (broadcastInDim ⟨2, ![50000, 1]⟩ ![0] h' d) (ix2 r l) = d (ix1 r) := by
  rw [Cert.ColumnInDim.broadcastInDim_lanes, Cert.ColumnInDim.broadcastInDim_column]

/-- A bias vector laid out as one row and broadcast over the rows is read on its lane. -/
theorem bias_rows_apply (b : (⟨1, ![64]⟩ : Shape).Idx → EReal)
    (h' : (⟨1, ![64]⟩ : Shape).BroadcastsInDim ⟨2, ![1, 64]⟩ (![1] : Fin 1 → Fin 2))
    (h : (⟨2, ![1, 64]⟩ : Shape).BroadcastsInDim ⟨2, ![50000, 64]⟩ (![0, 1] : Fin 2 → Fin 2)) (r : Fin 50000)
    (j : Fin 64) :
    broadcastInDim ⟨2, ![50000, 64]⟩ ![0, 1] h (broadcastInDim ⟨2, ![1, 64]⟩ ![1] h' b) (ix2 r j) = b (ix1 j) := by
  rw [Cert.RowInDim.broadcastInDim_rows (by norm_num), Cert.RowOfVector.broadcastInDim_row (by norm_num)]

/-- The maximum with a broadcast zero. -/
theorem relu_apply {s : Shape} (a : FVec Ideal s .f32)
    (hb : (⟨0, ![]⟩ : Shape).BroadcastsInDim s (![] : Fin 0 → Fin s.rank)) (i : s.Idx) :
    maximumf a (broadcastInDim s ![] hb (constant (F := Ideal) ⟨0, ![]⟩ .f32 0x00000000#32)) i
      = max (a i) (Ideal.ofBits .f32 0x00000000#32) := rfl

/-- The host's quotient at an index. -/
theorem hostDiv_apply {s : Shape} (a b : FVec Ideal s .f32) (i : s.Idx) :
    Host.divf a b i = Ideal.div (a i) (b i) := rfl

/-- The host's matrix product with the plain dimension numbers is the row-by-column sum. -/
theorem hostDot_apply {R K C : Nat} (D : DotDims ⟨2, ![R, K]⟩ ⟨2, ![K, C]⟩ ⟨2, ![R, C]⟩) (hD : D = DotDims.plain R K C)
    (A : FVec Ideal ⟨2, ![R, K]⟩ .f32) (B : FVec Ideal ⟨2, ![K, C]⟩ .f32) (r : Fin R) (j : Fin C) :
    Host.dotGeneral D none A B (ix2 r j) = mmAt A B r j :=
  Cert.PlainDot.dotGeneral_apply D hD none .single A B r j

end Cert.Sage

end
-- ==== Proof.KernelFold0.lean ====
/-
  The kernel program's host stretches read over any buffer contents W.

  Before the first region: the two edge rows, the reciprocal column of the mean's divisor, and the four weight
  matrices transposed.  Between the regions: the previous region's output, gathered by the source indices,
  accumulated by the destination indices and scaled on each row by the reciprocal column — read at one entry as
  the aggregate times the reciprocal.  After the last region: the tail, one function of the last layer's output and
  four arguments.  Every other buffer a stretch does not write keeps its contents.
-/
import proofs.«145191_j28020366639688_2_alg».proof.Proof.Gen.KernelIdeal.Frame
import Idealize.ShloMosaic.Lib.StableHlo.Run
import proofs.«145191_j28020366639688_2_alg».proof.Proof.KernelTerms
import proofs.«145191_j28020366639688_2_alg».proof.Proof.SageReads

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx

/-- A buffer that no operation of a stretch writes keeps its contents. -/
macro "keep_host" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (W : Valuation τ sig (Elt Ideal))

/-! ## Before the first region -/

theorem ops0_v1 : after (hostOps0 (F := Ideal)) W (Proc.devRef .tc main_v1) = Terms.srcVec (W (Proc.devRef .tc main_arg1)) := by
  after_results_simp; rfl
theorem ops0_v3 : after (hostOps0 (F := Ideal)) W (Proc.devRef .tc main_v3) = Terms.dstVec (W (Proc.devRef .tc main_arg1)) := by
  after_results_simp; rfl
attribute [local irreducible] Host.gather Host.scatter Host.scatterAdd Host.reduceWindow in
set_option maxHeartbeats 1000000 in
theorem ops0_v12 : after (hostOps0 (F := Ideal)) W (Proc.devRef .tc main_v12)
    = Terms.invCol (Terms.siOf (Terms.dstVec (W (Proc.devRef .tc main_arg1)))) := by
  after_results_simp; rfl
theorem ops0_v13 : after (hostOps0 (F := Ideal)) W (Proc.devRef .tc main_v13)
    = transpose S128x64 [1, 0] (W (Proc.devRef .tc main_arg4)) Facts₀.transposes_S64x128_S128x64_1_0 := by
  after_results_simp
theorem ops0_v14 : after (hostOps0 (F := Ideal)) W (Proc.devRef .tc main_v14)
    = transpose S128x64 [1, 0] (W (Proc.devRef .tc main_arg5)) Facts₀.transposes_S64x128_S128x64_1_0 := by
  after_results_simp
theorem ops0_v15 : after (hostOps0 (F := Ideal)) W (Proc.devRef .tc main_v15)
    = transpose S64x64 [1, 0] (W (Proc.devRef .tc main_arg7)) Facts₀.transposes_S64x64_S64x64_1_0 := by
  after_results_simp
theorem ops0_v16 : after (hostOps0 (F := Ideal)) W (Proc.devRef .tc main_v16)
    = transpose S64x64 [1, 0] (W (Proc.devRef .tc main_arg8)) Facts₀.transposes_S64x64_S64x64_1_0 := by
  after_results_simp
theorem keep0_arg0 : after (hostOps0 (F := Ideal)) W (Proc.devRef .tc main_arg0) = W (Proc.devRef .tc main_arg0) := by keep_host hostOps0
theorem keep0_arg2 : after (hostOps0 (F := Ideal)) W (Proc.devRef .tc main_arg2) = W (Proc.devRef .tc main_arg2) := by keep_host hostOps0
theorem keep0_arg3 : after (hostOps0 (F := Ideal)) W (Proc.devRef .tc main_arg3) = W (Proc.devRef .tc main_arg3) := by keep_host hostOps0
theorem keep0_arg6 : after (hostOps0 (F := Ideal)) W (Proc.devRef .tc main_arg6) = W (Proc.devRef .tc main_arg6) := by keep_host hostOps0
theorem keep0_arg9 : after (hostOps0 (F := Ideal)) W (Proc.devRef .tc main_arg9) = W (Proc.devRef .tc main_arg9) := by keep_host hostOps0
theorem keep0_arg10 : after (hostOps0 (F := Ideal)) W (Proc.devRef .tc main_arg10) = W (Proc.devRef .tc main_arg10) := by keep_host hostOps0
theorem keep0_arg11 : after (hostOps0 (F := Ideal)) W (Proc.devRef .tc main_arg11) = W (Proc.devRef .tc main_arg11) := by keep_host hostOps0

end Cert.KernelIdeal.Fold

end
-- ==== Proof.KernelFold.lean ====
/-
  The kernel program's host stretches read over any buffer contents W.

  Before the first region: the two edge rows, the reciprocal column of the mean's divisor, and the four weight
  matrices transposed.  Between the regions: the previous region's output, gathered by the source indices,
  accumulated by the destination indices and scaled on each row by the reciprocal column — read at one entry as
  the aggregate times the reciprocal.  After the last region: the tail, one function of the last layer's output and
  four arguments.  Every other buffer a stretch does not write keeps its contents.
-/
import proofs.«145191_j28020366639688_2_alg».proof.Proof.Gen.KernelIdeal.Frame
import Idealize.ShloMosaic.Lib.StableHlo.Run
import proofs.«145191_j28020366639688_2_alg».proof.Proof.KernelTerms
import proofs.«145191_j28020366639688_2_alg».proof.Proof.KernelFold0
import proofs.«145191_j28020366639688_2_alg».proof.Proof.SageReads

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx

variable (W : Valuation τ sig (Elt Ideal))

/-! ## Between the regions: the mean of the previous output's rows -/

set_option maxHeartbeats 1000000 in
theorem ops1_mean (r : Fin 50000) (j : Fin 64) :
    (by exact after (hostOps1 (F := Ideal)) W (Proc.devRef .tc main_v31) : S50000x64.Idx → EReal) (ix2 r j)
      = Sage.aggAt (C := 64) (by exact W (Proc.devRef .tc main_v17)) (Terms.giOf (W (Proc.devRef .tc main_v1))) (Terms.siOf (W (Proc.devRef .tc main_v3))) r j
        * (by exact W (Proc.devRef .tc main_v12) : S50000x1.Idx → EReal) (ix2 r 0) := by
  after_results_simp
  rw [mulf_apply]
  exact congrArg₂ (· * ·)
    (Sage.agg_apply_conv (C := 64) _ rfl rfl rfl rfl _ rfl rfl rfl rfl rfl rfl rfl _ _ _ _ _ _ r j)
    (Sage.lanes_apply _ _ r j)
theorem keep1_arg0 : after (hostOps1 (F := Ideal)) W (Proc.devRef .tc main_arg0) = W (Proc.devRef .tc main_arg0) := by keep_host hostOps1
theorem keep1_v14 : after (hostOps1 (F := Ideal)) W (Proc.devRef .tc main_v14) = W (Proc.devRef .tc main_v14) := by keep_host hostOps1
theorem keep1_arg6 : after (hostOps1 (F := Ideal)) W (Proc.devRef .tc main_arg6) = W (Proc.devRef .tc main_arg6) := by keep_host hostOps1
theorem keep1_v1 : after (hostOps1 (F := Ideal)) W (Proc.devRef .tc main_v1) = W (Proc.devRef .tc main_v1) := by keep_host hostOps1
theorem keep1_v3 : after (hostOps1 (F := Ideal)) W (Proc.devRef .tc main_v3) = W (Proc.devRef .tc main_v3) := by keep_host hostOps1
theorem keep1_v12 : after (hostOps1 (F := Ideal)) W (Proc.devRef .tc main_v12) = W (Proc.devRef .tc main_v12) := by keep_host hostOps1
theorem keep1_v15 : after (hostOps1 (F := Ideal)) W (Proc.devRef .tc main_v15) = W (Proc.devRef .tc main_v15) := by keep_host hostOps1
theorem keep1_v16 : after (hostOps1 (F := Ideal)) W (Proc.devRef .tc main_v16) = W (Proc.devRef .tc main_v16) := by keep_host hostOps1
theorem keep1_arg9 : after (hostOps1 (F := Ideal)) W (Proc.devRef .tc main_arg9) = W (Proc.devRef .tc main_arg9) := by keep_host hostOps1
theorem keep1_arg2 : after (hostOps1 (F := Ideal)) W (Proc.devRef .tc main_arg2) = W (Proc.devRef .tc main_arg2) := by keep_host hostOps1
theorem keep1_arg3 : after (hostOps1 (F := Ideal)) W (Proc.devRef .tc main_arg3) = W (Proc.devRef .tc main_arg3) := by keep_host hostOps1
theorem keep1_arg10 : after (hostOps1 (F := Ideal)) W (Proc.devRef .tc main_arg10) = W (Proc.devRef .tc main_arg10) := by keep_host hostOps1
theorem keep1_arg11 : after (hostOps1 (F := Ideal)) W (Proc.devRef .tc main_arg11) = W (Proc.devRef .tc main_arg11) := by keep_host hostOps1

set_option maxHeartbeats 1000000 in
theorem ops2_mean (r : Fin 50000) (j : Fin 64) :
    (by exact after (hostOps2 (F := Ideal)) W (Proc.devRef .tc main_v46) : S50000x64.Idx → EReal) (ix2 r j)
      = Sage.aggAt (C := 64) (by exact W (Proc.devRef .tc main_v32)) (Terms.giOf (W (Proc.devRef .tc main_v1))) (Terms.siOf (W (Proc.devRef .tc main_v3))) r j
        * (by exact W (Proc.devRef .tc main_v12) : S50000x1.Idx → EReal) (ix2 r 0) := by
  after_results_simp
  rw [mulf_apply]
  exact congrArg₂ (· * ·)
    (Sage.agg_apply_conv (C := 64) _ rfl rfl rfl rfl _ rfl rfl rfl rfl rfl rfl rfl _ _ _ _ _ _ r j)
    (Sage.lanes_apply _ _ r j)
theorem keep2_v32 : after (hostOps2 (F := Ideal)) W (Proc.devRef .tc main_v32) = W (Proc.devRef .tc main_v32) := by keep_host hostOps2
theorem keep2_v15 : after (hostOps2 (F := Ideal)) W (Proc.devRef .tc main_v15) = W (Proc.devRef .tc main_v15) := by keep_host hostOps2
theorem keep2_v16 : after (hostOps2 (F := Ideal)) W (Proc.devRef .tc main_v16) = W (Proc.devRef .tc main_v16) := by keep_host hostOps2
theorem keep2_arg9 : after (hostOps2 (F := Ideal)) W (Proc.devRef .tc main_arg9) = W (Proc.devRef .tc main_arg9) := by keep_host hostOps2
theorem keep2_arg2 : after (hostOps2 (F := Ideal)) W (Proc.devRef .tc main_arg2) = W (Proc.devRef .tc main_arg2) := by keep_host hostOps2
theorem keep2_arg3 : after (hostOps2 (F := Ideal)) W (Proc.devRef .tc main_arg3) = W (Proc.devRef .tc main_arg3) := by keep_host hostOps2
theorem keep2_arg10 : after (hostOps2 (F := Ideal)) W (Proc.devRef .tc main_arg10) = W (Proc.devRef .tc main_arg10) := by keep_host hostOps2
theorem keep2_arg11 : after (hostOps2 (F := Ideal)) W (Proc.devRef .tc main_arg11) = W (Proc.devRef .tc main_arg11) := by keep_host hostOps2
theorem keep2_v1 : after (hostOps2 (F := Ideal)) W (Proc.devRef .tc main_v1) = W (Proc.devRef .tc main_v1) := by keep_host hostOps2

end Cert.KernelIdeal.Fold

end
-- ==== Proof.KernelFoldT.lean ====
/-
  The kernel program's host stretches read over any buffer contents W.

  Before the first region: the two edge rows, the reciprocal column of the mean's divisor, and the four weight
  matrices transposed.  Between the regions: the previous region's output, gathered by the source indices,
  accumulated by the destination indices and scaled on each row by the reciprocal column — read at one entry as
  the aggregate times the reciprocal.  After the last region: the tail, one function of the last layer's output and
  four arguments.  Every other buffer a stretch does not write keeps its contents.
-/
import proofs.«145191_j28020366639688_2_alg».proof.Proof.Gen.KernelIdeal.Frame
import Idealize.ShloMosaic.Lib.StableHlo.Run
import proofs.«145191_j28020366639688_2_alg».proof.Proof.KernelTerms
import proofs.«145191_j28020366639688_2_alg».proof.Proof.KernelFold0
import proofs.«145191_j28020366639688_2_alg».proof.Proof.SageReads

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx

variable (W : Valuation τ sig (Elt Ideal))

/-! ## After the last region: the tail, stretch by stretch -/

theorem t0_v48 : after (hostOps3 (F := Ideal)) W (Proc.devRef .tc main_v48) = Terms.zero500 := by
  after_results_simp; rfl
theorem t0_c9 : after (hostOps3 (F := Ideal)) W (Proc.devRef .tc main_c_9) = Terms.zeroWord := by
  after_results_simp; rfl
theorem keepT0_v47 : after (hostOps3 (F := Ideal)) W (Proc.devRef .tc main_v47) = W (Proc.devRef .tc main_v47) := by keep_host hostOps3
theorem keepT0_arg2 : after (hostOps3 (F := Ideal)) W (Proc.devRef .tc main_arg2) = W (Proc.devRef .tc main_arg2) := by keep_host hostOps3
theorem keepT0_arg3 : after (hostOps3 (F := Ideal)) W (Proc.devRef .tc main_arg3) = W (Proc.devRef .tc main_arg3) := by keep_host hostOps3
theorem keepT0_arg10 : after (hostOps3 (F := Ideal)) W (Proc.devRef .tc main_arg10) = W (Proc.devRef .tc main_arg10) := by keep_host hostOps3
theorem keepT0_arg11 : after (hostOps3 (F := Ideal)) W (Proc.devRef .tc main_arg11) = W (Proc.devRef .tc main_arg11) := by keep_host hostOps3

theorem t1_v49 : after (hostOps3_1 (F := Ideal)) W (Proc.devRef .tc main_v49) = Terms.clipOf (W (Proc.devRef .tc main_c_9)) (W (Proc.devRef .tc main_arg2)) := by
  after_results_simp; rfl
theorem keepT1_v47 : after (hostOps3_1 (F := Ideal)) W (Proc.devRef .tc main_v47) = W (Proc.devRef .tc main_v47) := by keep_host hostOps3_1
theorem keepT1_v48 : after (hostOps3_1 (F := Ideal)) W (Proc.devRef .tc main_v48) = W (Proc.devRef .tc main_v48) := by keep_host hostOps3_1
theorem keepT1_arg3 : after (hostOps3_1 (F := Ideal)) W (Proc.devRef .tc main_arg3) = W (Proc.devRef .tc main_arg3) := by keep_host hostOps3_1
theorem keepT1_arg10 : after (hostOps3_1 (F := Ideal)) W (Proc.devRef .tc main_arg10) = W (Proc.devRef .tc main_arg10) := by keep_host hostOps3_1
theorem keepT1_arg11 : after (hostOps3_1 (F := Ideal)) W (Proc.devRef .tc main_arg11) = W (Proc.devRef .tc main_arg11) := by keep_host hostOps3_1

attribute [local irreducible] Host.scatter in
theorem t2_v57 : after (hostOps3_2 (F := Ideal)) W (Proc.devRef .tc main_v57) = Terms.countsOf (W (Proc.devRef .tc main_v48)) (W (Proc.devRef .tc main_v49)) := by
  after_results_simp; rfl
theorem keepT2_v47 : after (hostOps3_2 (F := Ideal)) W (Proc.devRef .tc main_v47) = W (Proc.devRef .tc main_v47) := by keep_host hostOps3_2
theorem keepT2_arg3 : after (hostOps3_2 (F := Ideal)) W (Proc.devRef .tc main_arg3) = W (Proc.devRef .tc main_arg3) := by keep_host hostOps3_2
theorem keepT2_arg10 : after (hostOps3_2 (F := Ideal)) W (Proc.devRef .tc main_arg10) = W (Proc.devRef .tc main_arg10) := by keep_host hostOps3_2
theorem keepT2_arg11 : after (hostOps3_2 (F := Ideal)) W (Proc.devRef .tc main_arg11) = W (Proc.devRef .tc main_arg11) := by keep_host hostOps3_2

attribute [local irreducible] Host.reduceWindow in
theorem t3_v58 : after (hostOps3_3 (F := Ideal)) W (Proc.devRef .tc main_v58) = Terms.cumOf (W (Proc.devRef .tc main_v57)) := by
  after_results_simp; rfl
theorem keepT3_v47 : after (hostOps3_3 (F := Ideal)) W (Proc.devRef .tc main_v47) = W (Proc.devRef .tc main_v47) := by keep_host hostOps3_3
theorem keepT3_v57 : after (hostOps3_3 (F := Ideal)) W (Proc.devRef .tc main_v57) = W (Proc.devRef .tc main_v57) := by keep_host hostOps3_3
theorem keepT3_arg3 : after (hostOps3_3 (F := Ideal)) W (Proc.devRef .tc main_arg3) = W (Proc.devRef .tc main_arg3) := by keep_host hostOps3_3
theorem keepT3_arg10 : after (hostOps3_3 (F := Ideal)) W (Proc.devRef .tc main_arg10) = W (Proc.devRef .tc main_arg10) := by keep_host hostOps3_3
theorem keepT3_arg11 : after (hostOps3_3 (F := Ideal)) W (Proc.devRef .tc main_arg11) = W (Proc.devRef .tc main_arg11) := by keep_host hostOps3_3

attribute [local irreducible] Host.gather in
set_option maxHeartbeats 1000000 in
theorem t4_v73 : after (hostOps3_4 (F := Ideal)) W (Proc.devRef .tc main_v73)
    = Terms.tail4 (W (Proc.devRef .tc main_v47)) (W (Proc.devRef .tc main_v58)) (W (Proc.devRef .tc main_v57)) (W (Proc.devRef .tc main_arg3))
        (W (Proc.devRef .tc main_arg10)) (W (Proc.devRef .tc main_arg11)) := by
  after_results_simp; rfl

/-- The five stretches after the last region compute the tail. -/
theorem tail_eq : after (hostOps3_4 (F := Ideal)) (after hostOps3_3 (after hostOps3_2 (after hostOps3_1 (after hostOps3 W))))
      (Proc.devRef .tc main_v73)
    = Terms.tailFn (W (Proc.devRef .tc main_v47)) (W (Proc.devRef .tc main_arg2)) (W (Proc.devRef .tc main_arg3)) (W (Proc.devRef .tc main_arg10))
        (W (Proc.devRef .tc main_arg11)) := by
  rw [t4_v73, t3_v58, keepT3_v47, keepT3_v57, keepT3_arg3, keepT3_arg10, keepT3_arg11,
    t2_v57, keepT2_v47, keepT2_arg3, keepT2_arg10, keepT2_arg11,
    t1_v49, keepT1_v47, keepT1_v48, keepT1_arg3, keepT1_arg10, keepT1_arg11,
    t0_v48, t0_c9, keepT0_v47, keepT0_arg2, keepT0_arg3, keepT0_arg10, keepT0_arg11]
  rfl

end Cert.KernelIdeal.Fold

end
-- ==== Proof.RegionValue0.lean ====
/-
  The first region's output array — the node features times a weight matrix — read at one entry.

  The region walks ten grid points; point t stages rows 5000·t … 5000·t + 4999 of each row-blocked array and the
  whole of each weight matrix and bias vector, and writes back rows 5000·t … 5000·t + 4999 of the output.  The
  body's result at block entry (p, q) depends on row p of the row-blocked inputs only, so what point t writes back
  is block t of ONE function of the whole arrays, read row by row; row r of the output lies in the block of point
  r / 5000, so the ten blocks cover the output and it ends holding that function.  The format changes of the matrix
  product's operands are the identity at the ideal values and a product into the zero accumulator is the plain sum
  over the contracted coordinate, so no finiteness is asked.

  Here the function is entry (r, j) ↦ Σ_k x(r, k) · w(k, j), x the node features and w the weights.
-/
import proofs.«145191_j28020366639688_2_alg».proof.Proof.Gen.KernelIdeal.Frame
import proofs.«145191_j28020366639688_2_alg».proof.Proof.LibPlainDot
import Idealize.ShloMosaic.Lib.Pipeline.Value

set_option maxRecDepth 16384

noncomputable section

open scoped BigOperators

namespace Cert.KernelIdeal.RegionValues

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a rank-2 buffer's whole rectangle. -/
private theorem zero2 : (![0, 0] : Fin 2 → Nat) = fun _ => 0 := funext fun a => by fin_cases a <;> rfl

/-- A rank-2 index with known coordinates is the index built from them. -/
private theorem eq_ix2_of_val {n0 n1 : Nat} (i : (⟨2, ![n0, n1]⟩ : Shape).Idx) (r : Fin n0) (j : Fin n1)
    (h0 : (i 0).val = r.val) (h1 : (i 1).val = j.val) : i = ix2 r j := by
  funext a
  apply Fin.ext
  match a with
  | ⟨0, _⟩ => exact h0
  | ⟨1, _⟩ => exact h1

/-- The body's result at block entry (p, q): row p of the staged rows times column q of the weights. -/
theorem pay0_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  refine (Cert.PlainDot.matmul_zero_apply dot_S5000x128_S128x64_S5000x64_1_0_0_1_n_n rfl none _ _ p q).trans ?_
  refine Finset.sum_congr rfl fun k _ => ?_
  rw [shapeCast_self]
  rfl

/-- The three windows' index maps over the ten points: the row-blocked windows sit at block row t, the weights at
    block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's block of the features is rows 5000·t … of the array. -/
theorem blk0_0 (c : Dev nD) (t : Fin cfg0.N) (x : S5000x128.Idx) (i : S50000x128.Idx)
    (h0 : (i 0).val = t.val * 5000 + (x 0).val) (h1 : (i 1).val = (x 1).val) :
    (iblk0 V c 0 t : Vec Ideal S5000x128 .f32) x = (V c main_arg0 : S50000x128.Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * (x 0).val = (i 0).val; omega
  | ⟨1, _⟩ => show win0_0.index t 1 * 128 + 1 * (x 1).val = (i 1).val; omega

/-- Every point's block of the weights is the whole matrix. -/
theorem blk0_1 (c : Dev nD) (t : Fin cfg0.N) (x : S128x64.Idx) :
    (iblk0 V c 1 t : Vec Ideal S128x64 .f32) x = (V c main_v13 : S128x64.Idx → EReal) x := by
  obtain ⟨-, -, e0, e1, -⟩ := idx0 t
  unfold iblk0
  rw [View.read_apply]
  show V c main_v13 _ = V c main_v13 _
  congr 1
  funext a
  apply Fin.ext
  match a with
  | ⟨0, _⟩ => show win0_1.index t 0 * 128 + 1 * (x 0).val = (x 0).val; omega
  | ⟨1, _⟩ => show win0_1.index t 1 * 64 + 1 * (x 1).val = (x 1).val; omega

/-- The projected features: entry (r, j) is row r of x times column j of w. -/
def proj (x : S50000x128.Idx → EReal) (w : S128x64.Idx → EReal) : S50000x64.Idx → EReal :=
  fun i => ∑ k : Fin 128, x (ix2 (n0 := 50000) (i 0) k) * w (ix2 (n1 := 64) k (i 1))

theorem proj_apply (x : S50000x128.Idx → EReal) (w : S128x64.Idx → EReal) (r : Fin 50000) (j : Fin 64) :
    proj x w (ix2 r j) = ∑ k : Fin 128, x (ix2 r k) * w (ix2 k j) := rfl

/-- What point t writes back is block t of the projected features. -/
theorem flushed0 (c : Dev nD) (t : Fin cfg0.N) :
    (dat0 V c).flushed 2 t
      = ((cfg0.win 2).blk t).view.read (Elt Ideal) (proj (V c main_arg0) (V c main_v13)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x64) zero2]
  obtain ⟨-, -, -, -, e0, e1⟩ := idx0 t
  have ht : t.val < 10 := lt_of_lt_of_eq t.isLt N_0
  funext y
  obtain ⟨p, q, rfl⟩ : ∃ (p : Fin 5000) (q : Fin 64), y = ix2 p q := ⟨y 0, y 1, eq_ix2 y⟩
  obtain ⟨r, hr⟩ : ∃ r : Fin 50000, r.val = t.val * 5000 + p.val := ⟨⟨_, by have := p.isLt; omega⟩, rfl⟩
  rw [View.read_apply]
  show k0_pay1 (iblk0 V c 0 t) (iblk0 V c 1 t) (ix2 p q)
    = proj (V c main_arg0) (V c main_v13) (((cfg0.win 2).blk t).view.emb (ix2 p q))
  have hi : ((cfg0.win 2).blk t).view.emb (ix2 p q) = ix2 r q := by
    refine eq_ix2_of_val _ r q ?_ ?_
    · show win0_2.index t 0 * 5000 + 1 * p.val = r.val; omega
    · show win0_2.index t 1 * 64 + 1 * q.val = q.val; omega
  rw [hi, proj_apply]
  refine (pay0_apply _ _ p q).trans ?_
  refine Finset.sum_congr rfl fun k _ => ?_
  rw [blk0_0 V c t (ix2 p k) (ix2 r k) hr rfl, blk0_1 V c t (ix2 k q)]

/-- An index of the output is in point t's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v17).slice (win0_2.rect t)).set ↔ _
  rw [View.set_slice_whole, Rect.mem_set_unit]
  exact Iff.rfl

/-- Row r of the output is written back by point r / 5000. -/
theorem cover0 (i : S50000x64.Idx) :
    ∃ t : Fin cfg0.N, (cfg0.win 2).flush t = true ∧ i ∈ ((cfg0.win 2).blk t).view.set := by
  have hi0 : (i 0).val < 50000 := idx2_lt0 i
  have hi1 : (i 1).val < 64 := idx2_lt1 i
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, e0, e1⟩ := idx0 t
  refine ⟨t, flush0_2 t, ?_⟩
  rw [mem_blk0]
  intro a
  match a with
  | ⟨0, _⟩ =>
    show win0_2.index t 0 * 5000 ≤ (i 0).val ∧ (i 0).val < win0_2.index t 0 * 5000 + 5000
    omega
  | ⟨1, _⟩ =>
    show win0_2.index t 1 * 64 ≤ (i 1).val ∧ (i 1).val < win0_2.index t 1 * 64 + 64
    omega

/-- After the region its output array holds the projected features. -/
theorem region0_array (c : Dev nD) :
    (dat0 V c).arrAt 2 cfg0.N = proj (V c main_arg0) (V c main_v13) :=
  (dat0 V c).arrAt_eq_of_cover 2 (proj (V c main_arg0) (V c main_v13)) (fun t _ => flushed0 V c t) cover0

/-- Region 0's output at entry (r, j). -/
theorem region0_value (c : Dev nD) (r : Fin 50000) (j : Fin 64) :
    (by exact (dat0 V c).arrAt 2 cfg0.N : S50000x64.Idx → EReal) (ix2 r j)
      = ∑ k : Fin 128, (by exact V c main_arg0 : S50000x128.Idx → EReal) (ix2 r k)
          * (by exact V c main_v13 : S128x64.Idx → EReal) (ix2 k j) := by
  show (dat0 V c).arrAt 2 cfg0.N (ix2 r j) = _
  rw [region0_array]
  rfl

end Cert.KernelIdeal.RegionValues

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.RegionValue1.lean ====
/-
  The second region's output array — the first layer — read at one entry.

  The region walks ten grid points; point t stages rows 5000·t … 5000·t + 4999 of each row-blocked array and the
  whole of each weight matrix and bias vector, and writes back rows 5000·t … 5000·t + 4999 of the output.  The
  body's result at block entry (p, q) depends on row p of the row-blocked inputs only, so what point t writes back
  is block t of ONE function of the whole arrays, read row by row; row r of the output lies in the block of point
  r / 5000, so the ten blocks cover the output and it ends holding that function.  The format changes of the matrix
  product's operands are the identity at the ideal values and a product into the zero accumulator is the plain sum
  over the contracted coordinate, so no finiteness is asked.

  Here the function is entry (r, j) ↦ max((Σ_k x(r, k) · w(k, j) + a(r, j)) + b(j), 0): x the node features, w the
  weights, a the neighbours' aggregate, b the bias copied to every row.
-/
import proofs.«145191_j28020366639688_2_alg».proof.Proof.Gen.KernelIdeal.Frame
import proofs.«145191_j28020366639688_2_alg».proof.Proof.LibPlainDot
import proofs.«145191_j28020366639688_2_alg».proof.Proof.LibRowVector
import Idealize.ShloMosaic.Lib.Pipeline.Value

set_option maxRecDepth 16384

noncomputable section

open scoped BigOperators

namespace Cert.KernelIdeal.RegionValues

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a rank-2 buffer's whole rectangle. -/
private theorem zero2 : (![0, 0] : Fin 2 → Nat) = fun _ => 0 := funext fun a => by fin_cases a <;> rfl

/-- The zero offset of a rank-1 buffer's whole rectangle. -/
private theorem zero1 : (![0] : Fin 1 → Nat) = fun _ => 0 := funext fun a => by fin_cases a <;> rfl

/-- A rank-2 index with known coordinates is the index built from them. -/
private theorem eq_ix2_of_val {n0 n1 : Nat} (i : (⟨2, ![n0, n1]⟩ : Shape).Idx) (r : Fin n0) (j : Fin n1)
    (h0 : (i 0).val = r.val) (h1 : (i 1).val = j.val) : i = ix2 r j := by
  funext a
  apply Fin.ext
  match a with
  | ⟨0, _⟩ => exact h0
  | ⟨1, _⟩ => exact h1

/-- The body's result at block entry (p, q): row p of the staged features times column q of the weights, plus the
    staged aggregate at (p, q), plus the bias at q, clamped below at zero. -/
theorem pay1_apply (x0 : Vec Ideal S5000x64 .f32) (x1 : Vec Ideal S5000x128 .f32) (x2 : Vec Ideal S128x64 .f32)
    (x3 : Vec Ideal S64 .f32) (p : Fin 5000) (q : Fin 64) :
    k1_pay1 x0 x1 x2 x3 (ix2 p q)
      = max (((∑ k : Fin 128, x1 (ix2 p k) * x2 (ix2 k q)) + x0 (ix2 p q)) + x3 (ix1 q))
          (Ideal.ofBits .f32 0x00000000#32) := by
  unfold k1_pay1
  simp only [maximumf_apply, addf_apply, broadcast_apply]
  refine congrArg₂ max (congrArg₂ (· + ·) (congrArg₂ (· + ·) ?_ ?_) ?_) rfl
  · refine (Cert.PlainDot.matmul_zero_apply dot_S5000x128_S128x64_S5000x64_1_0_0_1_n_n rfl none _ _ p q).trans ?_
    refine Finset.sum_congr rfl fun k _ => ?_
    rw [shapeCast_self]
    rfl
  · rw [shapeCast_self]
  · refine (Cert.RowVector.broadcastTo_row (by decide) _ _ p q).trans ?_
    rw [shapeCast_self]
    exact Cert.RowVector.shapeCast_row _ _ q

/-- The five windows' index maps over the ten points: the row-blocked windows sit at block row t, the weights and
    the bias at block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Point t's block of the aggregate is rows 5000·t … of the array. -/
theorem blk1_0 (c : Dev nD) (t : Fin cfg1.N) (x : S5000x64.Idx) (i : S50000x64.Idx)
    (h0 : (i 0).val = t.val * 5000 + (x 0).val) (h1 : (i 1).val = (x 1).val) :
    (iblk1 V c 0 t : Vec Ideal S5000x64 .f32) x = (V c main_v31 : S50000x64.Idx → EReal) i := by
  obtain ⟨e0, e1, -⟩ := idx1 t
  unfold iblk1
  rw [View.read_apply]
  show V c main_v31 _ = V c main_v31 _
  congr 1
  funext a
  apply Fin.ext
  match a with
  | ⟨0, _⟩ => show win1_0.index t 0 * 5000 + 1 * (x 0).val = (i 0).val; omega
  | ⟨1, _⟩ => show win1_0.index t 1 * 64 + 1 * (x 1).val = (i 1).val; omega

/-- Point t's block of the features is rows 5000·t … of the array. -/
theorem blk1_1 (c : Dev nD) (t : Fin cfg1.N) (x : S5000x128.Idx) (i : S50000x128.Idx)
    (h0 : (i 0).val = t.val * 5000 + (x 0).val) (h1 : (i 1).val = (x 1).val) :
    (iblk1 V c 1 t : Vec Ideal S5000x128 .f32) x = (V c main_arg0 : S50000x128.Idx → EReal) i := by
  obtain ⟨-, -, e0, e1, -⟩ := idx1 t
  unfold iblk1
  rw [View.read_apply]
  show V c main_arg0 _ = V c main_arg0 _
  congr 1
  funext a
  apply Fin.ext
  match a with
  | ⟨0, _⟩ => show win1_1.index t 0 * 5000 + 1 * (x 0).val = (i 0).val; omega
  | ⟨1, _⟩ => show win1_1.index t 1 * 128 + 1 * (x 1).val = (i 1).val; omega

/-- Every point's block of the weights is the whole matrix. -/
theorem blk1_2 (c : Dev nD) (t : Fin cfg1.N) (x : S128x64.Idx) :
    (iblk1 V c 2 t : Vec Ideal S128x64 .f32) x = (V c main_v14 : S128x64.Idx → EReal) x := by
  obtain ⟨-, -, -, -, e0, e1, -⟩ := idx1 t
  unfold iblk1
  rw [View.read_apply]
  show V c main_v14 _ = V c main_v14 _
  congr 1
  funext a
  apply Fin.ext
  match a with
  | ⟨0, _⟩ => show win1_2.index t 0 * 128 + 1 * (x 0).val = (x 0).val; omega
  | ⟨1, _⟩ => show win1_2.index t 1 * 64 + 1 * (x 1).val = (x 1).val; omega

/-- Every point's block of the bias is the whole vector. -/
theorem blk1_3 (c : Dev nD) (t : Fin cfg1.N) (x : S64.Idx) :
    (iblk1 V c 3 t : Vec Ideal S64 .f32) x = (V c main_arg6 : S64.Idx → EReal) x := by
  obtain ⟨-, -, -, -, -, -, e0, -⟩ := idx1 t
  unfold iblk1
  rw [View.read_apply]
  show V c main_arg6 _ = V c main_arg6 _
  congr 1
  funext a
  apply Fin.ext
  match a with
  | ⟨0, _⟩ => show win1_3.index t 0 * 64 + 1 * (x 0).val = (x 0).val; omega

/-- The first layer: entry (r, j) is row r of x times column j of w, plus a(r, j), plus b(j), clamped below at
    zero. -/
def layer1 (a : S50000x64.Idx → EReal) (x : S50000x128.Idx → EReal) (w : S128x64.Idx → EReal)
    (b : S64.Idx → EReal) : S50000x64.Idx → EReal :=
  fun i => max (((∑ k : Fin 128, x (ix2 (n0 := 50000) (i 0) k) * w (ix2 (n1 := 64) k (i 1))) + a i)
      + b (ix1 (n := 64) (i 1))) (Ideal.ofBits .f32 0x00000000#32)

theorem layer1_apply (a : S50000x64.Idx → EReal) (x : S50000x128.Idx → EReal) (w : S128x64.Idx → EReal)
    (b : S64.Idx → EReal) (r : Fin 50000) (j : Fin 64) :
    layer1 a x w b (ix2 r j)
      = max (((∑ k : Fin 128, x (ix2 r k) * w (ix2 k j)) + a (ix2 r j)) + b (ix1 j))
          (Ideal.ofBits .f32 0x00000000#32) := rfl

/-- What point t writes back is block t of the first layer. -/
theorem flushed1 (c : Dev nD) (t : Fin cfg1.N) :
    (dat1 V c).flushed 4 t = ((cfg1.win 4).blk t).view.read (Elt Ideal)
      (layer1 (V c main_v31) (V c main_arg0) (V c main_v14) (V c main_arg6)) := by
  show (cfg1.win 4).cut (grid1.coords t) ((dat1 V c).after 4 t) = _
  rw [after1_4]
  unfold out1_4
  rw [View.canon_unit_zero zero2]
  simp only [View.ld_unit_zero (S := S5000x64) zero2, View.ld_unit_zero (S := S5000x128) zero2,
    View.ld_unit_zero (S := S128x64) zero2, View.ld_unit_zero (S := S64) zero1]
  obtain ⟨-, -, -, -, -, -, -, e0, e1⟩ := idx1 t
  have ht : t.val < 10 := lt_of_lt_of_eq t.isLt N_1
  funext y
  obtain ⟨p, q, rfl⟩ : ∃ (p : Fin 5000) (q : Fin 64), y = ix2 p q := ⟨y 0, y 1, eq_ix2 y⟩
  obtain ⟨r, hr⟩ : ∃ r : Fin 50000, r.val = t.val * 5000 + p.val := ⟨⟨_, by have := p.isLt; omega⟩, rfl⟩
  rw [View.read_apply]
  show k1_pay1 (iblk1 V c 0 t) (iblk1 V c 1 t) (iblk1 V c 2 t) (iblk1 V c 3 t) (ix2 p q)
    = layer1 (V c main_v31) (V c main_arg0) (V c main_v14) (V c main_arg6) (((cfg1.win 4).blk t).view.emb (ix2 p q))
  have hi : ((cfg1.win 4).blk t).view.emb (ix2 p q) = ix2 r q := by
    refine eq_ix2_of_val _ r q ?_ ?_
    · show win1_4.index t 0 * 5000 + 1 * p.val = r.val; omega
    · show win1_4.index t 1 * 64 + 1 * q.val = q.val; omega
  rw [hi, layer1_apply]
  refine (pay1_apply _ _ _ _ p q).trans ?_
  rw [blk1_0 V c t (ix2 p q) (ix2 r q) hr rfl, blk1_3 V c t (ix1 q)]
  refine congrArg (fun s => max ((s + _) + _) _) ?_
  refine Finset.sum_congr rfl fun k _ => ?_
  rw [blk1_1 V c t (ix2 p k) (ix2 r k) hr rfl, blk1_2 V c t (ix2 k q)]

/-- An index of the output is in point t's block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v32).slice (win1_4.rect t)).set ↔ _
  rw [View.set_slice_whole, Rect.mem_set_unit]
  exact Iff.rfl

/-- Row r of the output is written back by point r / 5000. -/
theorem cover1 (i : S50000x64.Idx) :
    ∃ t : Fin cfg1.N, (cfg1.win 4).flush t = true ∧ i ∈ ((cfg1.win 4).blk t).view.set := by
  have hi0 : (i 0).val < 50000 := idx2_lt0 i
  have hi1 : (i 1).val < 64 := idx2_lt1 i
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, e0, e1⟩ := idx1 t
  refine ⟨t, flush1_4 t, ?_⟩
  rw [mem_blk1]
  intro a
  match a with
  | ⟨0, _⟩ =>
    show win1_4.index t 0 * 5000 ≤ (i 0).val ∧ (i 0).val < win1_4.index t 0 * 5000 + 5000
    omega
  | ⟨1, _⟩ =>
    show win1_4.index t 1 * 64 ≤ (i 1).val ∧ (i 1).val < win1_4.index t 1 * 64 + 64
    omega

/-- After the region its output array holds the first layer. -/
theorem region1_array (c : Dev nD) :
    (dat1 V c).arrAt 4 cfg1.N = layer1 (V c main_v31) (V c main_arg0) (V c main_v14) (V c main_arg6) :=
  (dat1 V c).arrAt_eq_of_cover 4 (layer1 (V c main_v31) (V c main_arg0) (V c main_v14) (V c main_arg6))
    (fun t _ => flushed1 V c t) cover1

/-- Region 1's output at entry (r, j). -/
theorem region1_value (c : Dev nD) (r : Fin 50000) (j : Fin 64) :
    (by exact (dat1 V c).arrAt 4 cfg1.N : S50000x64.Idx → EReal) (ix2 r j)
      = max (((∑ k : Fin 128, (by exact V c main_arg0 : S50000x128.Idx → EReal) (ix2 r k)
            * (by exact V c main_v14 : S128x64.Idx → EReal) (ix2 k j))
          + (by exact V c main_v31 : S50000x64.Idx → EReal) (ix2 r j))
          + (by exact V c main_arg6 : S64.Idx → EReal) (ix1 j)) (Ideal.ofBits .f32 0x00000000#32) := by
  show (dat1 V c).arrAt 4 cfg1.N (ix2 r j) = _
  rw [region1_array]
  rfl

end Cert.KernelIdeal.RegionValues

end
-- ==== Proof.RegionValue2.lean ====
/-
  The third region's output array — the second layer — read at one entry.

  The region walks ten grid points; point t stages rows 5000·t … 5000·t + 4999 of each row-blocked array and the
  whole of each weight matrix and bias vector, and writes back rows 5000·t … 5000·t + 4999 of the output.  The
  body's result at block entry (p, q) depends on row p of the row-blocked inputs only, so what point t writes back
  is block t of ONE function of the whole arrays, read row by row; row r of the output lies in the block of point
  r / 5000, so the ten blocks cover the output and it ends holding that function.  The format changes of the matrix
  product's operands are the identity at the ideal values and a product into the zero accumulator is the plain sum
  over the contracted coordinate, so no finiteness is asked.

  Here the function is entry (r, j) ↦ max((Σ_k a(r, k) · w(k, j) + Σ_k h(r, k) · u(k, j)) + b(j), 0): a the neighbours'
  aggregate, h the first layer's rows, w and u the two weight matrices, b the bias copied to every row.
-/
import proofs.«145191_j28020366639688_2_alg».proof.Proof.Gen.KernelIdeal.Frame
import proofs.«145191_j28020366639688_2_alg».proof.Proof.LibPlainDot
import proofs.«145191_j28020366639688_2_alg».proof.Proof.LibRowVector
import Idealize.ShloMosaic.Lib.Pipeline.Value

set_option maxRecDepth 16384

noncomputable section

open scoped BigOperators

namespace Cert.KernelIdeal.RegionValues

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a rank-2 buffer's whole rectangle. -/
private theorem zero2 : (![0, 0] : Fin 2 → Nat) = fun _ => 0 := funext fun a => by fin_cases a <;> rfl

/-- The zero offset of a rank-1 buffer's whole rectangle. -/
private theorem zero1 : (![0] : Fin 1 → Nat) = fun _ => 0 := funext fun a => by fin_cases a <;> rfl

/-- A rank-2 index with known coordinates is the index built from them. -/
private theorem eq_ix2_of_val {n0 n1 : Nat} (i : (⟨2, ![n0, n1]⟩ : Shape).Idx) (r : Fin n0) (j : Fin n1)
    (h0 : (i 0).val = r.val) (h1 : (i 1).val = j.val) : i = ix2 r j := by
  funext a
  apply Fin.ext
  match a with
  | ⟨0, _⟩ => exact h0
  | ⟨1, _⟩ => exact h1

/-- The body's result at block entry (p, q): row p of the staged aggregate times column q of the first weights, plus
    row p of the staged hidden rows times column q of the second weights, plus the bias at q, clamped below at zero. -/
theorem pay2_apply (x0 : Vec Ideal S5000x64 .f32) (x1 : Vec Ideal S5000x64 .f32) (x2 : Vec Ideal S64x64 .f32)
    (x3 : Vec Ideal S64x64 .f32) (x4 : Vec Ideal S64 .f32) (p : Fin 5000) (q : Fin 64) :
    k2_pay1 x0 x1 x2 x3 x4 (ix2 p q)
      = max (((∑ k : Fin 64, x0 (ix2 p k) * x2 (ix2 k q)) + (∑ k : Fin 64, x1 (ix2 p k) * x3 (ix2 k q)))
          + x4 (ix1 q)) (Ideal.ofBits .f32 0x00000000#32) := by
  unfold k2_pay1
  simp only [maximumf_apply, addf_apply, broadcast_apply]
  refine congrArg₂ max (congrArg₂ (· + ·) (congrArg₂ (· + ·) ?_ ?_) ?_) rfl
  · refine (Cert.PlainDot.matmul_zero_apply dot_S5000x64_S64x64_S5000x64_1_0_0_1_n_n rfl none _ _ p q).trans ?_
    refine Finset.sum_congr rfl fun k _ => ?_
    rw [shapeCast_self, shapeCast_self]
    rfl
  · refine (Cert.PlainDot.matmul_zero_apply dot_S5000x64_S64x64_S5000x64_1_0_0_1_n_n rfl none _ _ p q).trans ?_
    refine Finset.sum_congr rfl fun k _ => ?_
    rw [shapeCast_self, shapeCast_self]
    rfl
  · refine (Cert.RowVector.broadcastTo_row (by decide) _ _ p q).trans ?_
    rw [shapeCast_self]
    exact Cert.RowVector.shapeCast_row _ _ q

/-- The six windows' index maps over the ten points: the row-blocked windows sit at block row t, the weights and
    the bias at block zero. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Point t's block of the aggregate is rows 5000·t … of the array. -/
theorem blk2_0 (c : Dev nD) (t : Fin cfg2.N) (x : S5000x64.Idx) (i : S50000x64.Idx)
    (h0 : (i 0).val = t.val * 5000 + (x 0).val) (h1 : (i 1).val = (x 1).val) :
    (iblk2 V c 0 t : Vec Ideal S5000x64 .f32) x = (V c main_v46 : S50000x64.Idx → EReal) i := by
  obtain ⟨e0, e1, -⟩ := idx2 t
  unfold iblk2
  rw [View.read_apply]
  show V c main_v46 _ = V c main_v46 _
  congr 1
  funext a
  apply Fin.ext
  match a with
  | ⟨0, _⟩ => show win2_0.index t 0 * 5000 + 1 * (x 0).val = (i 0).val; omega
  | ⟨1, _⟩ => show win2_0.index t 1 * 64 + 1 * (x 1).val = (i 1).val; omega

/-- Point t's block of the hidden rows is rows 5000·t … of the array. -/
theorem blk2_1 (c : Dev nD) (t : Fin cfg2.N) (x : S5000x64.Idx) (i : S50000x64.Idx)
    (h0 : (i 0).val = t.val * 5000 + (x 0).val) (h1 : (i 1).val = (x 1).val) :
    (iblk2 V c 1 t : Vec Ideal S5000x64 .f32) x = (V c main_v32 : S50000x64.Idx → EReal) i := by
  obtain ⟨-, -, e0, e1, -⟩ := idx2 t
  unfold iblk2
  rw [View.read_apply]
  show V c main_v32 _ = V c main_v32 _
  congr 1
  funext a
  apply Fin.ext
  match a with
  | ⟨0, _⟩ => show win2_1.index t 0 * 5000 + 1 * (x 0).val = (i 0).val; omega
  | ⟨1, _⟩ => show win2_1.index t 1 * 64 + 1 * (x 1).val = (i 1).val; omega

/-- Every point's block of the first weights is the whole matrix. -/
theorem blk2_2 (c : Dev nD) (t : Fin cfg2.N) (x : S64x64.Idx) :
    (iblk2 V c 2 t : Vec Ideal S64x64 .f32) x = (V c main_v15 : S64x64.Idx → EReal) x := by
  obtain ⟨-, -, -, -, e0, e1, -⟩ := idx2 t
  unfold iblk2
  rw [View.read_apply]
  show V c main_v15 _ = V c main_v15 _
  congr 1
  funext a
  apply Fin.ext
  match a with
  | ⟨0, _⟩ => show win2_2.index t 0 * 64 + 1 * (x 0).val = (x 0).val; omega
  | ⟨1, _⟩ => show win2_2.index t 1 * 64 + 1 * (x 1).val = (x 1).val; omega

/-- Every point's block of the second weights is the whole matrix. -/
theorem blk2_3 (c : Dev nD) (t : Fin cfg2.N) (x : S64x64.Idx) :
    (iblk2 V c 3 t : Vec Ideal S64x64 .f32) x = (V c main_v16 : S64x64.Idx → EReal) x := by
  obtain ⟨-, -, -, -, -, -, e0, e1, -⟩ := idx2 t
  unfold iblk2
  rw [View.read_apply]
  show V c main_v16 _ = V c main_v16 _
  congr 1
  funext a
  apply Fin.ext
  match a with
  | ⟨0, _⟩ => show win2_3.index t 0 * 64 + 1 * (x 0).val = (x 0).val; omega
  | ⟨1, _⟩ => show win2_3.index t 1 * 64 + 1 * (x 1).val = (x 1).val; omega

/-- Every point's block of the bias is the whole vector. -/
theorem blk2_4 (c : Dev nD) (t : Fin cfg2.N) (x : S64.Idx) :
    (iblk2 V c 4 t : Vec Ideal S64 .f32) x = (V c main_arg9 : S64.Idx → EReal) x := by
  obtain ⟨-, -, -, -, -, -, -, -, e0, -⟩ := idx2 t
  unfold iblk2
  rw [View.read_apply]
  show V c main_arg9 _ = V c main_arg9 _
  congr 1
  funext a
  apply Fin.ext
  match a with
  | ⟨0, _⟩ => show win2_4.index t 0 * 64 + 1 * (x 0).val = (x 0).val; omega

/-- The second layer: entry (r, j) is row r of a times column j of w, plus row r of h times column j of u, plus
    b(j), clamped below at zero. -/
def layer2 (a : S50000x64.Idx → EReal) (h : S50000x64.Idx → EReal) (w : S64x64.Idx → EReal)
    (u : S64x64.Idx → EReal) (b : S64.Idx → EReal) : S50000x64.Idx → EReal :=
  fun i => max (((∑ k : Fin 64, a (ix2 (n0 := 50000) (i 0) k) * w (ix2 (n1 := 64) k (i 1)))
        + (∑ k : Fin 64, h (ix2 (n0 := 50000) (i 0) k) * u (ix2 (n1 := 64) k (i 1))))
      + b (ix1 (n := 64) (i 1))) (Ideal.ofBits .f32 0x00000000#32)

theorem layer2_apply (a : S50000x64.Idx → EReal) (h : S50000x64.Idx → EReal) (w : S64x64.Idx → EReal)
    (u : S64x64.Idx → EReal) (b : S64.Idx → EReal) (r : Fin 50000) (j : Fin 64) :
    layer2 a h w u b (ix2 r j)
      = max (((∑ k : Fin 64, a (ix2 r k) * w (ix2 k j)) + (∑ k : Fin 64, h (ix2 r k) * u (ix2 k j)))
          + b (ix1 j)) (Ideal.ofBits .f32 0x00000000#32) := rfl

/-- What point t writes back is block t of the second layer. -/
theorem flushed2 (c : Dev nD) (t : Fin cfg2.N) :
    (dat2 V c).flushed 5 t = ((cfg2.win 5).blk t).view.read (Elt Ideal)
      (layer2 (V c main_v46) (V c main_v32) (V c main_v15) (V c main_v16) (V c main_arg9)) := by
  show (cfg2.win 5).cut (grid2.coords t) ((dat2 V c).after 5 t) = _
  rw [after2_5]
  unfold out2_5
  rw [View.canon_unit_zero zero2]
  simp only [View.ld_unit_zero (S := S5000x64) zero2, View.ld_unit_zero (S := S64x64) zero2,
    View.ld_unit_zero (S := S64) zero1]
  obtain ⟨-, -, -, -, -, -, -, -, -, e0, e1⟩ := idx2 t
  have ht : t.val < 10 := lt_of_lt_of_eq t.isLt N_2
  funext y
  obtain ⟨p, q, rfl⟩ : ∃ (p : Fin 5000) (q : Fin 64), y = ix2 p q := ⟨y 0, y 1, eq_ix2 y⟩
  obtain ⟨r, hr⟩ : ∃ r : Fin 50000, r.val = t.val * 5000 + p.val := ⟨⟨_, by have := p.isLt; omega⟩, rfl⟩
  rw [View.read_apply]
  show k2_pay1 (iblk2 V c 0 t) (iblk2 V c 1 t) (iblk2 V c 2 t) (iblk2 V c 3 t) (iblk2 V c 4 t) (ix2 p q)
    = layer2 (V c main_v46) (V c main_v32) (V c main_v15) (V c main_v16) (V c main_arg9)
        (((cfg2.win 5).blk t).view.emb (ix2 p q))
  have hi : ((cfg2.win 5).blk t).view.emb (ix2 p q) = ix2 r q := by
    refine eq_ix2_of_val _ r q ?_ ?_
    · show win2_5.index t 0 * 5000 + 1 * p.val = r.val; omega
    · show win2_5.index t 1 * 64 + 1 * q.val = q.val; omega
  rw [hi, layer2_apply]
  refine (pay2_apply _ _ _ _ _ p q).trans ?_
  rw [blk2_4 V c t (ix1 q)]
  refine congrArg₂ (fun s s' => max ((s + s') + _) _) ?_ ?_
  · refine Finset.sum_congr rfl fun k _ => ?_
    rw [blk2_0 V c t (ix2 p k) (ix2 r k) hr rfl, blk2_2 V c t (ix2 k q)]
  · refine Finset.sum_congr rfl fun k _ => ?_
    rw [blk2_1 V c t (ix2 p k) (ix2 r k) hr rfl, blk2_3 V c t (ix2 k q)]

/-- An index of the output is in point t's block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v47).slice (win2_5.rect t)).set ↔ _
  rw [View.set_slice_whole, Rect.mem_set_unit]
  exact Iff.rfl

/-- Row r of the output is written back by point r / 5000. -/
theorem cover2 (i : S50000x64.Idx) :
    ∃ t : Fin cfg2.N, (cfg2.win 5).flush t = true ∧ i ∈ ((cfg2.win 5).blk t).view.set := by
  have hi0 : (i 0).val < 50000 := idx2_lt0 i
  have hi1 : (i 1).val < 64 := idx2_lt1 i
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨-, -, -, -, -, -, -, -, -, e0, e1⟩ := idx2 t
  refine ⟨t, flush2_5 t, ?_⟩
  rw [mem_blk2]
  intro a
  match a with
  | ⟨0, _⟩ =>
    show win2_5.index t 0 * 5000 ≤ (i 0).val ∧ (i 0).val < win2_5.index t 0 * 5000 + 5000
    omega
  | ⟨1, _⟩ =>
    show win2_5.index t 1 * 64 ≤ (i 1).val ∧ (i 1).val < win2_5.index t 1 * 64 + 64
    omega

/-- After the region its output array holds the second layer. -/
theorem region2_array (c : Dev nD) :
    (dat2 V c).arrAt 5 cfg2.N
      = layer2 (V c main_v46) (V c main_v32) (V c main_v15) (V c main_v16) (V c main_arg9) :=
  (dat2 V c).arrAt_eq_of_cover 5 (layer2 (V c main_v46) (V c main_v32) (V c main_v15) (V c main_v16) (V c main_arg9))
    (fun t _ => flushed2 V c t) cover2

/-- Region 2's output at entry (r, j). -/
theorem region2_value (c : Dev nD) (r : Fin 50000) (j : Fin 64) :
    (by exact (dat2 V c).arrAt 5 cfg2.N : S50000x64.Idx → EReal) (ix2 r j)
      = max (((∑ k : Fin 64, (by exact V c main_v46 : S50000x64.Idx → EReal) (ix2 r k)
            * (by exact V c main_v15 : S64x64.Idx → EReal) (ix2 k j))
          + (∑ k : Fin 64, (by exact V c main_v32 : S50000x64.Idx → EReal) (ix2 r k)
            * (by exact V c main_v16 : S64x64.Idx → EReal) (ix2 k j)))
          + (by exact V c main_arg9 : S64.Idx → EReal) (ix1 j)) (Ideal.ofBits .f32 0x00000000#32) := by
  show (dat2 V c).arrAt 5 cfg2.N (ix2 r j) = _
  rw [region2_array]
  rfl

end Cert.KernelIdeal.RegionValues

end
-- ==== Proof.RegionValues.lean ====
/-
  The three pipelined regions' output arrays, each read at one entry as a function of the arrays the region finds
  when it is entered: the projection x · w (region 0), the first layer max((x · w + a) + b, 0) (region 1) and the
  second layer max((a · w + h · u) + b, 0) (region 2).  One module per region; this one gathers them.
-/
import proofs.«145191_j28020366639688_2_alg».proof.Proof.RegionValue0
import proofs.«145191_j28020366639688_2_alg».proof.Proof.RegionValue1
import proofs.«145191_j28020366639688_2_alg».proof.Proof.RegionValue2
-- ==== Proof.KernelValue.lean ====
/-
  The kernel program's result as a function of its arguments.

  The buffer contents at each segment boundary are a fold from the launch memory.  Walking it: the first region's
  output is the projection of the features through the first weight matrix, row by column; the stretch after it
  averages the projected source rows per node; the second region's output is the first layer (own-feature
  projection plus that mean plus the bias, clipped at zero); the next stretch averages its source rows; the third
  region's output is the second layer; the tail turns it into the result.  Every argument and every table computed
  before the first region reaches the place it is read unchanged.
-/
import proofs.«145191_j28020366639688_2_alg».proof.Proof.Gen.KernelIdeal.Frame
import proofs.«145191_j28020366639688_2_alg».proof.Proof.KernelFold0
import proofs.«145191_j28020366639688_2_alg».proof.Proof.KernelFold
import proofs.«145191_j28020366639688_2_alg».proof.Proof.KernelFoldT
import proofs.«145191_j28020366639688_2_alg».proof.Proof.RegionValues

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## Buffers that reach their readers unchanged -/

theorem e1_arg0 : V1 m ρ c main_arg0 = (m ((c : Thread nD τ).loc main_arg0)) := Fold.keep0_arg0 (W0 m ρ c)
theorem e1_arg2 : V1 m ρ c main_arg2 = (m ((c : Thread nD τ).loc main_arg2)) := Fold.keep0_arg2 (W0 m ρ c)
theorem e1_arg3 : V1 m ρ c main_arg3 = (m ((c : Thread nD τ).loc main_arg3)) := Fold.keep0_arg3 (W0 m ρ c)
theorem e1_arg6 : V1 m ρ c main_arg6 = (m ((c : Thread nD τ).loc main_arg6)) := Fold.keep0_arg6 (W0 m ρ c)
theorem e1_arg9 : V1 m ρ c main_arg9 = (m ((c : Thread nD τ).loc main_arg9)) := Fold.keep0_arg9 (W0 m ρ c)
theorem e1_arg10 : V1 m ρ c main_arg10 = (m ((c : Thread nD τ).loc main_arg10)) := Fold.keep0_arg10 (W0 m ρ c)
theorem e1_arg11 : V1 m ρ c main_arg11 = (m ((c : Thread nD τ).loc main_arg11)) := Fold.keep0_arg11 (W0 m ρ c)
theorem e1_v1 : V1 m ρ c main_v1 = (Terms.srcVec (m ((c : Thread nD τ).loc main_arg1))) := Fold.ops0_v1 (W0 m ρ c)
theorem e1_v3 : V1 m ρ c main_v3 = (Terms.dstVec (m ((c : Thread nD τ).loc main_arg1))) := Fold.ops0_v3 (W0 m ρ c)
theorem e1_v12 : V1 m ρ c main_v12 = (Terms.invCol (Terms.siOf (Terms.dstVec (m ((c : Thread nD τ).loc main_arg1))))) := Fold.ops0_v12 (W0 m ρ c)
theorem e1_v13 : V1 m ρ c main_v13 = (transpose S128x64 [1, 0] (m ((c : Thread nD τ).loc main_arg4)) Facts₀.transposes_S64x128_S128x64_1_0) := Fold.ops0_v13 (W0 m ρ c)
theorem e1_v14 : V1 m ρ c main_v14 = (transpose S128x64 [1, 0] (m ((c : Thread nD τ).loc main_arg5)) Facts₀.transposes_S64x128_S128x64_1_0) := Fold.ops0_v14 (W0 m ρ c)
theorem e1_v15 : V1 m ρ c main_v15 = (transpose S64x64 [1, 0] (m ((c : Thread nD τ).loc main_arg7)) Facts₀.transposes_S64x64_S64x64_1_0) := Fold.ops0_v15 (W0 m ρ c)
theorem e1_v16 : V1 m ρ c main_v16 = (transpose S64x64 [1, 0] (m ((c : Thread nD τ).loc main_arg8)) Facts₀.transposes_S64x64_S64x64_1_0) := Fold.ops0_v16 (W0 m ρ c)
theorem e2_v1 : W2 m ρ c (Proc.devRef .tc main_v1) = (Terms.srcVec (m ((c : Thread nD τ).loc main_arg1))) := (W2_of_ne m ρ c main_v1 (by decide)).trans (e1_v1 m ρ c)
theorem e2_v3 : W2 m ρ c (Proc.devRef .tc main_v3) = (Terms.dstVec (m ((c : Thread nD τ).loc main_arg1))) := (W2_of_ne m ρ c main_v3 (by decide)).trans (e1_v3 m ρ c)
theorem e2_v12 : W2 m ρ c (Proc.devRef .tc main_v12) = (Terms.invCol (Terms.siOf (Terms.dstVec (m ((c : Thread nD τ).loc main_arg1))))) := (W2_of_ne m ρ c main_v12 (by decide)).trans (e1_v12 m ρ c)
theorem e2_v14 : W2 m ρ c (Proc.devRef .tc main_v14) = (transpose S128x64 [1, 0] (m ((c : Thread nD τ).loc main_arg5)) Facts₀.transposes_S64x128_S128x64_1_0) := (W2_of_ne m ρ c main_v14 (by decide)).trans (e1_v14 m ρ c)
theorem e2_v15 : W2 m ρ c (Proc.devRef .tc main_v15) = (transpose S64x64 [1, 0] (m ((c : Thread nD τ).loc main_arg7)) Facts₀.transposes_S64x64_S64x64_1_0) := (W2_of_ne m ρ c main_v15 (by decide)).trans (e1_v15 m ρ c)
theorem e2_v16 : W2 m ρ c (Proc.devRef .tc main_v16) = (transpose S64x64 [1, 0] (m ((c : Thread nD τ).loc main_arg8)) Facts₀.transposes_S64x64_S64x64_1_0) := (W2_of_ne m ρ c main_v16 (by decide)).trans (e1_v16 m ρ c)
theorem e2_arg2 : W2 m ρ c (Proc.devRef .tc main_arg2) = (m ((c : Thread nD τ).loc main_arg2)) := (W2_of_ne m ρ c main_arg2 (by decide)).trans (e1_arg2 m ρ c)
theorem e2_arg3 : W2 m ρ c (Proc.devRef .tc main_arg3) = (m ((c : Thread nD τ).loc main_arg3)) := (W2_of_ne m ρ c main_arg3 (by decide)).trans (e1_arg3 m ρ c)
theorem e2_arg6 : W2 m ρ c (Proc.devRef .tc main_arg6) = (m ((c : Thread nD τ).loc main_arg6)) := (W2_of_ne m ρ c main_arg6 (by decide)).trans (e1_arg6 m ρ c)
theorem e2_arg9 : W2 m ρ c (Proc.devRef .tc main_arg9) = (m ((c : Thread nD τ).loc main_arg9)) := (W2_of_ne m ρ c main_arg9 (by decide)).trans (e1_arg9 m ρ c)
theorem e2_arg10 : W2 m ρ c (Proc.devRef .tc main_arg10) = (m ((c : Thread nD τ).loc main_arg10)) := (W2_of_ne m ρ c main_arg10 (by decide)).trans (e1_arg10 m ρ c)
theorem e2_arg11 : W2 m ρ c (Proc.devRef .tc main_arg11) = (m ((c : Thread nD τ).loc main_arg11)) := (W2_of_ne m ρ c main_arg11 (by decide)).trans (e1_arg11 m ρ c)
theorem e2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (e1_arg0 m ρ c)
theorem e3_arg0 : V3 m ρ c main_arg0 = (m ((c : Thread nD τ).loc main_arg0)) := (Fold.keep1_arg0 (W2 m ρ c)).trans (e2_arg0 m ρ c)
theorem e3_v14 : V3 m ρ c main_v14 = (transpose S128x64 [1, 0] (m ((c : Thread nD τ).loc main_arg5)) Facts₀.transposes_S64x128_S128x64_1_0) := (Fold.keep1_v14 (W2 m ρ c)).trans (e2_v14 m ρ c)
theorem e3_arg6 : V3 m ρ c main_arg6 = (m ((c : Thread nD τ).loc main_arg6)) := (Fold.keep1_arg6 (W2 m ρ c)).trans (e2_arg6 m ρ c)
theorem e3_v1 : V3 m ρ c main_v1 = (Terms.srcVec (m ((c : Thread nD τ).loc main_arg1))) := (Fold.keep1_v1 (W2 m ρ c)).trans (e2_v1 m ρ c)
theorem e3_v3 : V3 m ρ c main_v3 = (Terms.dstVec (m ((c : Thread nD τ).loc main_arg1))) := (Fold.keep1_v3 (W2 m ρ c)).trans (e2_v3 m ρ c)
theorem e3_v12 : V3 m ρ c main_v12 = (Terms.invCol (Terms.siOf (Terms.dstVec (m ((c : Thread nD τ).loc main_arg1))))) := (Fold.keep1_v12 (W2 m ρ c)).trans (e2_v12 m ρ c)
theorem e3_v15 : V3 m ρ c main_v15 = (transpose S64x64 [1, 0] (m ((c : Thread nD τ).loc main_arg7)) Facts₀.transposes_S64x64_S64x64_1_0) := (Fold.keep1_v15 (W2 m ρ c)).trans (e2_v15 m ρ c)
theorem e3_v16 : V3 m ρ c main_v16 = (transpose S64x64 [1, 0] (m ((c : Thread nD τ).loc main_arg8)) Facts₀.transposes_S64x64_S64x64_1_0) := (Fold.keep1_v16 (W2 m ρ c)).trans (e2_v16 m ρ c)
theorem e3_arg9 : V3 m ρ c main_arg9 = (m ((c : Thread nD τ).loc main_arg9)) := (Fold.keep1_arg9 (W2 m ρ c)).trans (e2_arg9 m ρ c)
theorem e3_arg2 : V3 m ρ c main_arg2 = (m ((c : Thread nD τ).loc main_arg2)) := (Fold.keep1_arg2 (W2 m ρ c)).trans (e2_arg2 m ρ c)
theorem e3_arg3 : V3 m ρ c main_arg3 = (m ((c : Thread nD τ).loc main_arg3)) := (Fold.keep1_arg3 (W2 m ρ c)).trans (e2_arg3 m ρ c)
theorem e3_arg10 : V3 m ρ c main_arg10 = (m ((c : Thread nD τ).loc main_arg10)) := (Fold.keep1_arg10 (W2 m ρ c)).trans (e2_arg10 m ρ c)
theorem e3_arg11 : V3 m ρ c main_arg11 = (m ((c : Thread nD τ).loc main_arg11)) := (Fold.keep1_arg11 (W2 m ρ c)).trans (e2_arg11 m ρ c)
theorem e4_v1 : W4 m ρ c (Proc.devRef .tc main_v1) = (Terms.srcVec (m ((c : Thread nD τ).loc main_arg1))) := (W4_of_ne m ρ c main_v1 (by decide)).trans (e3_v1 m ρ c)
theorem e4_v3 : W4 m ρ c (Proc.devRef .tc main_v3) = (Terms.dstVec (m ((c : Thread nD τ).loc main_arg1))) := (W4_of_ne m ρ c main_v3 (by decide)).trans (e3_v3 m ρ c)
theorem e4_v12 : W4 m ρ c (Proc.devRef .tc main_v12) = (Terms.invCol (Terms.siOf (Terms.dstVec (m ((c : Thread nD τ).loc main_arg1))))) := (W4_of_ne m ρ c main_v12 (by decide)).trans (e3_v12 m ρ c)
theorem e4_v15 : W4 m ρ c (Proc.devRef .tc main_v15) = (transpose S64x64 [1, 0] (m ((c : Thread nD τ).loc main_arg7)) Facts₀.transposes_S64x64_S64x64_1_0) := (W4_of_ne m ρ c main_v15 (by decide)).trans (e3_v15 m ρ c)
theorem e4_v16 : W4 m ρ c (Proc.devRef .tc main_v16) = (transpose S64x64 [1, 0] (m ((c : Thread nD τ).loc main_arg8)) Facts₀.transposes_S64x64_S64x64_1_0) := (W4_of_ne m ρ c main_v16 (by decide)).trans (e3_v16 m ρ c)
theorem e4_arg9 : W4 m ρ c (Proc.devRef .tc main_arg9) = (m ((c : Thread nD τ).loc main_arg9)) := (W4_of_ne m ρ c main_arg9 (by decide)).trans (e3_arg9 m ρ c)
theorem e4_arg2 : W4 m ρ c (Proc.devRef .tc main_arg2) = (m ((c : Thread nD τ).loc main_arg2)) := (W4_of_ne m ρ c main_arg2 (by decide)).trans (e3_arg2 m ρ c)
theorem e4_arg3 : W4 m ρ c (Proc.devRef .tc main_arg3) = (m ((c : Thread nD τ).loc main_arg3)) := (W4_of_ne m ρ c main_arg3 (by decide)).trans (e3_arg3 m ρ c)
theorem e4_arg10 : W4 m ρ c (Proc.devRef .tc main_arg10) = (m ((c : Thread nD τ).loc main_arg10)) := (W4_of_ne m ρ c main_arg10 (by decide)).trans (e3_arg10 m ρ c)
theorem e4_arg11 : W4 m ρ c (Proc.devRef .tc main_arg11) = (m ((c : Thread nD τ).loc main_arg11)) := (W4_of_ne m ρ c main_arg11 (by decide)).trans (e3_arg11 m ρ c)
theorem e5_v15 : V5 m ρ c main_v15 = (transpose S64x64 [1, 0] (m ((c : Thread nD τ).loc main_arg7)) Facts₀.transposes_S64x64_S64x64_1_0) := (Fold.keep2_v15 (W4 m ρ c)).trans (e4_v15 m ρ c)
theorem e5_v16 : V5 m ρ c main_v16 = (transpose S64x64 [1, 0] (m ((c : Thread nD τ).loc main_arg8)) Facts₀.transposes_S64x64_S64x64_1_0) := (Fold.keep2_v16 (W4 m ρ c)).trans (e4_v16 m ρ c)
theorem e5_arg9 : V5 m ρ c main_arg9 = (m ((c : Thread nD τ).loc main_arg9)) := (Fold.keep2_arg9 (W4 m ρ c)).trans (e4_arg9 m ρ c)
theorem e5_arg2 : V5 m ρ c main_arg2 = (m ((c : Thread nD τ).loc main_arg2)) := (Fold.keep2_arg2 (W4 m ρ c)).trans (e4_arg2 m ρ c)
theorem e5_arg3 : V5 m ρ c main_arg3 = (m ((c : Thread nD τ).loc main_arg3)) := (Fold.keep2_arg3 (W4 m ρ c)).trans (e4_arg3 m ρ c)
theorem e5_arg10 : V5 m ρ c main_arg10 = (m ((c : Thread nD τ).loc main_arg10)) := (Fold.keep2_arg10 (W4 m ρ c)).trans (e4_arg10 m ρ c)
theorem e5_arg11 : V5 m ρ c main_arg11 = (m ((c : Thread nD τ).loc main_arg11)) := (Fold.keep2_arg11 (W4 m ρ c)).trans (e4_arg11 m ρ c)
theorem e5_v32 : V5 m ρ c main_v32 = W4 m ρ c (Proc.devRef .tc main_v32) := Fold.keep2_v32 (W4 m ρ c)
theorem e6_arg2 : W6 m ρ c (Proc.devRef .tc main_arg2) = (m ((c : Thread nD τ).loc main_arg2)) := (W6_of_ne m ρ c main_arg2 (by decide)).trans (e5_arg2 m ρ c)
theorem e6_arg3 : W6 m ρ c (Proc.devRef .tc main_arg3) = (m ((c : Thread nD τ).loc main_arg3)) := (W6_of_ne m ρ c main_arg3 (by decide)).trans (e5_arg3 m ρ c)
theorem e6_arg10 : W6 m ρ c (Proc.devRef .tc main_arg10) = (m ((c : Thread nD τ).loc main_arg10)) := (W6_of_ne m ρ c main_arg10 (by decide)).trans (e5_arg10 m ρ c)
theorem e6_arg11 : W6 m ρ c (Proc.devRef .tc main_arg11) = (m ((c : Thread nD τ).loc main_arg11)) := (W6_of_ne m ρ c main_arg11 (by decide)).trans (e5_arg11 m ρ c)

/-! ## The five intermediate arrays -/

/-- The projected features: the first region's output. -/
def pK : S50000x64.Idx → EReal := W2 m ρ c (Proc.devRef .tc main_v17)
/-- The first mean. -/
def m1K : S50000x64.Idx → EReal := V3 m ρ c main_v31
/-- The first layer's output. -/
def h1K : S50000x64.Idx → EReal := W4 m ρ c (Proc.devRef .tc main_v32)
/-- The second mean. -/
def m2K : S50000x64.Idx → EReal := V5 m ρ c main_v46
/-- The second layer's output. -/
def h2K : S50000x64.Idx → EReal := W6 m ρ c (Proc.devRef .tc main_v47)

theorem pK_apply (s : Fin 50000) (j : Fin 64) :
    pK m ρ c (ix2 s j) = Sage.mmAt (R := 50000) (K := 128) (C := 64) (m ((c : Thread nD τ).loc main_arg0)) (transpose S128x64 [1, 0] (m ((c : Thread nD τ).loc main_arg4)) Facts₀.transposes_S64x128_S128x64_1_0) s j := by
  have e : pK m ρ c = (dat0 (V1 m ρ) c).arrAt 2 cfg0.N := W2_arr m ρ c 2
  rw [e, RegionValues.region0_value (V1 m ρ) c s j, e1_arg0 m ρ c, e1_v13 m ρ c]
  rfl

theorem m1K_apply (r : Fin 50000) (j : Fin 64) :
    m1K m ρ c (ix2 r j) = Sage.aggAt (C := 64) (pK m ρ c) (Terms.giOf (Terms.srcVec (m ((c : Thread nD τ).loc main_arg1)))) (Terms.siOf (Terms.dstVec (m ((c : Thread nD τ).loc main_arg1)))) r j
      * (by exact (Terms.invCol (Terms.siOf (Terms.dstVec (m ((c : Thread nD τ).loc main_arg1))))) : S50000x1.Idx → EReal) (ix2 r 0) := by
  have h := Fold.ops1_mean (W2 m ρ c) r j
  rw [e2_v1 m ρ c, e2_v3 m ρ c, e2_v12 m ρ c] at h
  exact h

theorem h1K_apply (r : Fin 50000) (j : Fin 64) :
    h1K m ρ c (ix2 r j) = max ((Sage.mmAt (R := 50000) (K := 128) (C := 64) (m ((c : Thread nD τ).loc main_arg0)) (transpose S128x64 [1, 0] (m ((c : Thread nD τ).loc main_arg5)) Facts₀.transposes_S64x128_S128x64_1_0) r j
        + m1K m ρ c (ix2 r j)) + (by exact (m ((c : Thread nD τ).loc main_arg6)) : S64.Idx → EReal) (ix1 j)) (Ideal.ofBits .f32 0x00000000#32) := by
  have e : h1K m ρ c = (dat1 (V3 m ρ) c).arrAt 4 cfg1.N := W4_arr m ρ c 4
  rw [e, RegionValues.region1_value (V3 m ρ) c r j, e3_arg0 m ρ c, e3_v14 m ρ c, e3_arg6 m ρ c]
  rfl

theorem m2K_apply (r : Fin 50000) (k : Fin 64) :
    m2K m ρ c (ix2 r k) = Sage.aggAt (C := 64) (h1K m ρ c) (Terms.giOf (Terms.srcVec (m ((c : Thread nD τ).loc main_arg1)))) (Terms.siOf (Terms.dstVec (m ((c : Thread nD τ).loc main_arg1)))) r k
      * (by exact (Terms.invCol (Terms.siOf (Terms.dstVec (m ((c : Thread nD τ).loc main_arg1))))) : S50000x1.Idx → EReal) (ix2 r 0) := by
  have h := Fold.ops2_mean (W4 m ρ c) r k
  rw [e4_v1 m ρ c, e4_v3 m ρ c, e4_v12 m ρ c] at h
  exact h

theorem h2K_apply (r : Fin 50000) (j : Fin 64) :
    h2K m ρ c (ix2 r j) = max ((Sage.mmAt (R := 50000) (K := 64) (C := 64) (m2K m ρ c) (transpose S64x64 [1, 0] (m ((c : Thread nD τ).loc main_arg7)) Facts₀.transposes_S64x64_S64x64_1_0) r j
        + Sage.mmAt (R := 50000) (K := 64) (C := 64) (h1K m ρ c) (transpose S64x64 [1, 0] (m ((c : Thread nD τ).loc main_arg8)) Facts₀.transposes_S64x64_S64x64_1_0) r j)
        + (by exact (m ((c : Thread nD τ).loc main_arg9)) : S64.Idx → EReal) (ix1 j)) (Ideal.ofBits .f32 0x00000000#32) := by
  have e : h2K m ρ c = (dat2 (V5 m ρ) c).arrAt 5 cfg2.N := W6_arr m ρ c 5
  rw [e, RegionValues.region2_value (V5 m ρ) c r j, e5_v32 m ρ c, e5_v15 m ρ c, e5_v16 m ρ c, e5_arg9 m ρ c]
  rfl

/-- The reciprocal column read on its row. -/
theorem inv_apply (r : Fin 50000) :
    (by exact (Terms.invCol (Terms.siOf (Terms.dstVec (m ((c : Thread nD τ).loc main_arg1))))) : S50000x1.Idx → EReal) (ix2 r 0)
      = Ideal.div (Ideal.ofBits .f32 0x3F800000#32) (Sage.dmaxAt (Terms.siOf (Terms.dstVec (m ((c : Thread nD τ).loc main_arg1)))) r) :=
  Sage.inv_column_apply _ _ (fun n => Sage.dmax_apply _ _ (fun n' => Sage.deg_apply _ rfl rfl rfl rfl _ _ _ n') _ n) _ _ r

/-- The result buffer after the run: the tail of the second layer's output. -/
theorem result_eq : W11 m ρ c (Proc.devRef .tc main_v73)
    = Terms.tailFn (h2K m ρ c) (m ((c : Thread nD τ).loc main_arg2)) (m ((c : Thread nD τ).loc main_arg3)) (m ((c : Thread nD τ).loc main_arg10)) (m ((c : Thread nD τ).loc main_arg11)) := by
  have h := Fold.tail_eq (W6 m ρ c)
  rw [e6_arg2 m ρ c, e6_arg3 m ρ c, e6_arg10 m ρ c, e6_arg11 m ρ c] at h
  exact h

end Cert.KernelIdeal.KValue

end
-- ==== Proof.RefValue1.lean ====
/-
  The reference's first layer read over any buffer contents: the edge rows, the mean of the features' source rows at
  an entry, and the layer's output at an entry.  The stretch is cut after the mean; its last part is read over any
  contents, where every term is small.
-/
import proofs.«145191_j28020366639688_2_alg».proof.Proof.Gen.KernelIdeal
import proofs.«145191_j28020366639688_2_alg».proof.Proof.RefRun
import proofs.«145191_j28020366639688_2_alg».proof.Proof.KernelTerms
import proofs.«145191_j28020366639688_2_alg».proof.Proof.SageReads

noncomputable section

namespace Cert.ReferenceIdeal.RValue

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx

/-- A buffer that no operation of a stretch writes keeps its contents. -/
macro "keep_ref" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

section Lists
variable {F : FTy → Type} [FloatOps F]

/-- The stretch up to and including the mean. -/
abbrev opsL1a : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)) ]

/-- The rest of the stretch: the two projections, the bias and the clipping at zero. -/
abbrev opsL1b : List (HloOp τ sig (Elt F)) :=
  [ StableHlo.unary main_arg4 main_v23 ((transpose S128x64 [1, 0] · transposes_S64x128_S128x64_1_0) : (⟨S64x128, .f32⟩ : BufTy).Contents (Elt F) → (⟨S128x64, .f32⟩ : BufTy).Contents (Elt F)),
    StableHlo.binary main_v22 main_v23 main_v24 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v25 ((transpose S128x64 [1, 0] · transposes_S64x128_S128x64_1_0) : (⟨S64x128, .f32⟩ : BufTy).Contents (Elt F) → (⟨S128x64, .f32⟩ : BufTy).Contents (Elt F)),
    StableHlo.binary main_arg0 main_v25 main_v26 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v24 main_v26 main_v27 (addf : (⟨S50000x64, .f32⟩ : BufTy).Contents (Elt F) → (⟨S50000x64, .f32⟩ : BufTy).Contents (Elt F) → (⟨S50000x64, .f32⟩ : BufTy).Contents (Elt F)),
    StableHlo.unary main_arg6 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S50000x64 ![0, 1] bcast_S1x64_S50000x64_0_1 : (⟨S1x64, .f32⟩ : BufTy).Contents (Elt F) → (⟨S50000x64, .f32⟩ : BufTy).Contents (Elt F)),
    StableHlo.binary main_v27 main_v29 main_v30 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v30 : StableHlo.TRef sig ⟨S50000x64, .f32⟩) main_call0.v0 main_call0.v1 maximumf ]

theorem opsL1_split : (opsL1 : List (HloOp τ sig (Elt F))) = opsL1a ++ opsL1b := rfl

theorem after_L1 (V : Valuation τ sig (Elt F)) : after opsL1 V = after opsL1b (after opsL1a V) :=
  (congrArg (fun l => after l V) opsL1_split).trans (StableHlo.after_append _ _ _)

end Lists

variable (V : Valuation τ sig (Elt Ideal))

/-! ## The edge rows -/

set_option maxHeartbeats 2000000 in
theorem l1_v1 : after (opsL1 (F := Ideal)) V (Proc.devRef .tc main_v1) = Cert.KernelIdeal.Terms.srcVec (V (Proc.devRef .tc main_arg1)) := by
  after_results_simp; rfl
set_option maxHeartbeats 2000000 in
theorem l1_v3 : after (opsL1 (F := Ideal)) V (Proc.devRef .tc main_v3) = Cert.KernelIdeal.Terms.dstVec (V (Proc.devRef .tc main_arg1)) := by
  after_results_simp; rfl

/-! ## The mean -/

attribute [local irreducible] Host.gather Host.scatterAdd in
set_option maxHeartbeats 2000000 in
/-- The first mean at an entry: the aggregate of the features' source rows over the divisor. -/
theorem mean1_apply (r : Fin 50000) (k : Fin 128) :
    (by exact after (opsL1a (F := Ideal)) V (Proc.devRef .tc main_v22) : S50000x128.Idx → EReal) (ix2 r k)
      = Ideal.div (Sage.aggAt (C := 128) (by exact (V (Proc.devRef .tc main_arg0))) (Cert.KernelIdeal.Terms.giOf (Cert.KernelIdeal.Terms.srcVec (V (Proc.devRef .tc main_arg1))))
            (Cert.KernelIdeal.Terms.siOf (Cert.KernelIdeal.Terms.dstVec (V (Proc.devRef .tc main_arg1)))) r k)
          (Sage.dmaxAt (Cert.KernelIdeal.Terms.siOf (Cert.KernelIdeal.Terms.dstVec (V (Proc.devRef .tc main_arg1)))) r) := by
  after_results_simp
  rw [Sage.hostDiv_apply]
  exact congrArg₂ Ideal.div
    (Sage.agg_apply (C := 128) _ rfl rfl rfl rfl _ rfl rfl rfl rfl rfl rfl rfl _ _ _ _ _ rfl r k)
    ((Sage.column_lanes_apply _ _ _ r k).trans
      (Sage.dmax_apply _ _ (fun n => Sage.deg_apply _ rfl rfl rfl rfl _ _ _ n) _ r))

/-! ## The output -/

theorem keepL1a_arg0 : after (opsL1a (F := Ideal)) V (Proc.devRef .tc main_arg0) = V (Proc.devRef .tc main_arg0) := by keep_ref opsL1a
theorem keepL1a_arg4 : after (opsL1a (F := Ideal)) V (Proc.devRef .tc main_arg4) = V (Proc.devRef .tc main_arg4) := by keep_ref opsL1a
theorem keepL1a_arg5 : after (opsL1a (F := Ideal)) V (Proc.devRef .tc main_arg5) = V (Proc.devRef .tc main_arg5) := by keep_ref opsL1a
theorem keepL1a_arg6 : after (opsL1a (F := Ideal)) V (Proc.devRef .tc main_arg6) = V (Proc.devRef .tc main_arg6) := by keep_ref opsL1a

set_option maxHeartbeats 1000000 in
/-- The last part of the stretch over any contents W: the output at an entry from the mean W holds. -/
theorem h1b_apply (W : Valuation τ sig (Elt Ideal)) (r : Fin 50000) (j : Fin 64) :
    (by exact after (opsL1b (F := Ideal)) W (Proc.devRef .tc main_v31) : S50000x64.Idx → EReal) (ix2 r j)
      = max ((Sage.mmAt (R := 50000) (K := 128) (C := 64) (by exact W (Proc.devRef .tc main_v22))
              (transpose S128x64 [1, 0] (by exact W (Proc.devRef .tc main_arg4) : FVec Ideal S64x128 .f32) Facts₀.transposes_S64x128_S128x64_1_0) r j
            + Sage.mmAt (R := 50000) (K := 128) (C := 64) (by exact W (Proc.devRef .tc main_arg0))
              (transpose S128x64 [1, 0] (by exact W (Proc.devRef .tc main_arg5) : FVec Ideal S64x128 .f32) Facts₀.transposes_S64x128_S128x64_1_0) r j)
          + (by exact W (Proc.devRef .tc main_arg6) : S64.Idx → EReal) (ix1 j)) (Ideal.ofBits .f32 0x00000000#32) := by
  have e : (by exact after (opsL1b (F := Ideal)) W (Proc.devRef .tc main_v31) : FVec Ideal S50000x64 .f32)
      = maximumf (F := Ideal)
          (addf
            (addf
              (Host.dotGeneral dot_S50000x128_S128x64_S50000x64_1_0_0_1_n_n none
                (by exact W (Proc.devRef .tc main_v22) : FVec Ideal S50000x128 .f32)
                (transpose S128x64 [1, 0] (by exact W (Proc.devRef .tc main_arg4) : FVec Ideal S64x128 .f32) Facts₀.transposes_S64x128_S128x64_1_0))
              (Host.dotGeneral dot_S50000x128_S128x64_S50000x64_1_0_0_1_n_n none
                (by exact W (Proc.devRef .tc main_arg0) : FVec Ideal S50000x128 .f32)
                (transpose S128x64 [1, 0] (by exact W (Proc.devRef .tc main_arg5) : FVec Ideal S64x128 .f32) Facts₀.transposes_S64x128_S128x64_1_0)))
            (broadcastInDim S50000x64 ![0, 1] Facts₀.bcast_S1x64_S50000x64_0_1
              (broadcastInDim S1x64 ![1] Facts₀.bcast_S64_S1x64_1 (by exact W (Proc.devRef .tc main_arg6) : FVec Ideal S64 .f32))))
          (broadcastInDim S50000x64 ![] Facts₀.bcast_S_S50000x64 (constant S_ .f32 0x00000000#32)) := by
    after_results_simp
    rfl
  rw [e, Sage.relu_apply, addf_apply, addf_apply, Sage.hostDot_apply dot_S50000x128_S128x64_S50000x64_1_0_0_1_n_n rfl,
    Sage.hostDot_apply dot_S50000x128_S128x64_S50000x64_1_0_0_1_n_n rfl, Sage.bias_rows_apply]

/-- The first layer's output at an entry. -/
theorem h1_apply (r : Fin 50000) (j : Fin 64) :
    (by exact after (opsL1 (F := Ideal)) V (Proc.devRef .tc main_v31) : S50000x64.Idx → EReal) (ix2 r j)
      = max ((Sage.mmAt (R := 50000) (K := 128) (C := 64) (by exact after (opsL1a (F := Ideal)) V (Proc.devRef .tc main_v22))
              (transpose S128x64 [1, 0] (by exact (V (Proc.devRef .tc main_arg4)) : FVec Ideal S64x128 .f32) Facts₀.transposes_S64x128_S128x64_1_0) r j
            + Sage.mmAt (R := 50000) (K := 128) (C := 64) (by exact (V (Proc.devRef .tc main_arg0)))
              (transpose S128x64 [1, 0] (by exact (V (Proc.devRef .tc main_arg5)) : FVec Ideal S64x128 .f32) Facts₀.transposes_S64x128_S128x64_1_0) r j)
          + (by exact (V (Proc.devRef .tc main_arg6)) : S64.Idx → EReal) (ix1 j)) (Ideal.ofBits .f32 0x00000000#32) := by
  have h := h1b_apply (after (opsL1a (F := Ideal)) V) r j
  rw [keepL1a_arg0, keepL1a_arg4, keepL1a_arg5, keepL1a_arg6] at h
  rw [after_L1]
  exact h

end Cert.ReferenceIdeal.RValue

end
-- ==== Proof.RefValue2.lean ====
/-
  The reference's second layer read over any buffer contents: the mean of the previous output's source rows at an
  entry, and the layer's output at an entry.  The stretch is cut after the mean, as the first layer's is.
-/
import proofs.«145191_j28020366639688_2_alg».proof.Proof.Gen.KernelIdeal
import proofs.«145191_j28020366639688_2_alg».proof.Proof.RefRun
import proofs.«145191_j28020366639688_2_alg».proof.Proof.KernelTerms
import proofs.«145191_j28020366639688_2_alg».proof.Proof.SageReads
import proofs.«145191_j28020366639688_2_alg».proof.Proof.RefValue1

noncomputable section

namespace Cert.ReferenceIdeal.RValue

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx

section Lists
variable {F : FTy → Type} [FloatOps F]

/-- The stretch up to and including the mean. -/
abbrev opsL2a : List (HloOp τ sig (Elt F)) :=
  [ StableHlo.nullary main_c_4 (constantI S_ 32 0#32),
    StableHlo.unary main_c_4 main_v32 (broadcastInDim S800000 ![] bcast_S_S800000 : (⟨S_, .i32⟩ : BufTy).Contents (Elt F) → (⟨S800000, .i32⟩ : BufTy).Contents (Elt F)),
    StableHlo.binary main_v1 main_v32 main_v33 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v34 (broadcastInDim S800000 ![] bcast_S_S800000 : (⟨S_, .i32⟩ : BufTy).Contents (Elt F) → (⟨S800000, .i32⟩ : BufTy).Contents (Elt F)),
    StableHlo.binary main_v1 main_v34 main_v35 (addi : (⟨S800000, .i32⟩ : BufTy).Contents (Elt F) → (⟨S800000, .i32⟩ : BufTy).Contents (Elt F) → (⟨S800000, .i32⟩ : BufTy).Contents (Elt F)),
    StableHlo.ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v36 main_v37 (broadcastInDim S800000x1 ![0] bcast_S800000_S800000x1_0 : (⟨S800000, .i32⟩ : BufTy).Contents (Elt F) → (⟨S800000x1, .i32⟩ : BufTy).Contents (Elt F)),
    StableHlo.binary main_v31 main_v37 main_v38 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_6 (constant S_ .f32 0x00000000#32),
    StableHlo.unary main_cst_6 main_v39 (broadcastInDim S50000x64 ![] bcast_S_S50000x64 : (⟨S_, .f32⟩ : BufTy).Contents (Elt F) → (⟨S50000x64, .f32⟩ : BufTy).Contents (Elt F)),
    StableHlo.unary main_v3 main_v40 (broadcastInDim S800000x1 ![0] bcast_S800000_S800000x1_0 : (⟨S800000, .i32⟩ : BufTy).Contents (Elt F) → (⟨S800000x1, .i32⟩ : BufTy).Contents (Elt F)),
    StableHlo.ternary main_v39 main_v40 main_v38 main_v41 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_7 (constant S_ .f32 0x3F800000#32),
    StableHlo.unary main_cst_7 main_v42 (broadcastInDim S800000 ![] bcast_S_S800000 : (⟨S_, .f32⟩ : BufTy).Contents (Elt F) → (⟨S800000, .f32⟩ : BufTy).Contents (Elt F)),
    StableHlo.nullary main_cst_8 (constant S_ .f32 0x00000000#32),
    StableHlo.unary main_cst_8 main_v43 (broadcastInDim S50000 ![] bcast_S_S50000 : (⟨S_, .f32⟩ : BufTy).Contents (Elt F) → (⟨S50000, .f32⟩ : BufTy).Contents (Elt F)),
    StableHlo.unary main_v3 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_9 (constant S_ .f32 0x3F800000#32),
    StableHlo.unary main_cst_9 main_v46 (broadcastInDim S50000 ![] bcast_S_S50000 : (⟨S_, .f32⟩ : BufTy).Contents (Elt F) → (⟨S50000, .f32⟩ : BufTy).Contents (Elt F)),
    StableHlo.binary main_v45 main_v46 main_v47 (maximumf : (⟨S50000, .f32⟩ : BufTy).Contents (Elt F) → (⟨S50000, .f32⟩ : BufTy).Contents (Elt F) → (⟨S50000, .f32⟩ : BufTy).Contents (Elt F)),
    StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.unary main_v48 main_v49 (broadcastInDim S50000x64 ![0, 1] bcast_S50000x1_S50000x64_0_1 : (⟨S50000x1, .f32⟩ : BufTy).Contents (Elt F) → (⟨S50000x64, .f32⟩ : BufTy).Contents (Elt F)),
    StableHlo.binary main_v41 main_v49 main_v50 (Host.divf : (⟨S50000x64, .f32⟩ : BufTy).Contents (Elt F) → (⟨S50000x64, .f32⟩ : BufTy).Contents (Elt F) → (⟨S50000x64, .f32⟩ : BufTy).Contents (Elt F)) ]

/-- The rest of the stretch: the two projections, the bias and the clipping at zero. -/
abbrev opsL2b : List (HloOp τ sig (Elt F)) :=
  [ StableHlo.unary main_arg7 main_v51 ((transpose S64x64 [1, 0] · transposes_S64x64_S64x64_1_0) : (⟨S64x64, .f32⟩ : BufTy).Contents (Elt F) → (⟨S64x64, .f32⟩ : BufTy).Contents (Elt F)),
    StableHlo.binary main_v50 main_v51 main_v52 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v53 ((transpose S64x64 [1, 0] · transposes_S64x64_S64x64_1_0) : (⟨S64x64, .f32⟩ : BufTy).Contents (Elt F) → (⟨S64x64, .f32⟩ : BufTy).Contents (Elt F)),
    StableHlo.binary main_v31 main_v53 main_v54 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.binary main_v52 main_v54 main_v55 (addf : (⟨S50000x64, .f32⟩ : BufTy).Contents (Elt F) → (⟨S50000x64, .f32⟩ : BufTy).Contents (Elt F) → (⟨S50000x64, .f32⟩ : BufTy).Contents (Elt F)),
    StableHlo.unary main_arg9 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S50000x64 ![0, 1] bcast_S1x64_S50000x64_0_1 : (⟨S1x64, .f32⟩ : BufTy).Contents (Elt F) → (⟨S50000x64, .f32⟩ : BufTy).Contents (Elt F)),
    StableHlo.binary main_v55 main_v57 main_v58 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v58 : StableHlo.TRef sig ⟨S50000x64, .f32⟩) main_call1.v0 main_call1.v1 maximumf ]

theorem opsL2_split : (opsL2 : List (HloOp τ sig (Elt F))) = opsL2a ++ opsL2b := rfl

theorem after_L2 (V : Valuation τ sig (Elt F)) : after opsL2 V = after opsL2b (after opsL2a V) :=
  (congrArg (fun l => after l V) opsL2_split).trans (StableHlo.after_append _ _ _)

end Lists

variable (V : Valuation τ sig (Elt Ideal))

/-! ## The mean -/

attribute [local irreducible] Host.gather Host.scatterAdd in
set_option maxHeartbeats 2000000 in
/-- The second mean at an entry: the aggregate of the previous output's source rows over the divisor. -/
theorem mean2_apply (r : Fin 50000) (k : Fin 64) :
    (by exact after (opsL2a (F := Ideal)) V (Proc.devRef .tc main_v50) : S50000x64.Idx → EReal) (ix2 r k)
      = Ideal.div (Sage.aggAt (C := 64) (by exact (V (Proc.devRef .tc main_v31))) (Cert.KernelIdeal.Terms.giOf (V (Proc.devRef .tc main_v1))) (Cert.KernelIdeal.Terms.siOf (V (Proc.devRef .tc main_v3))) r k)
          (Sage.dmaxAt (Cert.KernelIdeal.Terms.siOf (V (Proc.devRef .tc main_v3))) r) := by
  after_results_simp
  rw [Sage.hostDiv_apply]
  exact congrArg₂ Ideal.div
    (Sage.agg_apply (C := 64) _ rfl rfl rfl rfl _ rfl rfl rfl rfl rfl rfl rfl _ _ _ _ _ rfl r k)
    ((Sage.column_lanes_apply _ _ _ r k).trans
      (Sage.dmax_apply _ _ (fun n => Sage.deg_apply _ rfl rfl rfl rfl _ _ _ n) _ r))

/-! ## The output -/

theorem keepL2a_v31 : after (opsL2a (F := Ideal)) V (Proc.devRef .tc main_v31) = V (Proc.devRef .tc main_v31) := by keep_ref opsL2a
theorem keepL2a_arg7 : after (opsL2a (F := Ideal)) V (Proc.devRef .tc main_arg7) = V (Proc.devRef .tc main_arg7) := by keep_ref opsL2a
theorem keepL2a_arg8 : after (opsL2a (F := Ideal)) V (Proc.devRef .tc main_arg8) = V (Proc.devRef .tc main_arg8) := by keep_ref opsL2a
theorem keepL2a_arg9 : after (opsL2a (F := Ideal)) V (Proc.devRef .tc main_arg9) = V (Proc.devRef .tc main_arg9) := by keep_ref opsL2a

set_option maxHeartbeats 1000000 in
/-- The last part of the stretch over any contents W: the output at an entry from the mean W holds. -/
theorem h2b_apply (W : Valuation τ sig (Elt Ideal)) (r : Fin 50000) (j : Fin 64) :
    (by exact after (opsL2b (F := Ideal)) W (Proc.devRef .tc main_v59) : S50000x64.Idx → EReal) (ix2 r j)
      = max ((Sage.mmAt (R := 50000) (K := 64) (C := 64) (by exact W (Proc.devRef .tc main_v50))
              (transpose S64x64 [1, 0] (by exact W (Proc.devRef .tc main_arg7) : FVec Ideal S64x64 .f32) Facts₀.transposes_S64x64_S64x64_1_0) r j
            + Sage.mmAt (R := 50000) (K := 64) (C := 64) (by exact W (Proc.devRef .tc main_v31))
              (transpose S64x64 [1, 0] (by exact W (Proc.devRef .tc main_arg8) : FVec Ideal S64x64 .f32) Facts₀.transposes_S64x64_S64x64_1_0) r j)
          + (by exact W (Proc.devRef .tc main_arg9) : S64.Idx → EReal) (ix1 j)) (Ideal.ofBits .f32 0x00000000#32) := by
  have e : (by exact after (opsL2b (F := Ideal)) W (Proc.devRef .tc main_v59) : FVec Ideal S50000x64 .f32)
      = maximumf (F := Ideal)
          (addf
            (addf
              (Host.dotGeneral dot_S50000x64_S64x64_S50000x64_1_0_0_1_n_n none
                (by exact W (Proc.devRef .tc main_v50) : FVec Ideal S50000x64 .f32)
                (transpose S64x64 [1, 0] (by exact W (Proc.devRef .tc main_arg7) : FVec Ideal S64x64 .f32) Facts₀.transposes_S64x64_S64x64_1_0))
              (Host.dotGeneral dot_S50000x64_S64x64_S50000x64_1_0_0_1_n_n none
                (by exact W (Proc.devRef .tc main_v31) : FVec Ideal S50000x64 .f32)
                (transpose S64x64 [1, 0] (by exact W (Proc.devRef .tc main_arg8) : FVec Ideal S64x64 .f32) Facts₀.transposes_S64x64_S64x64_1_0)))
            (broadcastInDim S50000x64 ![0, 1] Facts₀.bcast_S1x64_S50000x64_0_1
              (broadcastInDim S1x64 ![1] Facts₀.bcast_S64_S1x64_1 (by exact W (Proc.devRef .tc main_arg9) : FVec Ideal S64 .f32))))
          (broadcastInDim S50000x64 ![] Facts₀.bcast_S_S50000x64 (constant S_ .f32 0x00000000#32)) := by
    after_results_simp
    rfl
  rw [e, Sage.relu_apply, addf_apply, addf_apply, Sage.hostDot_apply dot_S50000x64_S64x64_S50000x64_1_0_0_1_n_n rfl,
    Sage.hostDot_apply dot_S50000x64_S64x64_S50000x64_1_0_0_1_n_n rfl, Sage.bias_rows_apply]

/-- The second layer's output at an entry. -/
theorem h2_apply (r : Fin 50000) (j : Fin 64) :
    (by exact after (opsL2 (F := Ideal)) V (Proc.devRef .tc main_v59) : S50000x64.Idx → EReal) (ix2 r j)
      = max ((Sage.mmAt (R := 50000) (K := 64) (C := 64) (by exact after (opsL2a (F := Ideal)) V (Proc.devRef .tc main_v50))
              (transpose S64x64 [1, 0] (by exact (V (Proc.devRef .tc main_arg7)) : FVec Ideal S64x64 .f32) Facts₀.transposes_S64x64_S64x64_1_0) r j
            + Sage.mmAt (R := 50000) (K := 64) (C := 64) (by exact (V (Proc.devRef .tc main_v31)))
              (transpose S64x64 [1, 0] (by exact (V (Proc.devRef .tc main_arg8)) : FVec Ideal S64x64 .f32) Facts₀.transposes_S64x64_S64x64_1_0) r j)
          + (by exact (V (Proc.devRef .tc main_arg9)) : S64.Idx → EReal) (ix1 j)) (Ideal.ofBits .f32 0x00000000#32) := by
  have h := h2b_apply (after (opsL2a (F := Ideal)) V) r j
  rw [keepL2a_v31, keepL2a_arg7, keepL2a_arg8, keepL2a_arg9] at h
  rw [after_L2]
  exact h

end Cert.ReferenceIdeal.RValue

end
-- ==== Proof.RefValueT.lean ====
/-
  The reference program's result as a function of its arguments.

  Its first stretch is the first layer: the source rows of the features, accumulated per destination node and
  divided by max (degree, 1), projected through the first weight matrix, plus the own-feature projection and the
  bias, clipped at zero.  The second stretch is the same layer over the first one's output with the second weights.
  The third is the tail.  Each stretch is read over any buffer contents; the edge rows and the arguments reach
  their readers unchanged.
-/
import proofs.«145191_j28020366639688_2_alg».proof.Proof.Gen.KernelIdeal
import proofs.«145191_j28020366639688_2_alg».proof.Proof.RefRun
import proofs.«145191_j28020366639688_2_alg».proof.Proof.KernelTerms
import proofs.«145191_j28020366639688_2_alg».proof.Proof.SageReads

noncomputable section

namespace Cert.ReferenceIdeal.RValue

open Cert.ReferenceIdeal Cert.ReferenceIdeal.RefRun Idealize.ShloMosaic Idealize.ShloMosaic.TcCoe Idealize.SL.Sem
open Idealize.ShloMosaic.StableHlo Idealize.ShloMosaic.ValueIdx

variable (V : Valuation τ sig (Elt Ideal))

/-! ## The tail, one piece at a time -/

theorem t_c11 : after (opsT (F := Ideal)) V (Proc.devRef .tc main_c_11) = Cert.KernelIdeal.Terms.zeroWord := by
  after_results_simp; rfl
theorem t_v60 : after (opsT (F := Ideal)) V (Proc.devRef .tc main_v60) = Cert.KernelIdeal.Terms.zero500 := by
  after_results_simp; rfl
set_option maxHeartbeats 1000000 in
theorem t_v61 : after (opsT (F := Ideal)) V (Proc.devRef .tc main_v61) = Cert.KernelIdeal.Terms.clipOf (after (opsT (F := Ideal)) V (Proc.devRef .tc main_c_11)) (V (Proc.devRef .tc main_arg2)) := by
  after_results_simp; rfl
attribute [local irreducible] Host.scatter in
set_option maxHeartbeats 1000000 in
theorem t_v69 : after (opsT (F := Ideal)) V (Proc.devRef .tc main_v69) = Cert.KernelIdeal.Terms.countsOf (after (opsT (F := Ideal)) V (Proc.devRef .tc main_v60)) (after (opsT (F := Ideal)) V (Proc.devRef .tc main_v61)) := by
  after_results_simp; rfl
attribute [local irreducible] Host.scatter Host.reduceWindow in
set_option maxHeartbeats 1000000 in
theorem t_v70 : after (opsT (F := Ideal)) V (Proc.devRef .tc main_v70) = Cert.KernelIdeal.Terms.cumOf (after (opsT (F := Ideal)) V (Proc.devRef .tc main_v69)) := by
  after_results_simp; rfl
attribute [local irreducible] Host.scatter Host.reduceWindow Host.gather in
set_option maxHeartbeats 2000000 in
theorem t_v85 : after (opsT (F := Ideal)) V (Proc.devRef .tc main_v85)
    = Cert.KernelIdeal.Terms.tail4 (V (Proc.devRef .tc main_v59)) (after (opsT (F := Ideal)) V (Proc.devRef .tc main_v70)) (after (opsT (F := Ideal)) V (Proc.devRef .tc main_v69)) (V (Proc.devRef .tc main_arg3)) (V (Proc.devRef .tc main_arg10)) (V (Proc.devRef .tc main_arg11)) := by
  after_results_simp; rfl

/-- The last stretch computes the tail. -/
theorem tail_eq : after (opsT (F := Ideal)) V (Proc.devRef .tc main_v85)
    = Cert.KernelIdeal.Terms.tailFn (V (Proc.devRef .tc main_v59)) (V (Proc.devRef .tc main_arg2)) (V (Proc.devRef .tc main_arg3)) (V (Proc.devRef .tc main_arg10)) (V (Proc.devRef .tc main_arg11)) := by
  rw [t_v85, t_v70, t_v69, t_v61, t_v60, t_c11]
  rfl

/-! ## Buffers that reach their readers unchanged -/

theorem keepL1_arg0 : after (opsL1 (F := Ideal)) V (Proc.devRef .tc main_arg0) = V (Proc.devRef .tc main_arg0) :=
  after_of_writes_sub opsL1 V opsL1_writes (by decide)
theorem keepL1_arg1 : after (opsL1 (F := Ideal)) V (Proc.devRef .tc main_arg1) = V (Proc.devRef .tc main_arg1) :=
  after_of_writes_sub opsL1 V opsL1_writes (by decide)
theorem keepL1_arg2 : after (opsL1 (F := Ideal)) V (Proc.devRef .tc main_arg2) = V (Proc.devRef .tc main_arg2) :=
  after_of_writes_sub opsL1 V opsL1_writes (by decide)
theorem keepL1_arg3 : after (opsL1 (F := Ideal)) V (Proc.devRef .tc main_arg3) = V (Proc.devRef .tc main_arg3) :=
  after_of_writes_sub opsL1 V opsL1_writes (by decide)
theorem keepL1_arg7 : after (opsL1 (F := Ideal)) V (Proc.devRef .tc main_arg7) = V (Proc.devRef .tc main_arg7) :=
  after_of_writes_sub opsL1 V opsL1_writes (by decide)
theorem keepL1_arg8 : after (opsL1 (F := Ideal)) V (Proc.devRef .tc main_arg8) = V (Proc.devRef .tc main_arg8) :=
  after_of_writes_sub opsL1 V opsL1_writes (by decide)
theorem keepL1_arg9 : after (opsL1 (F := Ideal)) V (Proc.devRef .tc main_arg9) = V (Proc.devRef .tc main_arg9) :=
  after_of_writes_sub opsL1 V opsL1_writes (by decide)
theorem keepL1_arg10 : after (opsL1 (F := Ideal)) V (Proc.devRef .tc main_arg10) = V (Proc.devRef .tc main_arg10) :=
  after_of_writes_sub opsL1 V opsL1_writes (by decide)
theorem keepL1_arg11 : after (opsL1 (F := Ideal)) V (Proc.devRef .tc main_arg11) = V (Proc.devRef .tc main_arg11) :=
  after_of_writes_sub opsL1 V opsL1_writes (by decide)
theorem keepL2_arg2 : after (opsL2 (F := Ideal)) V (Proc.devRef .tc main_arg2) = V (Proc.devRef .tc main_arg2) :=
  after_of_writes_sub opsL2 V opsL2_writes (by decide)
theorem keepL2_arg3 : after (opsL2 (F := Ideal)) V (Proc.devRef .tc main_arg3) = V (Proc.devRef .tc main_arg3) :=
  after_of_writes_sub opsL2 V opsL2_writes (by decide)
theorem keepL2_arg10 : after (opsL2 (F := Ideal)) V (Proc.devRef .tc main_arg10) = V (Proc.devRef .tc main_arg10) :=
  after_of_writes_sub opsL2 V opsL2_writes (by decide)
theorem keepL2_arg11 : after (opsL2 (F := Ideal)) V (Proc.devRef .tc main_arg11) = V (Proc.devRef .tc main_arg11) :=
  after_of_writes_sub opsL2 V opsL2_writes (by decide)

end Cert.ReferenceIdeal.RValue

end
-- ==== Proof.RefValue.lean ====
/-
  The reference program's three stretches read over any buffer contents: the two layers at an entry and the tail.
-/
import proofs.«145191_j28020366639688_2_alg».proof.Proof.RefValue1
import proofs.«145191_j28020366639688_2_alg».proof.Proof.RefValue2
import proofs.«145191_j28020366639688_2_alg».proof.Proof.RefValueT
-- ==== Proof.Bridge.lean ====
/-
  The two programs' results are one function of the arguments.

  Both results are the tail of a second-layer output.  The kernel's first layer (project, then aggregate and scale
  by the reciprocal of the divisor) and the reference's (aggregate, divide, then project) are one array when the
  features and the first weights are real; the second layers are then one array, and the tails agree.
-/
import proofs.«145191_j28020366639688_2_alg».proof.Proof.KernelValue
import proofs.«145191_j28020366639688_2_alg».proof.Proof.RefValue
import proofs.«145191_j28020366639688_2_alg».proof.Proof.SageLayers

noncomputable section

namespace Cert.Bridge

open Idealize.ShloMosaic Idealize.ShloMosaic.TcCoe Idealize.SL.Sem Idealize.ShloMosaic.StableHlo
open Idealize.ShloMosaic.ValueIdx

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
variable (V' : Valuation Cert.ReferenceIdeal.τ Cert.ReferenceIdeal.sig (Elt Ideal))

set_option maxHeartbeats 1000000 in
/-- The first layers agree. -/
theorem layer1 (a0 : V' (Proc.devRef .tc Cert.ReferenceIdeal.main_arg0) = (m ((c : Thread Cert.KernelIdeal.nD Cert.KernelIdeal.τ).loc Cert.KernelIdeal.main_arg0))) (a1 : V' (Proc.devRef .tc Cert.ReferenceIdeal.main_arg1) = (m ((c : Thread Cert.KernelIdeal.nD Cert.KernelIdeal.τ).loc Cert.KernelIdeal.main_arg1)))
    (a4 : V' (Proc.devRef .tc Cert.ReferenceIdeal.main_arg4) = (m ((c : Thread Cert.KernelIdeal.nD Cert.KernelIdeal.τ).loc Cert.KernelIdeal.main_arg4))) (a5 : V' (Proc.devRef .tc Cert.ReferenceIdeal.main_arg5) = (m ((c : Thread Cert.KernelIdeal.nD Cert.KernelIdeal.τ).loc Cert.KernelIdeal.main_arg5)))
    (a6 : V' (Proc.devRef .tc Cert.ReferenceIdeal.main_arg6) = (m ((c : Thread Cert.KernelIdeal.nD Cert.KernelIdeal.τ).loc Cert.KernelIdeal.main_arg6)))
    (hx : ∃ f : Cert.KernelIdeal.S50000x128.Idx → ℝ, (m ((c : Thread Cert.KernelIdeal.nD Cert.KernelIdeal.τ).loc Cert.KernelIdeal.main_arg0)) = fun i => ((f i : ℝ) : EReal))
    (hw : ∃ g : Cert.KernelIdeal.S64x128.Idx → ℝ, (m ((c : Thread Cert.KernelIdeal.nD Cert.KernelIdeal.τ).loc Cert.KernelIdeal.main_arg4)) = fun i => ((g i : ℝ) : EReal)) :
    Cert.KernelIdeal.KValue.h1K m ρ c = after (Cert.ReferenceIdeal.RefRun.opsL1 (F := Ideal)) V' (Proc.devRef .tc Cert.ReferenceIdeal.main_v31) := by
  have hm := Cert.ReferenceIdeal.RValue.mean1_apply V'
  have hh := Cert.ReferenceIdeal.RValue.h1_apply V'
  rw [a0, a1] at hm
  rw [a0, a4, a5, a6] at hh
  obtain ⟨g, hg⟩ := hw
  refine Sage.layer1_eq _ _ _ _ _ _ _ _ _ _ _ _ hx
    ⟨fun i => g (Cert.KernelIdeal.Facts₀.transposes_S64x128_S128x64_1_0.src i), by rw [hg]; rfl⟩
    (Cert.KernelIdeal.KValue.inv_apply m c) (Cert.KernelIdeal.KValue.pK_apply m ρ c) (Cert.KernelIdeal.KValue.m1K_apply m ρ c)
    (Cert.KernelIdeal.KValue.h1K_apply m ρ c) hm hh

set_option maxHeartbeats 1000000 in
/-- The second layers agree. -/
theorem layer2 (a1 : V' (Proc.devRef .tc Cert.ReferenceIdeal.main_arg1) = (m ((c : Thread Cert.KernelIdeal.nD Cert.KernelIdeal.τ).loc Cert.KernelIdeal.main_arg1)))
    (a7 : V' (Proc.devRef .tc Cert.ReferenceIdeal.main_arg7) = (m ((c : Thread Cert.KernelIdeal.nD Cert.KernelIdeal.τ).loc Cert.KernelIdeal.main_arg7))) (a8 : V' (Proc.devRef .tc Cert.ReferenceIdeal.main_arg8) = (m ((c : Thread Cert.KernelIdeal.nD Cert.KernelIdeal.τ).loc Cert.KernelIdeal.main_arg8)))
    (a9 : V' (Proc.devRef .tc Cert.ReferenceIdeal.main_arg9) = (m ((c : Thread Cert.KernelIdeal.nD Cert.KernelIdeal.τ).loc Cert.KernelIdeal.main_arg9)))
    (e1 : Cert.KernelIdeal.KValue.h1K m ρ c = after (Cert.ReferenceIdeal.RefRun.opsL1 (F := Ideal)) V' (Proc.devRef .tc Cert.ReferenceIdeal.main_v31)) :
    Cert.KernelIdeal.KValue.h2K m ρ c
      = after (Cert.ReferenceIdeal.RefRun.opsL2 (F := Ideal)) (after (Cert.ReferenceIdeal.RefRun.opsL1 (F := Ideal)) V') (Proc.devRef .tc Cert.ReferenceIdeal.main_v59) := by
  have hm := Cert.ReferenceIdeal.RValue.mean2_apply (after (Cert.ReferenceIdeal.RefRun.opsL1 (F := Ideal)) V')
  have hh := Cert.ReferenceIdeal.RValue.h2_apply (after (Cert.ReferenceIdeal.RefRun.opsL1 (F := Ideal)) V')
  rw [Cert.ReferenceIdeal.RValue.l1_v1, Cert.ReferenceIdeal.RValue.l1_v3, a1, ← e1] at hm
  rw [Cert.ReferenceIdeal.RValue.keepL1_arg7, Cert.ReferenceIdeal.RValue.keepL1_arg8, Cert.ReferenceIdeal.RValue.keepL1_arg9, a7, a8, a9, ← e1] at hh
  exact Sage.layer2_eq _ _ _ _ _ _ _ _ _ _ _
    (Cert.KernelIdeal.KValue.inv_apply m c) (Cert.KernelIdeal.KValue.m2K_apply m ρ c) (Cert.KernelIdeal.KValue.h2K_apply m ρ c) hm hh

set_option maxHeartbeats 1000000 in
/-- The reference's result, over contents that agree with the kernel's launch memory on the arguments, is the
    kernel's result term. -/
theorem result_eq
    (a0 : V' (Proc.devRef .tc Cert.ReferenceIdeal.main_arg0) = (m ((c : Thread Cert.KernelIdeal.nD Cert.KernelIdeal.τ).loc Cert.KernelIdeal.main_arg0)))
    (a1 : V' (Proc.devRef .tc Cert.ReferenceIdeal.main_arg1) = (m ((c : Thread Cert.KernelIdeal.nD Cert.KernelIdeal.τ).loc Cert.KernelIdeal.main_arg1)))
    (a2 : V' (Proc.devRef .tc Cert.ReferenceIdeal.main_arg2) = (m ((c : Thread Cert.KernelIdeal.nD Cert.KernelIdeal.τ).loc Cert.KernelIdeal.main_arg2)))
    (a3 : V' (Proc.devRef .tc Cert.ReferenceIdeal.main_arg3) = (m ((c : Thread Cert.KernelIdeal.nD Cert.KernelIdeal.τ).loc Cert.KernelIdeal.main_arg3)))
    (a4 : V' (Proc.devRef .tc Cert.ReferenceIdeal.main_arg4) = (m ((c : Thread Cert.KernelIdeal.nD Cert.KernelIdeal.τ).loc Cert.KernelIdeal.main_arg4)))
    (a5 : V' (Proc.devRef .tc Cert.ReferenceIdeal.main_arg5) = (m ((c : Thread Cert.KernelIdeal.nD Cert.KernelIdeal.τ).loc Cert.KernelIdeal.main_arg5)))
    (a6 : V' (Proc.devRef .tc Cert.ReferenceIdeal.main_arg6) = (m ((c : Thread Cert.KernelIdeal.nD Cert.KernelIdeal.τ).loc Cert.KernelIdeal.main_arg6)))
    (a7 : V' (Proc.devRef .tc Cert.ReferenceIdeal.main_arg7) = (m ((c : Thread Cert.KernelIdeal.nD Cert.KernelIdeal.τ).loc Cert.KernelIdeal.main_arg7)))
    (a8 : V' (Proc.devRef .tc Cert.ReferenceIdeal.main_arg8) = (m ((c : Thread Cert.KernelIdeal.nD Cert.KernelIdeal.τ).loc Cert.KernelIdeal.main_arg8)))
    (a9 : V' (Proc.devRef .tc Cert.ReferenceIdeal.main_arg9) = (m ((c : Thread Cert.KernelIdeal.nD Cert.KernelIdeal.τ).loc Cert.KernelIdeal.main_arg9)))
    (a10 : V' (Proc.devRef .tc Cert.ReferenceIdeal.main_arg10) = (m ((c : Thread Cert.KernelIdeal.nD Cert.KernelIdeal.τ).loc Cert.KernelIdeal.main_arg10)))
    (a11 : V' (Proc.devRef .tc Cert.ReferenceIdeal.main_arg11) = (m ((c : Thread Cert.KernelIdeal.nD Cert.KernelIdeal.τ).loc Cert.KernelIdeal.main_arg11)))
    (hx : ∃ f : Cert.KernelIdeal.S50000x128.Idx → ℝ, (m ((c : Thread Cert.KernelIdeal.nD Cert.KernelIdeal.τ).loc Cert.KernelIdeal.main_arg0)) = fun i => ((f i : ℝ) : EReal))
    (hw : ∃ g : Cert.KernelIdeal.S64x128.Idx → ℝ, (m ((c : Thread Cert.KernelIdeal.nD Cert.KernelIdeal.τ).loc Cert.KernelIdeal.main_arg4)) = fun i => ((g i : ℝ) : EReal)) :
    after (Cert.ReferenceIdeal.RefRun.ops (F := Ideal)) V' (Proc.devRef .tc Cert.ReferenceIdeal.main_v85)
      = Cert.KernelIdeal.Terms.tailFn (Cert.KernelIdeal.KValue.h2K m ρ c) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg10))
          (m ((c : Thread Cert.KernelIdeal.nD Cert.KernelIdeal.τ).loc Cert.KernelIdeal.main_arg11)) := by
  have e1 := layer1 m ρ c V' a0 a1 a4 a5 a6 hx hw
  have e2 := layer2 m ρ c V' a1 a7 a8 a9 e1
  rw [Cert.ReferenceIdeal.RefRun.after_ops, Cert.ReferenceIdeal.RValue.tail_eq, ← e2,
    Cert.ReferenceIdeal.RValue.keepL2_arg2, Cert.ReferenceIdeal.RValue.keepL2_arg3, Cert.ReferenceIdeal.RValue.keepL2_arg10, Cert.ReferenceIdeal.RValue.keepL2_arg11,
    Cert.ReferenceIdeal.RValue.keepL1_arg2, Cert.ReferenceIdeal.RValue.keepL1_arg3, Cert.ReferenceIdeal.RValue.keepL1_arg10, Cert.ReferenceIdeal.RValue.keepL1_arg11,
    a2, a3, a10, a11]

end Cert.Bridge

end
-- ==== Proof.lean ====
/-
  A two-layer mean-aggregating graph convolution over 50000 nodes and 800000 edges, followed by a gather of 500
  centre nodes and a linear output: a program of three pipelined kernels among host gathers and accumulating
  scatters, against a plain host reference.

  Frames: both kernel programs' runs are the generated ones; the reference is a straight line of host
  operations, whose run terminates with every argument unchanged.  The idealization rewrote nothing, so there is
  nothing to preserve.

  Values at the extended reals.  The kernel program projects the features through the first neighbour weights
  before it aggregates them over the edges, and multiplies each node's aggregate by 1 / max (degree, 1); the
  reference aggregates first, divides by max (degree, 1), and projects afterwards.  The degree is a count, so
  max (degree, 1) is a real number ≥ 1 and dividing by it is multiplying by its reciprocal, at infinite values
  too.  Projection is a finite sum of products with the weights; it commutes with the gather, with the finite
  sum over the landing edges and with the scaling when the features and the weights are real numbers, which the
  precondition (every float input finite) gives.  So the first layers' outputs are one array; the second
  layers apply the same expression to it (only reciprocal against quotient differs), and both programs finish
  with the same tail.
-/
import proofs.«145191_j28020366639688_2_alg».proof.Defs
import proofs.«145191_j28020366639688_2_alg».proof.Proof.Gen.Kernel
import proofs.«145191_j28020366639688_2_alg».proof.Proof.Gen.Kernel.Frame
import proofs.«145191_j28020366639688_2_alg».proof.Proof.Gen.KernelIdeal
import proofs.«145191_j28020366639688_2_alg».proof.Proof.Gen.KernelIdeal.Frame
import proofs.«145191_j28020366639688_2_alg».proof.Proof.Gen.ReferenceIdeal
import proofs.«145191_j28020366639688_2_alg».proof.Proof.Gen.Pre_finite_inputs
import proofs.«145191_j28020366639688_2_alg».proof.Proof.KernelRun
import proofs.«145191_j28020366639688_2_alg».proof.Proof.RefRun
import proofs.«145191_j28020366639688_2_alg».proof.Proof.Finite
import proofs.«145191_j28020366639688_2_alg».proof.Proof.Bridge

noncomputable section

namespace Cert.Proof

open Idealize.ShloMosaic Idealize.SL.Sem Idealize.ShloMosaic.StableHlo

theorem frame_k : Cert.frame_Kernel (hKernel := Cert.Kernel.Gen.facts)
    (hPre_finite_inputs := Cert.Pre_finite_inputs.Gen.facts) :=
  fun m ρ _ => Cert.Kernel.Gen.frame m ρ

theorem frame_ki : Cert.frame_KernelIdeal (hKernelIdeal := Cert.KernelIdeal.Gen.facts)
    (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts)
    (hPre_finite_inputs := Cert.Pre_finite_inputs.Gen.facts) :=
  fun m ρ _ => Cert.ReferenceIdeal.RefRun.frame m ρ

theorem preserves : Cert.preserves_Kernel_KernelIdeal := trivial

/-- Both idealized programs run, the arguments unchanged, and end with one result: the tail of the second layer's
    output. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.Pre_finite_inputs.Finite.real_args _ _ _ _ _ _ _ _ _ _ _ _ (hpre c)
  refine ⟨fun c => Cert.KernelIdeal.Terms.tailFn (Cert.KernelIdeal.KValue.h2K m ρ c) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run _ _ _).mono
      (fun r h c => ⟨(h c).1.trans (Cert.KernelIdeal.KValue.result_eq m ρ c), (h c).2⟩) (Cert.KernelIdeal.Run.run_main m ρ)
  · refine (θ_run _ _ _).mono (fun r h c => ?_) (Cert.ReferenceIdeal.RefRun.run_main m' ρ')
    obtain ⟨g0, g1, g2, g3, g4, g5, g6, g7, g8, g9, g10, g11⟩ := hagree c
    exact ⟨(h c Cert.ReferenceIdeal.main_v85).trans
        (Cert.Bridge.result_eq m ρ c (launchContents m' c) g0 g1 g2 g3 g4 g5 g6 g7 g8 g9 g10 g11 (hfin c).1 (hfin c).2),
      (h c Cert.ReferenceIdeal.main_arg0).trans (Cert.ReferenceIdeal.RefRun.arg0_eq _), (h c Cert.ReferenceIdeal.main_arg1).trans (Cert.ReferenceIdeal.RefRun.arg1_eq _),
      (h c Cert.ReferenceIdeal.main_arg2).trans (Cert.ReferenceIdeal.RefRun.arg2_eq _), (h c Cert.ReferenceIdeal.main_arg3).trans (Cert.ReferenceIdeal.RefRun.arg3_eq _),
      (h c Cert.ReferenceIdeal.main_arg4).trans (Cert.ReferenceIdeal.RefRun.arg4_eq _), (h c Cert.ReferenceIdeal.main_arg5).trans (Cert.ReferenceIdeal.RefRun.arg5_eq _),
      (h c Cert.ReferenceIdeal.main_arg6).trans (Cert.ReferenceIdeal.RefRun.arg6_eq _), (h c Cert.ReferenceIdeal.main_arg7).trans (Cert.ReferenceIdeal.RefRun.arg7_eq _),
      (h c Cert.ReferenceIdeal.main_arg8).trans (Cert.ReferenceIdeal.RefRun.arg8_eq _), (h c Cert.ReferenceIdeal.main_arg9).trans (Cert.ReferenceIdeal.RefRun.arg9_eq _),
      (h c Cert.ReferenceIdeal.main_arg10).trans (Cert.ReferenceIdeal.RefRun.arg10_eq _), (h c Cert.ReferenceIdeal.main_arg11).trans (Cert.ReferenceIdeal.RefRun.arg11_eq _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
